-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x15 : Shape := ⟨2, ![100000, 15]⟩
abbrev S2x3200000 : Shape := ⟨2, ![2, 3200000]⟩
abbrev S15x8 : Shape := ⟨2, ![15, 8]⟩
abbrev S8 : Shape := ⟨1, ![8]⟩
abbrev S8x8 : Shape := ⟨2, ![8, 8]⟩
abbrev S8x2 : Shape := ⟨2, ![8, 2]⟩
abbrev S2 : Shape := ⟨1, ![2]⟩
abbrev S2x8 : Shape := ⟨2, ![2, 8]⟩
abbrev S8x15 : Shape := ⟨2, ![8, 15]⟩
abbrev S15 : Shape := ⟨1, ![15]⟩
abbrev S_ : Shape := ⟨0, ![]⟩

class Facts : Prop where
  bcast_S_S100000x15 : S_.BroadcastsInDim S100000x15 (![] : Fin 0 → Fin S100000x15.rank)
  reducesTo_S100000x15_S_d0_1 : S100000x15.ReducesTo [0, 1] S_
  h_S_ : 0 < S_.numel
  bcast_S_S15x8 : S_.BroadcastsInDim S15x8 (![] : Fin 0 → Fin S15x8.rank)
  reducesTo_S15x8_S_d0_1 : S15x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_
  bcast_S_S2x8 : S_.BroadcastsInDim S2x8 (![] : Fin 0 → Fin S2x8.rank)
  reducesTo_S2x8_S_d0_1 : S2x8.ReducesTo [0, 1] S_
  bcast_S_S8x15 : S_.BroadcastsInDim S8x15 (![] : Fin 0 → Fin S8x15.rank)
  reducesTo_S8x15_S_d0_1 : S8x15.ReducesTo [0, 1] S_
  bcast_S_S15 : S_.BroadcastsInDim S15 (![] : Fin 0 → Fin S15.rank)
  reducesTo_S15_S_d0 : S15.ReducesTo [0] S_

variable [Facts]

def fn_part3 {F : FTy → Type} [FloatOps F] (main_arg12 : FVec F S8x15 .f32) (main_arg13 : FVec F S15 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x15 .f32 := Host.absf main_arg12
  let main_cst_20 : FVec F S_ .f32 := constant S_ .f32 0x7F800000#32
  let main_v55 : FVec F S8x15 .f32 := broadcastInDim S8x15 ![] bcast_S_S8x15 main_cst_20
  let main_v56 : IVec S8x15 1 := cmpf .olt main_v54 main_v55
  let main_c_21 : IVec S_ 1 := constantI S_ 1 1#1
  let main_v57 : IVec S_ 1 := (fun x v => Host.reduce IntOp.andi x v reducesTo_S8x15_S_d0_1 h_S_) main_v56 main_c_21
  let main_v58 : IVec S_ 1 := andi main_v53 main_v57
  let main_v59 : FVec F S15 .f32 := Host.absf main_arg13
  let main_cst_22 : FVec F S_ .f32 := constant S_ .f32 0x7F800000#32
  let main_v60 : FVec F S15 .f32 := broadcastInDim S15 ![] bcast_S_S15 main_cst_22
  let main_v61 : IVec S15 1 := cmpf .olt main_v59 main_v60
  let main_c_23 : IVec S_ 1 := constantI S_ 1 1#1
  let main_v62 : IVec S_ 1 := (fun x v => Host.reduce IntOp.andi x v reducesTo_S15_S_d0 h_S_) main_v61 main_c_23
  let main_v63 : IVec S_ 1 := andi main_v58 main_v62
  main_v63

def fn_part2 {F : FTy → Type} [FloatOps F] (main_arg8 : FVec F S2x8 .f32) (main_arg9 : FVec F S8 .f32) (main_arg10 : FVec F S8x8 .f32) (main_arg11 : FVec F S8 .f32) (main_arg12 : FVec F S8x15 .f32) (main_arg13 : FVec F S15 .f32) (main_v33 : IVec S_ 1) : IVec S_ 1 :=
  let main_v34 : FVec F S2x8 .f32 := Host.absf main_arg8
  let main_cst_12 : FVec F S_ .f32 := constant S_ .f32 0x7F800000#32
  let main_v35 : FVec F S2x8 .f32 := broadcastInDim S2x8 ![] bcast_S_S2x8 main_cst_12
  let main_v36 : IVec S2x8 1 := cmpf .olt main_v34 main_v35
  let main_c_13 : IVec S_ 1 := constantI S_ 1 1#1
  let main_v37 : IVec S_ 1 := (fun x v => Host.reduce IntOp.andi x v reducesTo_S2x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg10
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_arg12 main_arg13 main_v48 main_v49 main_v50

def fn_part1 {F : FTy → Type} [FloatOps F] (main_arg5 : FVec F S8 .f32) (main_arg6 : FVec F S8x2 .f32) (main_arg7 : FVec F S2 .f32) (main_arg8 : FVec F S2x8 .f32) (main_arg9 : FVec F S8 .f32) (main_arg10 : FVec F S8x8 .f32) (main_arg11 : FVec F S8 .f32) (main_arg12 : FVec F S8x15 .f32) (main_arg13 : FVec F S15 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x2 .f32 := Host.absf main_arg6
  let main_cst_8 : FVec F S_ .f32 := constant S_ .f32 0x7F800000#32
  let main_v25 : FVec F S8x2 .f32 := broadcastInDim S8x2 ![] bcast_S_S8x2 main_cst_8
  let main_v26 : IVec S8x2 1 := cmpf .olt main_v24 main_v25
  let main_c_9 : IVec S_ 1 := constantI S_ 1 1#1
  let main_v27 : IVec S_ 1 := (fun x v => Host.reduce IntOp.andi x v reducesTo_S8x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x15 .f32) (main_arg1 : IVec S2x3200000 32) (main_arg2 : FVec F S15x8 .f32) (main_arg3 : FVec F S8 .f32) (main_arg4 : FVec F S8x8 .f32) (main_arg5 : FVec F S8 .f32) (main_arg6 : FVec F S8x2 .f32) (main_arg7 : FVec F S2 .f32) (main_arg8 : FVec F S2x8 .f32) (main_arg9 : FVec F S8 .f32) (main_arg10 : FVec F S8x8 .f32) (main_arg11 : FVec F S8 .f32) (main_arg12 : FVec F S8x15 .f32) (main_arg13 : FVec F S15 .f32) : IVec S_ 1 :=
  let main_v0 : FVec F S100000x15 .f32 := Host.absf main_arg0
  let main_cst : FVec F S_ .f32 := constant S_ .f32 0x7F800000#32
  let main_v1 : FVec F S100000x15 .f32 := broadcastInDim S100000x15 ![] bcast_S_S100000x15 main_cst
  let main_v2 : IVec S100000x15 1 := cmpf .olt main_v0 main_v1
  let main_c : IVec S_ 1 := constantI S_ 1 1#1
  let main_v3 : IVec S_ 1 := (fun x v => Host.reduce IntOp.andi x v reducesTo_S100000x15_S_d0_1 h_S_) main_v2 main_c
  let main_v4 : FVec F S15x8 .f32 := Host.absf main_arg2
  let main_cst_0 : FVec F S_ .f32 := constant S_ .f32 0x7F800000#32
  let main_v5 : FVec F S15x8 .f32 := broadcastInDim S15x8 ![] bcast_S_S15x8 main_cst_0
  let main_v6 : IVec S15x8 1 := cmpf .olt main_v4 main_v5
  let main_c_1 : IVec S_ 1 := constantI S_ 1 1#1
  let main_v7 : IVec S_ 1 := (fun x v => Host.reduce IntOp.andi x v reducesTo_S15x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg4
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg5 main_arg6 main_arg7 main_arg8 main_arg9 main_arg10 main_arg11 main_arg12 main_arg13 main_v13 main_v16
-- ==== Kernel.lean ====
abbrev S100000x15 : Shape := ⟨2, ![100000, 15]⟩
abbrev S2x3200000 : Shape := ⟨2, ![2, 3200000]⟩
abbrev S15x8 : Shape := ⟨2, ![15, 8]⟩
abbrev S8 : Shape := ⟨1, ![8]⟩
abbrev S8x8 : Shape := ⟨2, ![8, 8]⟩
abbrev S8x2 : Shape := ⟨2, ![8, 2]⟩
abbrev S2 : Shape := ⟨1, ![2]⟩
abbrev S2x8 : Shape := ⟨2, ![2, 8]⟩
abbrev S8x15 : Shape := ⟨2, ![8, 15]⟩
abbrev S15 : Shape := ⟨1, ![15]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3301376 : Shape := ⟨1, ![3301376]⟩
abbrev S3301376x1 : Shape := ⟨2, ![3301376, 1]⟩
abbrev S100000x8 : Shape := ⟨2, ![100000, 8]⟩
abbrev S3301376x8 : Shape := ⟨2, ![3301376, 8]⟩
abbrev S4096x8 : Shape := ⟨2, ![4096, 8]⟩
abbrev S4096x1 : Shape := ⟨2, ![4096, 1]⟩
abbrev S1x8 : Shape := ⟨2, ![1, 8]⟩
abbrev S100000x2 : Shape := ⟨2, ![100000, 2]⟩
abbrev S3301376x2 : Shape := ⟨2, ![3301376, 2]⟩
abbrev S4096x2 : Shape := ⟨2, ![4096, 2]⟩
abbrev S1x2 : Shape := ⟨2, ![1, 2]⟩
abbrev S3301376x15 : Shape := ⟨2, ![3301376, 15]⟩
abbrev S4096x15 : Shape := ⟨2, ![4096, 15]⟩
abbrev S1x15 : Shape := ⟨2, ![1, 15]⟩
abbrev S100000x1 : Shape := ⟨2, ![100000, 1]⟩
abbrev S2000x15 : Shape := ⟨2, ![2000, 15]⟩
abbrev S2000x1 : Shape := ⟨2, ![2000, 1]⟩
abbrev S2000 : Shape := ⟨1, ![2000]⟩

abbrev nBuf : Space → Nat
  | .hbm => 186
  | .vmem => 42
  | .smem => 0
  | _ => 0

abbrev hbmTy0_0 (i : Nat) : BufTy := match i % 128 with
  | 0 => ⟨S100000x15, .f32⟩
  | 1 => ⟨S2x3200000, .i32⟩
  | 2 => ⟨S15x8, .f32⟩
  | 3 => ⟨S8, .f32⟩
  | 4 => ⟨S8x8, .f32⟩
  | 5 => ⟨S8, .f32⟩
  | 6 => ⟨S8x2, .f32⟩
  | 7 => ⟨S2, .f32⟩
  | 8 => ⟨S2x8, .f32⟩
  | 9 => ⟨S8, .f32⟩
  | 10 => ⟨S8x8, .f32⟩
  | 11 => ⟨S8, .f32⟩
  | 12 => ⟨S8x15, .f32⟩
  | 13 => ⟨S15, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S_, .i32⟩
  | 56 => ⟨S3301376, .i32⟩
  | 57 => ⟨S_, .i32⟩
  | 58 => ⟨S_, .i32⟩
  | 59 => ⟨S3301376, .i32⟩
  | 60 => ⟨S_, .f32⟩
  | 61 => ⟨S_, .f32⟩
  | 62 => ⟨S3301376, .f32⟩
  | 63 => ⟨S3301376x1, .f32⟩
  | 64 => ⟨S100000x8, .f32⟩
  | 65 => ⟨S_, .i32⟩
  | 66 => ⟨S3301376, .i32⟩
  | 67 => ⟨S3301376, .i1⟩
  | 68 => ⟨S_, .i32⟩
  | 69 => ⟨S3301376, .i32⟩
  | 70 => ⟨S3301376, .i32⟩
  | 71 => ⟨S3301376, .i32⟩
  | 72 => ⟨S3301376x1, .i32⟩
  | 73 => ⟨S3301376x8, .f32⟩
  | 74 => ⟨S3301376x8, .f32⟩
  | 75 => ⟨S_, .f32⟩
  | 76 => ⟨S100000x8, .f32⟩
  | 77 => ⟨S3301376x1, .i32⟩
  | 78 => ⟨S100000x8, .f32⟩
  | 79 => ⟨S1x8, .f32⟩
  | 80 => ⟨S100000x8, .f32⟩
  | 81 => ⟨S100000x8, .f32⟩
  | 82 => ⟨S_, .f32⟩
  | 83 => ⟨S100000x8, .f32⟩
  | 84 => ⟨S100000x8, .f32⟩
  | 85 => ⟨S100000x8, .f32⟩
  | 86 => ⟨S_, .i32⟩
  | 87 => ⟨S3301376, .i32⟩
  | 88 => ⟨S3301376, .i1⟩
  | 89 => ⟨S_, .i32⟩
  | 90 => ⟨S3301376, .i32⟩
  | 91 => ⟨S3301376, .i32⟩
  | 92 => ⟨S3301376, .i32⟩
  | 93 => ⟨S3301376x1, .i32⟩
  | 94 => ⟨S3301376x8, .f32⟩
  | 95 => ⟨S3301376x8, .f32⟩
  | 96 => ⟨S_, .f32⟩
  | 97 => ⟨S100000x8, .f32⟩
  | 98 => ⟨S3301376x1, .i32⟩
  | 99 => ⟨S100000x8, .f32⟩
  | 100 => ⟨S1x8, .f32⟩
  | 101 => ⟨S100000x8, .f32⟩
  | 102 => ⟨S100000x8, .f32⟩
  | 103 => ⟨S_, .f32⟩
  | 104 => ⟨S100000x8, .f32⟩
  | 105 => ⟨S100000x8, .f32⟩
  | 106 => ⟨S100000x2, .f32⟩
  | 107 => ⟨S_, .i32⟩
  | 108 => ⟨S3301376, .i32⟩
  | 109 => ⟨S3301376, .i1⟩
  | 110 => ⟨S_, .i32⟩
  | 111 => ⟨S3301376, .i32⟩
  | 112 => ⟨S3301376, .i32⟩
  | 113 => ⟨S3301376, .i32⟩
  | 114 => ⟨S3301376x1, .i32⟩
  | 115 => ⟨S3301376x2, .f32⟩
  | 116 => ⟨S3301376x2, .f32⟩
  | 117 => ⟨S_, .f32⟩
  | 118 => ⟨S100000x2, .f32⟩
  | 119 => ⟨S3301376x1, .i32⟩
  | 120 => ⟨S100000x2, .f32⟩
  | 121 => ⟨S1x2, .f32⟩
  | 122 => ⟨S100000x2, .f32⟩
  | 123 => ⟨S100000x2, .f32⟩
  | 124 => ⟨S100000x8, .f32⟩
  | 125 => ⟨S_, .i32⟩
  | 126 => ⟨S3301376, .i32⟩
  | 127 => ⟨S3301376, .i1⟩
  | _ => ⟨S100000x15, .f32⟩

abbrev hbmTy0_1 (i : Nat) : BufTy := match i % 128 with
  | 0 => ⟨S_, .i32⟩
  | 1 => ⟨S3301376, .i32⟩
  | 2 => ⟨S3301376, .i32⟩
  | 3 => ⟨S3301376, .i32⟩
  | 4 => ⟨S3301376x1, .i32⟩
  | 5 => ⟨S3301376x8, .f32⟩
  | 6 => ⟨S3301376x8, .f32⟩
  | 7 => ⟨S_, .f32⟩
  | 8 => ⟨S100000x8, .f32⟩
  | 9 => ⟨S3301376x1, .i32⟩
  | 10 => ⟨S100000x8, .f32⟩
  | 11 => ⟨S1x8, .f32⟩
  | 12 => ⟨S100000x8, .f32⟩
  | 13 => ⟨S100000x8, .f32⟩
  | 14 => ⟨S_, .f32⟩
  | 15 => ⟨S100000x8, .f32⟩
  | 16 => ⟨S100000x8, .f32⟩
  | 17 => ⟨S100000x8, .f32⟩
  | 18 => ⟨S_, .i32⟩
  | 19 => ⟨S3301376, .i32⟩
  | 20 => ⟨S3301376, .i1⟩
  | 21 => ⟨S_, .i32⟩
  | 22 => ⟨S3301376, .i32⟩
  | 23 => ⟨S3301376, .i32⟩
  | 24 => ⟨S3301376, .i32⟩
  | 25 => ⟨S3301376x1, .i32⟩
  | 26 => ⟨S3301376x8, .f32⟩
  | 27 => ⟨S3301376x8, .f32⟩
  | 28 => ⟨S_, .f32⟩
  | 29 => ⟨S100000x8, .f32⟩
  | 30 => ⟨S3301376x1, .i32⟩
  | 31 => ⟨S100000x8, .f32⟩
  | 32 => ⟨S1x8, .f32⟩
  | 33 => ⟨S100000x8, .f32⟩
  | 34 => ⟨S100000x8, .f32⟩
  | 35 => ⟨S_, .f32⟩
  | 36 => ⟨S100000x8, .f32⟩
  | 37 => ⟨S100000x8, .f32⟩
  | 38 => ⟨S100000x15, .f32⟩
  | 39 => ⟨S_, .i32⟩
  | 40 => ⟨S3301376, .i32⟩
  | 41 => ⟨S3301376, .i1⟩
  | 42 => ⟨S_, .i32⟩
  | 43 => ⟨S3301376, .i32⟩
  | 44 => ⟨S3301376, .i32⟩
  | 45 => ⟨S3301376, .i32⟩
  | 46 => ⟨S3301376x1, .i32⟩
  | 47 => ⟨S3301376x15, .f32⟩
  | 48 => ⟨S3301376x15, .f32⟩
  | 49 => ⟨S_, .f32⟩
  | 50 => ⟨S100000x15, .f32⟩
  | 51 => ⟨S3301376x1, .i32⟩
  | 52 => ⟨S100000x15, .f32⟩
  | 53 => ⟨S1x15, .f32⟩
  | 54 => ⟨S100000x15, .f32⟩
  | 55 => ⟨S100000x15, .f32⟩
  | 56 => ⟨S100000x1, .f32⟩
  | 57 => ⟨S100000, .f32⟩
  | _ => ⟨S100000x15, .f32⟩

abbrev hbmTy (i : Nat) : BufTy := match i / 128 with
  | 0 => hbmTy0_0 i
  | 1 => hbmTy0_1 i
  | _ => ⟨S100000x15, .f32⟩

abbrev bufTy : (tb : Table) → Fin (tcTables nBuf tb) → BufTy
  | .hbm, ⟨i, _⟩ => hbmTy i
  | .local _ .vmem, ⟨0, _⟩ => ⟨S4096x8, .f32⟩
  | .local _ .vmem, ⟨1, _⟩ => ⟨S4096x8, .f32⟩
  | .local _ .vmem, ⟨2, _⟩ => ⟨S4096x1, .f32⟩
  | .local _ .vmem, ⟨3, _⟩ => ⟨S4096x1, .f32⟩
  | .local _ .vmem, ⟨4, _⟩ => ⟨S4096x8, .f32⟩
  | .local _ .vmem, ⟨5, _⟩ => ⟨S4096x8, .f32⟩
  | .local _ .vmem, ⟨6, _⟩ => ⟨S4096x8, .f32⟩
  | .local _ .vmem, ⟨7, _⟩ => ⟨S4096x8, .f32⟩
  | .local _ .vmem, ⟨8, _⟩ => ⟨S4096x1, .f32⟩
  | .local _ .vmem, ⟨9, _⟩ => ⟨S4096x1, .f32⟩
  | .local _ .vmem, ⟨10, _⟩ => ⟨S4096x8, .f32⟩
  | .local _ .vmem, ⟨11, _⟩ => ⟨S4096x8, .f32⟩
  | .local _ .vmem, ⟨12, _⟩ => ⟨S4096x2, .f32⟩
  | .local _ .vmem, ⟨13, _⟩ => ⟨S4096x2, .f32⟩
  | .local _ .vmem, ⟨14, _⟩ => ⟨S4096x1, .f32⟩
  | .local _ .vmem, ⟨15, _⟩ => ⟨S4096x1, .f32⟩
  | .local _ .vmem, ⟨16, _⟩ => ⟨S4096x2, .f32⟩
  | .local _ .vmem, ⟨17, _⟩ => ⟨S4096x2, .f32⟩
  | .local _ .vmem, ⟨18, _⟩ => ⟨S4096x8, .f32⟩
  | .local _ .vmem, ⟨19, _⟩ => ⟨S4096x8, .f32⟩
  | .local _ .vmem, ⟨20, _⟩ => ⟨S4096x1, .f32⟩
  | .local _ .vmem, ⟨21, _⟩ => ⟨S4096x1, .f32⟩
  | .local _ .vmem, ⟨22, _⟩ => ⟨S4096x8, .f32⟩
  | .local _ .vmem, ⟨23, _⟩ => ⟨S4096x8, .f32⟩
  | .local _ .vmem, ⟨24, _⟩ => ⟨S4096x8, .f32⟩
  | .local _ .vmem, ⟨25, _⟩ => ⟨S4096x8, .f32⟩
  | .local _ .vmem, ⟨26, _⟩ => ⟨S4096x1, .f32⟩
  | .local _ .vmem, ⟨27, _⟩ => ⟨S4096x1, .f32⟩
  | .local _ .vmem, ⟨28, _⟩ => ⟨S4096x8, .f32⟩
  | .local _ .vmem, ⟨29, _⟩ => ⟨S4096x8, .f32⟩
  | .local _ .vmem, ⟨30, _⟩ => ⟨S4096x15, .f32⟩
  | .local _ .vmem, ⟨31, _⟩ => ⟨S4096x15, .f32⟩
  | .local _ .vmem, ⟨32, _⟩ => ⟨S4096x1, .f32⟩
  | .local _ .vmem, ⟨33, _⟩ => ⟨S4096x1, .f32⟩
  | .local _ .vmem, ⟨34, _⟩ => ⟨S4096x15, .f32⟩
  | .local _ .vmem, ⟨35, _⟩ => ⟨S4096x15, .f32⟩
  | .local _ .vmem, ⟨36, _⟩ => ⟨S2000x15, .f32⟩
  | .local _ .vmem, ⟨37, _⟩ => ⟨S2000x15, .f32⟩
  | .local _ .vmem, ⟨38, _⟩ => ⟨S2000x15, .f32⟩
  | .local _ .vmem, ⟨39, _⟩ => ⟨S2000x15, .f32⟩
  | .local _ .vmem, ⟨40, _⟩ => ⟨S2000x1, .f32⟩
  | .local _ .vmem, ⟨41, _⟩ => ⟨S2000x1, .f32⟩
  | _, _ => ⟨S100000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_call1_v0 : Ref sig .tc := ⟨.hbm, 55, rfl⟩
abbrev main_v30 : Ref sig .tc := ⟨.hbm, 56, rfl⟩
abbrev main_c_7 : Ref sig .tc := ⟨.hbm, 57, rfl⟩
abbrev main_call2_v0 : Ref sig .tc := ⟨.hbm, 58, rfl⟩
abbrev main_v31 : Ref sig .tc := ⟨.hbm, 59, rfl⟩
abbrev main_cst_8 : Ref sig .tc := ⟨.hbm, 60, rfl⟩
abbrev main_call3_v0 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_9 : Ref sig .tc := ⟨.hbm, 65, rfl⟩
abbrev main_v35 : Ref sig .tc := ⟨.hbm, 66, rfl⟩
abbrev main_v36 : Ref sig .tc := ⟨.hbm, 67, rfl⟩
abbrev main_c_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_11 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call4_cst : Ref sig .tc := ⟨.hbm, 82, rfl⟩
abbrev main_call4_v0 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_c_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_14 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_call5_cst : Ref sig .tc := ⟨.hbm, 103, rfl⟩
abbrev main_call5_v0 : Ref sig .tc := ⟨.hbm, 104, rfl⟩
abbrev main_v65 : Ref sig .tc := ⟨.hbm, 105, rfl⟩
abbrev main_v66 : Ref sig .tc := ⟨.hbm, 106, rfl⟩
abbrev main_c_15 : Ref sig .tc := ⟨.hbm, 107, rfl⟩
abbrev main_v67 : Ref sig .tc := ⟨.hbm, 108, rfl⟩
abbrev main_v68 : Ref sig .tc := ⟨.hbm, 109, rfl⟩
abbrev main_c_16 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_17 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_18 : Ref sig .tc := ⟨.hbm, 125, rfl⟩
abbrev main_v82 : Ref sig .tc := ⟨.hbm, 126, rfl⟩
abbrev main_v83 : Ref sig .tc := ⟨.hbm, 127, rfl⟩
abbrev main_c_19 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_20 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_call6_cst : Ref sig .tc := ⟨.hbm, 142, rfl⟩
abbrev main_call6_v0 : Ref sig .tc := ⟨.hbm, 143, rfl⟩
abbrev main_v96 : Ref sig .tc := ⟨.hbm, 144, rfl⟩
abbrev main_v97 : Ref sig .tc := ⟨.hbm, 145, rfl⟩
abbrev main_c_21 : Ref sig .tc := ⟨.hbm, 146, rfl⟩
abbrev main_v98 : Ref sig .tc := ⟨.hbm, 147, rfl⟩
abbrev main_v99 : Ref sig .tc := ⟨.hbm, 148, rfl⟩
abbrev main_c_22 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_23 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_call7_cst : Ref sig .tc := ⟨.hbm, 163, rfl⟩
abbrev main_call7_v0 : Ref sig .tc := ⟨.hbm, 164, rfl⟩
abbrev main_v112 : Ref sig .tc := ⟨.hbm, 165, rfl⟩
abbrev main_v113 : Ref sig .tc := ⟨.hbm, 166, rfl⟩
abbrev main_c_24 : Ref sig .tc := ⟨.hbm, 167, rfl⟩
abbrev main_v114 : Ref sig .tc := ⟨.hbm, 168, rfl⟩
abbrev main_v115 : Ref sig .tc := ⟨.hbm, 169, rfl⟩
abbrev main_c_25 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_26 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨1, ![806], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![806], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![806], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![806], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![806], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![806], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x15 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x15 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x15 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x15 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  pads_S3300000_S3301376_013760 : S3300000.Pads (![0] : Fin 1 → Nat) ![1376] ![0] S3301376
  h_S_ : 0 < S_.numel
  shapeCasts_S3301376_S3301376x1 : S3301376.ShapeCasts S3301376x1
  bcast_S_S3301376 : S_.BroadcastsInDim S3301376 (![] : Fin 0 → Fin S3301376.rank)
  bcast_S3301376_S3301376x1_0 : S3301376.BroadcastsInDim S3301376x1 (![0] : Fin 1 → Fin S3301376x1.rank)
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x8 : S4096x1.Broadcasts S4096x8
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  broadcasts_S4096x1_S4096x2 : S4096x1.Broadcasts S4096x2
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  inb_S4096x15_S4096x15_0_0 : ∀ a, (![0, 0] : Fin 2 → Nat) a + S4096x15.size a ≤ S4096x15.size a
  h_S4096x15 : 0 < S4096x15.numel
  shapeCasts_S4096x15_S4096x15 : S4096x15.ShapeCasts S4096x15
  broadcasts_S4096x1_S4096x15 : S4096x1.Broadcasts S4096x15
  bcast_S_S100000x15 : S_.BroadcastsInDim S100000x15 (![] : Fin 0 → Fin S100000x15.rank)
  bcast_S15_S1x15_1 : S15.BroadcastsInDim S1x15 (![1] : Fin 1 → Fin S1x15.rank)
  bcast_S1x15_S100000x15_0_1 : S1x15.BroadcastsInDim S100000x15 (![0, 1] : Fin 2 → Fin S100000x15.rank)
  inb_S2000x15_S2000x15_0_0 : ∀ a, (![0, 0] : Fin 2 → Nat) a + S2000x15.size a ≤ S2000x15.size a
  h_S2000x15 : 0 < S2000x15.numel
  shapeCasts_S2000x15_S2000x15 : S2000x15.ShapeCasts S2000x15
  reduces_S2000x15_S2000 : S2000x15.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x15_S15x8_S100000x8_1_0_0_1_n_n_wf : DotDims.WF S100000x15 S15x8 S100000x8 [1] [0] [0] [1] [] []
  gather_S100000x8_S3301376x1_S3301376x8_1_0_n_n_0_1_18_wf : GatherDims.WF S100000x8 S3301376x1 S3301376x8 [1] [0] [] [0] [] 1 ![1, 8]
  scatter_S100000x8_S3301376x1_S3301376x8_1_0_0_1_wf : ScatterDims.WF S100000x8 S3301376x1 S3301376x8 [1] [0] [0] 1
  dot_S100000x8_S8x8_S100000x8_1_0_0_1_n_n_wf : DotDims.WF S100000x8 S8x8 S100000x8 [1] [0] [0] [1] [] []
  dot_S100000x8_S8x2_S100000x2_1_0_0_1_n_n_wf : DotDims.WF S100000x8 S8x2 S100000x2 [1] [0] [0] [1] [] []
  gather_S100000x2_S3301376x1_S3301376x2_1_0_n_n_0_1_12_wf : GatherDims.WF S100000x2 S3301376x1 S3301376x2 [1] [0] [] [0] [] 1 ![1, 2]
  scatter_S100000x2_S3301376x1_S3301376x2_1_0_0_1_wf : ScatterDims.WF S100000x2 S3301376x1 S3301376x2 [1] [0] [0] 1
  dot_S100000x2_S2x8_S100000x8_1_0_0_1_n_n_wf : DotDims.WF S100000x2 S2x8 S100000x8 [1] [0] [0] [1] [] []
  dot_S100000x8_S8x15_S100000x15_1_0_0_1_n_n_wf : DotDims.WF S100000x8 S8x15 S100000x15 [1] [0] [0] [1] [] []
  gather_S100000x15_S3301376x1_S3301376x15_1_0_n_n_0_1_115_wf : GatherDims.WF S100000x15 S3301376x1 S3301376x15 [1] [0] [] [0] [] 1 ![1, 15]
  scatter_S100000x15_S3301376x1_S3301376x15_1_0_0_1_wf : ScatterDims.WF S100000x15 S3301376x1 S3301376x15 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S3301376x8.size a
  hwx0_0 : ∀ i : grid0.Coords, EltTy.bits .f32 = 32 ∨ (Rect.block (s := S3301376x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S3301376x1.size a
  hwx0_1 : ∀ i : grid0.Coords, EltTy.bits .f32 = 32 ∨ (Rect.block (s := S3301376x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S3301376x8.size a
  hwx0_2 : ∀ i : grid0.Coords, EltTy.bits .f32 = 32 ∨ (Rect.block (s := S3301376x8) S4096x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x8.size a ≤ S3301376x8.size a
  hwx1_0 : ∀ i : grid1.Coords, EltTy.bits .f32 = 32 ∨ (Rect.block (s := S3301376x8) S4096x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S3301376x1.size a
  hwx1_1 : ∀ i : grid1.Coords, EltTy.bits .f32 = 32 ∨ (Rect.block (s := S3301376x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x8.size a ≤ S3301376x8.size a
  hwx1_2 : ∀ i : grid1.Coords, EltTy.bits .f32 = 32 ∨ (Rect.block (s := S3301376x8) S4096x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x2.size a ≤ S3301376x2.size a
  hwx2_0 : ∀ i : grid2.Coords, EltTy.bits .f32 = 32 ∨ (Rect.block (s := S3301376x2) S4096x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S3301376x1.size a
  hwx2_1 : ∀ i : grid2.Coords, EltTy.bits .f32 = 32 ∨ (Rect.block (s := S3301376x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x2.size a ≤ S3301376x2.size a
  hwx2_2 : ∀ i : grid2.Coords, EltTy.bits .f32 = 32 ∨ (Rect.block (s := S3301376x2) S4096x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x8.size a ≤ S3301376x8.size a
  hwx3_0 : ∀ i : grid3.Coords, EltTy.bits .f32 = 32 ∨ (Rect.block (s := S3301376x8) S4096x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S3301376x1.size a
  hwx3_1 : ∀ i : grid3.Coords, EltTy.bits .f32 = 32 ∨ (Rect.block (s := S3301376x1) S4096x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x8.size a ≤ S3301376x8.size a
  hwx3_2 : ∀ i : grid3.Coords, EltTy.bits .f32 = 32 ∨ (Rect.block (s := S3301376x8) S4096x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x8.size a ≤ S3301376x8.size a
  hwx4_0 : ∀ i : grid4.Coords, EltTy.bits .f32 = 32 ∨ (Rect.block (s := S3301376x8) S4096x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S3301376x1.size a
  hwx4_1 : ∀ i : grid4.Coords, EltTy.bits .f32 = 32 ∨ (Rect.block (s := S3301376x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x8.size a ≤ S3301376x8.size a
  hwx4_2 : ∀ i : grid4.Coords, EltTy.bits .f32 = 32 ∨ (Rect.block (s := S3301376x8) S4096x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x15.size a ≤ S3301376x15.size a
  hwx5_0 : ∀ i : grid5.Coords, EltTy.bits .f32 = 32 ∨ (Rect.block (s := S3301376x15) S4096x15.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x1.size a ≤ S3301376x1.size a
  hwx5_1 : ∀ i : grid5.Coords, EltTy.bits .f32 = 32 ∨ (Rect.block (s := S3301376x1) S4096x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x15.size a ≤ S3301376x15.size a
  hwx5_2 : ∀ i : grid5.Coords, EltTy.bits .f32 = 32 ∨ (Rect.block (s := S3301376x15) S4096x15.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x15.size a ≤ S100000x15.size a
  hwx6_0 : ∀ i : grid6.Coords, EltTy.bits .f32 = 32 ∨ (Rect.block (s := S100000x15) S2000x15.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x15.size a ≤ S100000x15.size a
  hwx6_1 : ∀ i : grid6.Coords, EltTy.bits .f32 = 32 ∨ (Rect.block (s := S100000x15) S2000x15.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x15_S15x8_S100000x8_1_0_0_1_n_n : DotDims S100000x15 S15x8 S100000x8 where
  lhsContracting := [1]
  rhsContracting := [0]
  lhsNonContracting := [0]
  rhsNonContracting := [1]
  lhsBatch := []
  rhsBatch := []
  wf := dot_S100000x15_S15x8_S100000x8_1_0_0_1_n_n_wf
def gather_S100000x8_S3301376x1_S3301376x8_1_0_n_n_0_1_18 : GatherDims S100000x8 S3301376x1 S3301376x8 where
  offsetDims := [1]
  collapsedSliceDims := [0]
  operandBatchingDims := []
  startIndicesBatchingDims := []
  startIndexMap := [0]
  indexVectorDim := 1
  sliceSizes := ![1, 8]
  wf := gather_S100000x8_S3301376x1_S3301376x8_1_0_n_n_0_1_18_wf
def scatter_S100000x8_S3301376x1_S3301376x8_1_0_0_1 : ScatterDims S100000x8 S3301376x1 S3301376x8 where
  updateWindowDims := [1]
  insertedWindowDims := [0]
  scatterDimsToOperandDims := [0]
  indexVectorDim := 1
  wf := scatter_S100000x8_S3301376x1_S3301376x8_1_0_0_1_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def dot_S100000x8_S8x2_S100000x2_1_0_0_1_n_n : DotDims S100000x8 S8x2 S100000x2 where
  lhsContracting := [1]
  rhsContracting := [0]
  lhsNonContracting := [0]
  rhsNonContracting := [1]
  lhsBatch := []
  rhsBatch := []
  wf := dot_S100000x8_S8x2_S100000x2_1_0_0_1_n_n_wf
def gather_S100000x2_S3301376x1_S3301376x2_1_0_n_n_0_1_12 : GatherDims S100000x2 S3301376x1 S3301376x2 where
  offsetDims := [1]
  collapsedSliceDims := [0]
  operandBatchingDims := []
  startIndicesBatchingDims := []
  startIndexMap := [0]
  indexVectorDim := 1
  sliceSizes := ![1, 2]
  wf := gather_S100000x2_S3301376x1_S3301376x2_1_0_n_n_0_1_12_wf
def scatter_S100000x2_S3301376x1_S3301376x2_1_0_0_1 : ScatterDims S100000x2 S3301376x1 S3301376x2 where
  updateWindowDims := [1]
  insertedWindowDims := [0]
  scatterDimsToOperandDims := [0]
  indexVectorDim := 1
  wf := scatter_S100000x2_S3301376x1_S3301376x2_1_0_0_1_wf
def dot_S100000x2_S2x8_S100000x8_1_0_0_1_n_n : DotDims S100000x2 S2x8 S100000x8 where
  lhsContracting := [1]
  rhsContracting := [0]
  lhsNonContracting := [0]
  rhsNonContracting := [1]
  lhsBatch := []
  rhsBatch := []
  wf := dot_S100000x2_S2x8_S100000x8_1_0_0_1_n_n_wf
def dot_S100000x8_S8x15_S100000x15_1_0_0_1_n_n : DotDims S100000x8 S8x15 S100000x15 where
  lhsContracting := [1]
  rhsContracting := [0]
  lhsNonContracting := [0]
  rhsNonContracting := [1]
  lhsBatch := []
  rhsBatch := []
  wf := dot_S100000x8_S8x15_S100000x15_1_0_0_1_n_n_wf
def gather_S100000x15_S3301376x1_S3301376x15_1_0_n_n_0_1_115 : GatherDims S100000x15 S3301376x1 S3301376x15 where
  offsetDims := [1]
  collapsedSliceDims := [0]
  operandBatchingDims := []
  startIndicesBatchingDims := []
  startIndexMap := [0]
  indexVectorDim := 1
  sliceSizes := ![1, 15]
  wf := gather_S100000x15_S3301376x1_S3301376x15_1_0_n_n_0_1_115_wf
def scatter_S100000x15_S3301376x1_S3301376x15_1_0_0_1 : ScatterDims S100000x15 S3301376x1 S3301376x15 where
  updateWindowDims := [1]
  insertedWindowDims := [0]
  scatterDimsToOperandDims := [0]
  indexVectorDim := 1
  wf := scatter_S100000x15_S3301376x1_S3301376x15_1_0_0_1_wf

abbrev win0_0 : Pipeline.Window sig grid0 :=
  Pipeline.Window.ofSpec (Memref.whole main_v41) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4096x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S4096x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S4096x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v73) S4096x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S4096x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S4096x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S4096x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v104) S4096x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v105) S4096x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v120) S4096x15.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S4096x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v121) S4096x15.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_arg0) S2000x15.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v127) S2000x15.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v128) S2000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x15 : Shape := ⟨2, ![100000, 15]⟩
abbrev S2x3200000 : Shape := ⟨2, ![2, 3200000]⟩
abbrev S15x8 : Shape := ⟨2, ![15, 8]⟩
abbrev S8 : Shape := ⟨1, ![8]⟩
abbrev S8x8 : Shape := ⟨2, ![8, 8]⟩
abbrev S8x2 : Shape := ⟨2, ![8, 2]⟩
abbrev S2 : Shape := ⟨1, ![2]⟩
abbrev S2x8 : Shape := ⟨2, ![2, 8]⟩
abbrev S8x15 : Shape := ⟨2, ![8, 15]⟩
abbrev S15 : Shape := ⟨1, ![15]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S3300000x8 : Shape := ⟨2, ![3300000, 8]⟩
abbrev S1x8 : Shape := ⟨2, ![1, 8]⟩
abbrev S100000x2 : Shape := ⟨2, ![100000, 2]⟩
abbrev S3300000x2 : Shape := ⟨2, ![3300000, 2]⟩
abbrev S1x2 : Shape := ⟨2, ![1, 2]⟩
abbrev S3300000x15 : Shape := ⟨2, ![3300000, 15]⟩
abbrev S1x15 : Shape := ⟨2, ![1, 15]⟩

abbrev nBuf : Space → Nat
  | .hbm => 193
  | .vmem => 0
  | .smem => 0
  | _ => 0

abbrev hbmTy0_0 (i : Nat) : BufTy := match i % 128 with
  | 0 => ⟨S100000x15, .f32⟩
  | 1 => ⟨S2x3200000, .i32⟩
  | 2 => ⟨S15x8, .f32⟩
  | 3 => ⟨S8, .f32⟩
  | 4 => ⟨S8x8, .f32⟩
  | 5 => ⟨S8, .f32⟩
  | 6 => ⟨S8x2, .f32⟩
  | 7 => ⟨S2, .f32⟩
  | 8 => ⟨S2x8, .f32⟩
  | 9 => ⟨S8, .f32⟩
  | 10 => ⟨S8x8, .f32⟩
  | 11 => ⟨S8, .f32⟩
  | 12 => ⟨S8x15, .f32⟩
  | 13 => ⟨S15, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S100000x8, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x8, .f32⟩
  | 64 => ⟨S3300000x1, .f32⟩
  | 65 => ⟨S3300000x8, .f32⟩
  | 66 => ⟨S3300000x8, .f32⟩
  | 67 => ⟨S_, .f32⟩
  | 68 => ⟨S100000x8, .f32⟩
  | 69 => ⟨S3300000x1, .i32⟩
  | 70 => ⟨S100000x8, .f32⟩
  | 71 => ⟨S1x8, .f32⟩
  | 72 => ⟨S100000x8, .f32⟩
  | 73 => ⟨S100000x8, .f32⟩
  | 74 => ⟨S_, .f32⟩
  | 75 => ⟨S100000x8, .f32⟩
  | 76 => ⟨S100000x8, .f32⟩
  | 77 => ⟨S100000x8, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000x8, .f32⟩
  | 87 => ⟨S3300000x1, .f32⟩
  | 88 => ⟨S3300000x8, .f32⟩
  | 89 => ⟨S3300000x8, .f32⟩
  | 90 => ⟨S_, .f32⟩
  | 91 => ⟨S100000x8, .f32⟩
  | 92 => ⟨S3300000x1, .i32⟩
  | 93 => ⟨S100000x8, .f32⟩
  | 94 => ⟨S1x8, .f32⟩
  | 95 => ⟨S100000x8, .f32⟩
  | 96 => ⟨S100000x8, .f32⟩
  | 97 => ⟨S_, .f32⟩
  | 98 => ⟨S100000x8, .f32⟩
  | 99 => ⟨S100000x8, .f32⟩
  | 100 => ⟨S100000x2, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x2, .f32⟩
  | 110 => ⟨S3300000x1, .f32⟩
  | 111 => ⟨S3300000x2, .f32⟩
  | 112 => ⟨S3300000x2, .f32⟩
  | 113 => ⟨S_, .f32⟩
  | 114 => ⟨S100000x2, .f32⟩
  | 115 => ⟨S3300000x1, .i32⟩
  | 116 => ⟨S100000x2, .f32⟩
  | 117 => ⟨S1x2, .f32⟩
  | 118 => ⟨S100000x2, .f32⟩
  | 119 => ⟨S100000x2, .f32⟩
  | 120 => ⟨S100000x8, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x15, .f32⟩

abbrev hbmTy0_1 (i : Nat) : BufTy := match i % 128 with
  | 0 => ⟨S3300000x1, .i32⟩
  | 1 => ⟨S3300000x8, .f32⟩
  | 2 => ⟨S3300000x1, .f32⟩
  | 3 => ⟨S3300000x8, .f32⟩
  | 4 => ⟨S3300000x8, .f32⟩
  | 5 => ⟨S_, .f32⟩
  | 6 => ⟨S100000x8, .f32⟩
  | 7 => ⟨S3300000x1, .i32⟩
  | 8 => ⟨S100000x8, .f32⟩
  | 9 => ⟨S1x8, .f32⟩
  | 10 => ⟨S100000x8, .f32⟩
  | 11 => ⟨S100000x8, .f32⟩
  | 12 => ⟨S_, .f32⟩
  | 13 => ⟨S100000x8, .f32⟩
  | 14 => ⟨S100000x8, .f32⟩
  | 15 => ⟨S100000x8, .f32⟩
  | 16 => ⟨S_, .i32⟩
  | 17 => ⟨S3300000, .i32⟩
  | 18 => ⟨S3300000, .i1⟩
  | 19 => ⟨S_, .i32⟩
  | 20 => ⟨S3300000, .i32⟩
  | 21 => ⟨S3300000, .i32⟩
  | 22 => ⟨S3300000, .i32⟩
  | 23 => ⟨S3300000x1, .i32⟩
  | 24 => ⟨S3300000x8, .f32⟩
  | 25 => ⟨S3300000x1, .f32⟩
  | 26 => ⟨S3300000x8, .f32⟩
  | 27 => ⟨S3300000x8, .f32⟩
  | 28 => ⟨S_, .f32⟩
  | 29 => ⟨S100000x8, .f32⟩
  | 30 => ⟨S3300000x1, .i32⟩
  | 31 => ⟨S100000x8, .f32⟩
  | 32 => ⟨S1x8, .f32⟩
  | 33 => ⟨S100000x8, .f32⟩
  | 34 => ⟨S100000x8, .f32⟩
  | 35 => ⟨S_, .f32⟩
  | 36 => ⟨S100000x8, .f32⟩
  | 37 => ⟨S100000x8, .f32⟩
  | 38 => ⟨S100000x15, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000x15, .f32⟩
  | 48 => ⟨S3300000x1, .f32⟩
  | 49 => ⟨S3300000x15, .f32⟩
  | 50 => ⟨S3300000x15, .f32⟩
  | 51 => ⟨S_, .f32⟩
  | 52 => ⟨S100000x15, .f32⟩
  | 53 => ⟨S3300000x1, .i32⟩
  | 54 => ⟨S100000x15, .f32⟩
  | 55 => ⟨S1x15, .f32⟩
  | 56 => ⟨S100000x15, .f32⟩
  | 57 => ⟨S100000x15, .f32⟩
  | 58 => ⟨S100000x15, .f32⟩
  | 59 => ⟨S100000x15, .f32⟩
  | 60 => ⟨S_, .f32⟩
  | 61 => ⟨S100000, .f32⟩
  | 62 => ⟨S_, .f32⟩
  | 63 => ⟨S100000, .f32⟩
  | 64 => ⟨S100000, .f32⟩
  | _ => ⟨S100000x15, .f32⟩

abbrev hbmTy (i : Nat) : BufTy := match i / 128 with
  | 0 => hbmTy0_0 i
  | 1 => hbmTy0_1 i
  | _ => ⟨S100000x15, .f32⟩

abbrev bufTy : (tb : Table) → Fin (tcTables nBuf tb) → BufTy
  | .hbm, ⟨i, _⟩ => hbmTy i
  | _, _ => ⟨S100000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_15 : Ref sig .tc := ⟨.hbm, 121, rfl⟩
abbrev main_v84 : Ref sig .tc := ⟨.hbm, 122, rfl⟩
abbrev main_v85 : Ref sig .tc := ⟨.hbm, 123, rfl⟩
abbrev main_c_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call3_cst : Ref sig .tc := ⟨.hbm, 140, rfl⟩
abbrev main_call3_v0 : Ref sig .tc := ⟨.hbm, 141, rfl⟩
abbrev main_v100 : Ref sig .tc := ⟨.hbm, 142, rfl⟩
abbrev main_v101 : Ref sig .tc := ⟨.hbm, 143, rfl⟩
abbrev main_c_18 : Ref sig .tc := ⟨.hbm, 144, rfl⟩
abbrev main_v102 : Ref sig .tc := ⟨.hbm, 145, rfl⟩
abbrev main_v103 : Ref sig .tc := ⟨.hbm, 146, rfl⟩
abbrev main_c_19 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_20 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_call4_cst : Ref sig .tc := ⟨.hbm, 163, rfl⟩
abbrev main_call4_v0 : Ref sig .tc := ⟨.hbm, 164, rfl⟩
abbrev main_v118 : Ref sig .tc := ⟨.hbm, 165, rfl⟩
abbrev main_v119 : Ref sig .tc := ⟨.hbm, 166, rfl⟩
abbrev main_c_21 : Ref sig .tc := ⟨.hbm, 167, rfl⟩
abbrev main_v120 : Ref sig .tc := ⟨.hbm, 168, rfl⟩
abbrev main_v121 : Ref sig .tc := ⟨.hbm, 169, rfl⟩
abbrev main_c_22 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_23 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_24 : Ref sig .tc := ⟨.hbm, 188, rfl⟩
abbrev main_v138 : Ref sig .tc := ⟨.hbm, 189, rfl⟩
abbrev main_cst_25 : Ref sig .tc := ⟨.hbm, 190, rfl⟩
abbrev main_v139 : Ref sig .tc := ⟨.hbm, 191, rfl⟩
abbrev main_v140 : Ref sig .tc := ⟨.hbm, 192, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S3300000x1_S3300000x15_0_1 : S3300000x1.BroadcastsInDim S3300000x15 (![0, 1] : Fin 2 → Fin S3300000x15.rank)
  bcast_S_S100000x15 : S_.BroadcastsInDim S100000x15 (![] : Fin 0 → Fin S100000x15.rank)
  bcast_S15_S1x15_1 : S15.BroadcastsInDim S1x15 (![1] : Fin 1 → Fin S1x15.rank)
  bcast_S1x15_S100000x15_0_1 : S1x15.BroadcastsInDim S100000x15 (![0, 1] : Fin 2 → Fin S100000x15.rank)
  reducesTo_S100000x15_S100000_d1 : S100000x15.ReducesTo [1] S100000
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x15_S15x8_S100000x8_1_0_0_1_n_n_wf : DotDims.WF S100000x15 S15x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x8_S100000x8_1_0_0_1_n_n_wf : DotDims.WF S100000x8 S8x8 S100000x8 [1] [0] [0] [1] [] []
  dot_S100000x8_S8x2_S100000x2_1_0_0_1_n_n_wf : DotDims.WF S100000x8 S8x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S100000x2_S2x8_S100000x8_1_0_0_1_n_n_wf : DotDims.WF S100000x2 S2x8 S100000x8 [1] [0] [0] [1] [] []
  dot_S100000x8_S8x15_S100000x15_1_0_0_1_n_n_wf : DotDims.WF S100000x8 S8x15 S100000x15 [1] [0] [0] [1] [] []
  gather_S100000x15_S3300000x1_S3300000x15_1_0_n_n_0_1_115_wf : GatherDims.WF S100000x15 S3300000x1 S3300000x15 [1] [0] [] [0] [] 1 ![1, 15]
  scatter_S100000x15_S3300000x1_S3300000x15_1_0_0_1_wf : ScatterDims.WF S100000x15 S3300000x1 S3300000x15 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x15_S15x8_S100000x8_1_0_0_1_n_n : DotDims S100000x15 S15x8 S100000x8 where
  lhsContracting := [1]
  rhsContracting := [0]
  lhsNonContracting := [0]
  rhsNonContracting := [1]
  lhsBatch := []
  rhsBatch := []
  wf := dot_S100000x15_S15x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def dot_S100000x8_S8x2_S100000x2_1_0_0_1_n_n : DotDims S100000x8 S8x2 S100000x2 where
  lhsContracting := [1]
  rhsContracting := [0]
  lhsNonContracting := [0]
  rhsNonContracting := [1]
  lhsBatch := []
  rhsBatch := []
  wf := dot_S100000x8_S8x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S100000x2_S2x8_S100000x8_1_0_0_1_n_n : DotDims S100000x2 S2x8 S100000x8 where
  lhsContracting := [1]
  rhsContracting := [0]
  lhsNonContracting := [0]
  rhsNonContracting := [1]
  lhsBatch := []
  rhsBatch := []
  wf := dot_S100000x2_S2x8_S100000x8_1_0_0_1_n_n_wf
def dot_S100000x8_S8x15_S100000x15_1_0_0_1_n_n : DotDims S100000x8 S8x15 S100000x15 where
  lhsContracting := [1]
  rhsContracting := [0]
  lhsNonContracting := [0]
  rhsNonContracting := [1]
  lhsBatch := []
  rhsBatch := []
  wf := dot_S100000x8_S8x15_S100000x15_1_0_0_1_n_n_wf
def gather_S100000x15_S3300000x1_S3300000x15_1_0_n_n_0_1_115 : GatherDims S100000x15 S3300000x1 S3300000x15 where
  offsetDims := [1]
  collapsedSliceDims := [0]
  operandBatchingDims := []
  startIndicesBatchingDims := []
  startIndexMap := [0]
  indexVectorDim := 1
  sliceSizes := ![1, 15]
  wf := gather_S100000x15_S3300000x1_S3300000x15_1_0_n_n_0_1_115_wf
def scatter_S100000x15_S3300000x1_S3300000x15_1_0_0_1 : ScatterDims S100000x15 S3300000x1 S3300000x15 where
  updateWindowDims := [1]
  insertedWindowDims := [0]
  scatterDimsToOperandDims := [0]
  indexVectorDim := 1
  wf := scatter_S100000x15_S3300000x1_S3300000x15_1_0_0_1_wf

class Facts : Prop extends Facts₀ where

variable [Facts]
-- ==== Proof.KernelRun.lean ====
/-
  The idealized kernel's whole run with its RESULT named.  The program is seven pipelined calls among
  stretches of host operations; every weakly fair execution ends with each unscoped buffer holding what the
  fold of those thirty-one segments over the launch memory leaves in it.  The frame claim keeps only the
  fourteen argument buffers of that final state; here the result buffer is kept as well, at the fold's
  value `W31 … main_v129`, which the value modules then read back segment by segment.
-/
import proofs.«147065_j51737176047725_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result buffer ends at
    the value the fold of the segments leaves there, and the fourteen arguments end as launched. -/
theorem run_named : θ_run defs (onTc (τ := τ) (main (F := F))) ⟨m, fun _ => 0, ρ⟩ (fun r => ∀ c : Dev nD,
      r.2.mem ((c.tc : Thread nD τ).loc main_v129) = W31 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h c =>
      ⟨h c _ (mem_uc main_v129 (by decide)),
       (h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c),
       (h c _ (mem_uc main_arg7 (by decide))).trans (W31_main_arg7 m ρ c),
       (h c _ (mem_uc main_arg8 (by decide))).trans (W31_main_arg8 m ρ c),
       (h c _ (mem_uc main_arg9 (by decide))).trans (W31_main_arg9 m ρ c),
       (h c _ (mem_uc main_arg10 (by decide))).trans (W31_main_arg10 m ρ c),
       (h c _ (mem_uc main_arg11 (by decide))).trans (W31_main_arg11 m ρ c),
       (h c _ (mem_uc main_arg12 (by decide))).trans (W31_main_arg12 m ρ c),
       (h c _ (mem_uc main_arg13 (by decide))).trans (W31_main_arg13 m ρ c)⟩)

end Cert.KernelIdeal.ValueRun

end
-- ==== Proof.Spec.lean ====
/-
  The one pointwise law the six message-scaling calls compute, as a whole-array function: every row of a
  matrix multiplied by that row's single entry of a column.  It is stated over extended reals and over
  literal extents, with no program in sight, so that the kernel side (blocks of 4096 rows written back one
  grid point at a time) and the reference side (one product of two full arrays) can both be read against it.
-/
import Idealize.ShloMosaic.PureOps.Ideal
import Idealize.ShloMosaic.Lib.ValueIdx

noncomputable section

namespace Cert.Spec

open Idealize.ShloMosaic Idealize.ShloMosaic.ValueIdx

/-- Row `e` of `g`, entry by entry, times the one entry `n (e, 0)` of the column `n`. -/
def scaleRows {E B : Nat} (g : (⟨2, ![E, B]⟩ : Shape).Idx → EReal) (n : (⟨2, ![E, 1]⟩ : Shape).Idx → EReal) :
    (⟨2, ![E, B]⟩ : Shape).Idx → EReal :=
  fun i => g i * n (ix2 (⟨(i 0).val, idx2_lt0 i⟩ : Fin E) (0 : Fin 1))

theorem scaleRows_apply {E B : Nat} (g : (⟨2, ![E, B]⟩ : Shape).Idx → EReal) (n : (⟨2, ![E, 1]⟩ : Shape).Idx → EReal)
    (e : Fin E) (j : Fin B) : scaleRows g n (ix2 e j) = g (ix2 e j) * n (ix2 e (0 : Fin 1)) := rfl

end Cert.Spec

end
-- ==== Proof.SpecMse.lean ====
/-
  The last call's law as a whole-array function: for each of the 100000 rows, the mean over the row's 15 entries of
  the squared difference between two matrices, kept as a column.  The divisor is the float word of 15 itself, read
  at the ideal values, so that both sides of the comparison carry the same constant and it is never evaluated.  It
  is stated over extended reals and literal extents, with no program in sight: the kernel side (blocks of 2000 rows
  written back one grid point at a time) and the reference side (a subtraction, a square, a row sum and a division
  of full arrays) can both be read against it.
-/
import Idealize.ShloMosaic.PureOps.Ideal
import Idealize.ShloMosaic.Lib.ValueIdx

noncomputable section

namespace Cert.Spec

open Idealize.ShloMosaic Idealize.ShloMosaic.ValueIdx

/-- Row `r` of the result: the sum over the 15 columns of the squared difference of the two arrays' entries
    in that row, divided by the float word of 15. -/
def mseCol (x y : (⟨2, ![100000, 15]⟩ : Shape).Idx → EReal) : (⟨2, ![100000, 1]⟩ : Shape).Idx → EReal :=
  fun i => Ideal.div
    (∑ k : Fin 15, (x (ix2 (⟨(i 0).val, idx2_lt0 i⟩ : Fin 100000) k) - y (ix2 (⟨(i 0).val, idx2_lt0 i⟩ : Fin 100000) k))
        * (x (ix2 (⟨(i 0).val, idx2_lt0 i⟩ : Fin 100000) k) - y (ix2 (⟨(i 0).val, idx2_lt0 i⟩ : Fin 100000) k)))
    (Ideal.ofBits .f32 0x41700000#32)

theorem mseCol_apply (x y : (⟨2, ![100000, 15]⟩ : Shape).Idx → EReal) (r : Fin 100000) :
    mseCol x y (ix2 r (0 : Fin 1))
      = Ideal.div (∑ k : Fin 15, (x (ix2 r k) - y (ix2 r k)) * (x (ix2 r k) - y (ix2 r k))) (Ideal.ofBits .f32 0x41700000#32) := rfl

end Cert.Spec

end
-- ==== Proof.RowOps.lean ====
/-
  Two index computations on a rank-2 array, with no program in sight and every extent a variable.

  Row gather: rows of an `[N, B]` array picked by a column `[E, 1]` of row numbers; result row `e` is the
  operand's row number `idx (e, 0)`, read signed and clamped into `[0, N − 1]`.

  Row scatter-add: row `e` of an `[E, B]` array of updates is added into row number `idx (e, 0)` of an `[N, B]`
  array (dropped when that number is outside `[0, N)`).  Over the extended reals this is an exact finite sum, so
  extending the list of updates by rows that are all zero changes nothing, wherever those rows land.
-/
import Idealize.ShloMosaic.PureOps.Ideal
import Idealize.ShloMosaic.Lib.ValueIdx
import Idealize.ShloMosaic.PureOps.Ideal.Laws
import proofs.«147065_j51737176047725_2_alg».proof.Proof.Spec

noncomputable section

open scoped BigOperators

namespace Cert.RowOps

open Idealize.ShloMosaic Idealize.ShloMosaic.ValueIdx

/-! ## Row gather: rows of an `[N, B]` array picked by a column `[E, 1]` of row numbers -/

section Gather
variable {α : Type}

/-- The dimension numbers of "take whole rows": operand `[N, B]`, start indices `[E, 1]` (one row number per
    result row), result `[E, B]`; the row axis is collapsed and indexed, the column axis is the offset axis with a
    full-width slice. -/
abbrev rowGather (N E B : Nat)
    (wf : GatherDims.WF ⟨2, ![N, B]⟩ ⟨2, ![E, 1]⟩ ⟨2, ![E, B]⟩ [1] [0] [] [0] [] 1 ![1, B]) :
    GatherDims ⟨2, ![N, B]⟩ ⟨2, ![E, 1]⟩ ⟨2, ![E, B]⟩ where
  offsetDims := [1]
  collapsedSliceDims := [0]
  operandBatchingDims := []
  startIndicesBatchingDims := []
  startIndexMap := [0]
  indexVectorDim := 1
  sliceSizes := ![1, B]
  wf := wf

/-- The row gather read at `(e, j)`: entry `j` of the operand's row number `idx (e, 0)`, the row number read signed
    and clamped into `[0, N − 1]`. -/
theorem rowGather_apply {N E B w : Nat} (hN : 0 < N)
    (wf : GatherDims.WF ⟨2, ![N, B]⟩ ⟨2, ![E, 1]⟩ ⟨2, ![E, B]⟩ [1] [0] [] [0] [] 1 ![1, B])
    (x : (⟨2, ![N, B]⟩ : Shape).Idx → α) (idx : IVec ⟨2, ![E, 1]⟩ w) (e : Fin E) (j : Fin B) :
    Host.gather (rowGather N E B wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    show (rowGather N E B wf).start (ix2 e j) idx 0 + (rowGather N E B wf).batchCoord (ix2 e j) 0
        + (rowGather N E B wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E B wf).startIndexMap from List.mem_singleton.mpr rfl)]
    have hsi : (rowGather N E B wf).siIdx (ix2 e j) ⟨List.idxOf (0 : Fin 2) (rowGather N E B wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E B wf).start (ix2 e j) idx 1 + (rowGather N E B wf).batchCoord (ix2 e j) 1
        + (rowGather N E B wf).offCoord (ix2 e j) 1 = _
    rw [GatherDims.batchCoord_eq_zero _ _ _ List.not_mem_nil]
    unfold GatherDims.start
    rw [dif_neg (show (1 : Fin 2) ∉ (rowGather N E B wf).startIndexMap from (by decide : (1 : Fin 2) ∉ ([0] : List (Fin 2))))]
    simp only [Nat.add_zero, Nat.zero_add]
    rfl

end Gather

/-! ## Row scatter: rows of an `[E, B]` array of updates sent to rows of an `[N, B]` array -/

section Scatter

/-- The dimension numbers of "send whole rows": operand `[N, B]`, scatter indices `[E, 1]` (one row number per
    update row), updates `[E, B]`; the row axis of the operand is the inserted and indexed one, the column axis
    is the window axis. -/
abbrev rowScatter (N E B : Nat)
    (wf : ScatterDims.WF ⟨2, ![N, B]⟩ ⟨2, ![E, 1]⟩ ⟨2, ![E, B]⟩ [1] [0] [0] 1) :
    ScatterDims ⟨2, ![N, B]⟩ ⟨2, ![E, 1]⟩ ⟨2, ![E, B]⟩ where
  updateWindowDims := [1]
  insertedWindowDims := [0]
  scatterDimsToOperandDims := [0]
  indexVectorDim := 1
  wf := wf

variable {N E B w : Nat} (wf : ScatterDims.WF ⟨2, ![N, B]⟩ ⟨2, ![E, 1]⟩ ⟨2, ![E, B]⟩ [1] [0] [0] 1)
  (idx : IVec ⟨2, ![E, 1]⟩ w) (e : Fin E) (j : Fin B)

/-- On the row axis the window of update `(e, j)` starts at the row number `idx (e, 0)`, read signed. -/
theorem rowScatter_start0 :
    (rowScatter N E B wf).start (ix2 e j) idx 0 = (idx (ix2 e (0 : Fin 1))).toInt := by
  unfold ScatterDims.start
  rw [dif_pos (show (0 : Fin 2) ∈ (rowScatter N E B wf).scatterDimsToOperandDims from List.mem_singleton.mpr rfl)]
  have hsi : (rowScatter N E B wf).siIdx (ix2 e j)
      ⟨List.idxOf (0 : Fin 2) (rowScatter N E B wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at `0`. -/
theorem rowScatter_start1 : (rowScatter N E B wf).start (ix2 e j) idx 1 = 0 := by
  unfold ScatterDims.start
  rw [dif_neg (show (1 : Fin 2) ∉ (rowScatter N E B wf).scatterDimsToOperandDims from
    (by decide : (1 : Fin 2) ∉ ([0] : List (Fin 2))))]

/-- The operand's axes that are not inserted: the column axis alone. -/
theorem rowScatter_sKept : (rowScatter N E B wf).sKept = [1] := rfl

/-- The window coordinate of update `(e, j)` is `0` on the row axis … -/
theorem rowScatter_window0 : (rowScatter N E B wf).window (ix2 e j) 0 = 0 := by
  unfold ScatterDims.window
  rw [dif_neg (by rw [rowScatter_sKept]; exact (by decide : (0 : Fin 2) ∉ ([1] : List (Fin 2))))]

/-- … and `j` on the column axis. -/
theorem rowScatter_window1 : (rowScatter N E B wf).window (ix2 e j) 1 = j.val := by
  unfold ScatterDims.window
  rw [dif_pos (by rw [rowScatter_sKept]; exact (by decide : (1 : Fin 2) ∈ ([1] : List (Fin 2))))]
  rfl

/-- Where an update of column `j` lands when its row number reads `z`: at `(z, j)` when `z` is a row of the
    operand, nowhere otherwise.  The number of update rows does not occur. -/
def land (N : Nat) {B : Nat} (z : Int) (j : Fin B) : Option (⟨2, ![N, B]⟩ : Shape).Idx :=
  if h : 0 ≤ z ∧ z < N then some (ix2 (⟨z.toNat, by omega⟩ : Fin N) j) else none

/-- The landing index of update `(e, j)` depends on the scatter indices only through the one word `idx (e, 0)`. -/
theorem rowScatter_resultIdx? :
    (rowScatter N E B wf).resultIdx? (ix2 e j) idx = land N (idx (ix2 e (0 : Fin 1))).toInt j := by
  have hs0 := rowScatter_start0 wf idx e j
  have hs1 := rowScatter_start1 wf idx e j
  have hw0 := rowScatter_window0 wf e j
  have hw1 := rowScatter_window1 wf e j
  unfold ScatterDims.resultIdx? land
  by_cases hz : 0 ≤ (idx (ix2 e (0 : Fin 1))).toInt ∧ (idx (ix2 e (0 : Fin 1))).toInt < N
  · have hall : ∀ a, 0 ≤ (rowScatter N E B wf).start (ix2 e j) idx a + (rowScatter N E B wf).window (ix2 e j) a ∧
        (rowScatter N E B wf).start (ix2 e j) idx a + (rowScatter N E B wf).window (ix2 e j) a
          < (⟨2, ![N, B]⟩ : Shape).size a := by
      intro a
      match a with
      | ⟨0, _⟩ =>
        show 0 ≤ (rowScatter N E B wf).start (ix2 e j) idx 0 + (rowScatter N E B wf).window (ix2 e j) 0 ∧
          (rowScatter N E B wf).start (ix2 e j) idx 0 + (rowScatter N E B wf).window (ix2 e j) 0 < (N : Int)
        rw [hs0, hw0]; omega
      | ⟨1, _⟩ =>
        show 0 ≤ (rowScatter N E B wf).start (ix2 e j) idx 1 + (rowScatter N E B wf).window (ix2 e j) 1 ∧
          (rowScatter N E B wf).start (ix2 e j) idx 1 + (rowScatter N E B wf).window (ix2 e j) 1 < (B : Int)
        rw [hs1, hw1]; have := j.isLt; omega
    rw [dif_pos hall, dif_pos hz]
    congr 1
    funext a
    refine Fin.ext ?_
    match a with
    | ⟨0, _⟩ =>
      show ((rowScatter N E B wf).start (ix2 e j) idx 0 + (rowScatter N E B wf).window (ix2 e j) 0).toNat = _
      rw [hs0, hw0]; simp
    | ⟨1, _⟩ =>
      show ((rowScatter N E B wf).start (ix2 e j) idx 1 + (rowScatter N E B wf).window (ix2 e j) 1).toNat = _
      rw [hs1, hw1]; simp
  · rw [dif_neg hz, dif_neg]
    intro hall
    apply hz
    have h0 : 0 ≤ (rowScatter N E B wf).start (ix2 e j) idx 0 + (rowScatter N E B wf).window (ix2 e j) 0 ∧
        (rowScatter N E B wf).start (ix2 e j) idx 0 + (rowScatter N E B wf).window (ix2 e j) 0 < (N : Int) := hall 0
    rw [hs0, hw0] at h0; omega

end Scatter

/-! ## Padding the list of updates with zero rows -/

section Pad

/-- A sum over `Fin E'` whose terms from `E` on vanish is the sum over `Fin E` of its first `E` terms. -/
theorem sum_fin_pad {M : Type*} [AddCommMonoid M] {E E' : Nat} (hE : E ≤ E') (f : Fin E → M) (f' : Fin E' → M)
    (hlo : ∀ e : Fin E, f' ⟨e.val, by omega⟩ = f e) (hhi : ∀ e' : Fin E', E ≤ e'.val → f' e' = 0) :
    ∑ e', f' e' = ∑ e, f e := by
  rw [← Finset.sum_subset (Finset.subset_univ (Finset.univ.map (Fin.castLEEmb hE)))]
  · rw [Finset.sum_map]
    exact Finset.sum_congr rfl fun e _ => hlo e
  · intro e' _ hne
    apply hhi
    by_contra hlt
    exact hne (Finset.mem_map.2 ⟨⟨e'.val, by omega⟩, Finset.mem_univ _, Fin.ext rfl⟩)

/-- PADDED SCATTER-ADD.  Let the updates `upd'` (`E'` rows) and their row numbers `idx'` extend `upd` (`E` rows) and
    `idx`, every update row from `E` on being zero.  Then adding `upd'` into `x` gives what adding `upd` does: each
    extra update contributes `0` to the exact sum at the row it lands on, whatever that row is. -/
theorem scatterAdd_pad {N E E' B w : Nat} (hE : E ≤ E')
    (wf : ScatterDims.WF ⟨2, ![N, B]⟩ ⟨2, ![E, 1]⟩ ⟨2, ![E, B]⟩ [1] [0] [0] 1)
    (wf' : ScatterDims.WF ⟨2, ![N, B]⟩ ⟨2, ![E', 1]⟩ ⟨2, ![E', B]⟩ [1] [0] [0] 1)
    (x : (⟨2, ![N, B]⟩ : Shape).Idx → EReal)
    (idx : IVec ⟨2, ![E, 1]⟩ w) (idx' : IVec ⟨2, ![E', 1]⟩ w)
    (upd : (⟨2, ![E, B]⟩ : Shape).Idx → EReal) (upd' : (⟨2, ![E', B]⟩ : Shape).Idx → EReal)
    (hidx : ∀ e : Fin E, idx' (ix2 (⟨e.val, by omega⟩ : Fin E') (0 : Fin 1)) = idx (ix2 e (0 : Fin 1)))
    (hupd : ∀ (e : Fin E) (j : Fin B), upd' (ix2 (⟨e.val, by omega⟩ : Fin E') j) = upd (ix2 e j))
    (hzero : ∀ (e' : Fin E') (j : Fin B), E ≤ e'.val → upd' (ix2 e' j) = 0) :
    Ideal.hostScatterAdd (rowScatter N E' B wf') x idx' upd' = Ideal.hostScatterAdd (rowScatter N E B wf) x idx upd := by
  funext i
  unfold Ideal.hostScatterAdd
  congr 1
  rw [Finset.sum_filter, Finset.sum_filter, sum_idx2, sum_idx2]
  refine sum_fin_pad hE _ _ (fun e => ?_) (fun e' he' => ?_)
  · beta_reduce
    refine Finset.sum_congr rfl fun j _ => ?_
    rw [rowScatter_resultIdx?, rowScatter_resultIdx?, hidx e, hupd e j]
  · beta_reduce
    refine Finset.sum_eq_zero fun j _ => ?_
    rw [hzero e' j he']
    exact ite_self 0

end Pad

/-! ## The padded form of "gather rows, scale each by its weight, scatter-add" -/

section Message

open Cert.Spec

/-- Gather rows of `hw` by the row numbers `gi`, multiply row `e` by the weight `n (e, 0)`, add the rows into `x`
    at the row numbers `si`.  If the three columns `gi'`, `n'`, `si'` (`E'` rows) extend `gi`, `n`, `si` (`E` rows) and
    every weight from row `E` on is `0`, the result is the same: an extra row is some gathered row times `0`, and
    over the extended reals that is `0` whatever the gathered row holds. -/
theorem scatterAdd_scaled_gather_pad {N E E' B w v : Nat} (hN : 0 < N) (hE : E ≤ E')
    (wf : ScatterDims.WF ⟨2, ![N, B]⟩ ⟨2, ![E, 1]⟩ ⟨2, ![E, B]⟩ [1] [0] [0] 1)
    (wf' : ScatterDims.WF ⟨2, ![N, B]⟩ ⟨2, ![E', 1]⟩ ⟨2, ![E', B]⟩ [1] [0] [0] 1)
    (gwf : GatherDims.WF ⟨2, ![N, B]⟩ ⟨2, ![E, 1]⟩ ⟨2, ![E, B]⟩ [1] [0] [] [0] [] 1 ![1, B])
    (gwf' : GatherDims.WF ⟨2, ![N, B]⟩ ⟨2, ![E', 1]⟩ ⟨2, ![E', B]⟩ [1] [0] [] [0] [] 1 ![1, B])
    (x hw : (⟨2, ![N, B]⟩ : Shape).Idx → EReal)
    (si : IVec ⟨2, ![E, 1]⟩ w) (si' : IVec ⟨2, ![E', 1]⟩ w)
    (gi : IVec ⟨2, ![E, 1]⟩ v) (gi' : IVec ⟨2, ![E', 1]⟩ v)
    (n : (⟨2, ![E, 1]⟩ : Shape).Idx → EReal) (n' : (⟨2, ![E', 1]⟩ : Shape).Idx → EReal)
    (hsi : ∀ e : Fin E, si' (ix2 (⟨e.val, by omega⟩ : Fin E') (0 : Fin 1)) = si (ix2 e (0 : Fin 1)))
    (hgi : ∀ e : Fin E, gi' (ix2 (⟨e.val, by omega⟩ : Fin E') (0 : Fin 1)) = gi (ix2 e (0 : Fin 1)))
    (hn : ∀ e : Fin E, n' (ix2 (⟨e.val, by omega⟩ : Fin E') (0 : Fin 1)) = n (ix2 e (0 : Fin 1)))
    (hn0 : ∀ e' : Fin E', E ≤ e'.val → n' (ix2 e' (0 : Fin 1)) = 0) :
    Ideal.hostScatterAdd (rowScatter N E' B wf') x si'
        (scaleRows (Host.gather (rowGather N E' B gwf') hw gi') n')
      = Ideal.hostScatterAdd (rowScatter N E B wf) x si
        (scaleRows (Host.gather (rowGather N E B gwf) hw gi) n) := by
  refine scatterAdd_pad hE wf wf' x si si' _ _ hsi (fun e j => ?_) (fun e' j he' => ?_)
  · rw [scaleRows_apply, scaleRows_apply, rowGather_apply hN, rowGather_apply hN, hn e]
    simp only [hgi e]
  · rw [scaleRows_apply, hn0 e' he', mul_zero]

end Message

end Cert.RowOps

end
-- ==== Proof.ConvPad.lean ====
/-
  One aggregation step of a graph convolution — gather the source rows, scale each by its edge weight, add into
  the destination rows — computed on an edge list padded at its end with zero-weight edges, against the same step
  on the edge list itself.  No program is in sight; every extent is a variable and every shape fact a hypothesis.
  The two agree over the extended reals because a padded edge contributes a gathered row times `0`, which is `0`
  whatever the row holds, to an exact finite sum.
-/
import Idealize.ShloMosaic.PureOps.Ideal
import Idealize.ShloMosaic.Lib.ValueIdx
import Idealize.ShloMosaic.PureOps.Ideal.Laws
import Idealize.ShloMosaic.Lib.Pipeline.Value
import Idealize.ShloMosaic.Lib.KernelVsHost
import proofs.«147065_j51737176047725_2_alg».proof.Proof.Spec
import proofs.«147065_j51737176047725_2_alg».proof.Proof.RowOps

noncomputable section

open scoped BigOperators

namespace Cert.ConvPad

open Idealize.ShloMosaic Idealize.ShloMosaic.ValueIdx Cert.RowOps Cert.Spec

/-! ## The array operations around the aggregation, each read at one index -/

section Reads
variable {α : Type}

/-- A list `[E]` broadcast to a column `[E, 1]`, read at `(e, 0)`: entry `e`. -/
theorem bcastCol_apply {E : Nat} (hb1 : (⟨1, ![E]⟩ : Shape).BroadcastsInDim ⟨2, ![E, 1]⟩ ![0])
    (X : (⟨1, ![E]⟩ : Shape).Idx → α) (e : Fin E) :
    broadcastInDim (⟨2, ![E, 1]⟩ : Shape) ![0] hb1 X (ix2 e (0 : Fin 1)) = X (ix1 e) := by
  refine broadcastInDim_apply _ hb1 X _ (ix1 e) fun a => ?_
  match a with
  | ⟨0, _⟩ =>
    show e.val = if E = 1 then 0 else e.val
    split
    · have := e.isLt; omega
    · rfl

/-- A column `[E, 1]` broadcast along its rows to `[E, B]`, read at `(e, j)`: the column's entry `(e, 0)`. -/
theorem bcastRow_apply {E B : Nat} (hb2 : (⟨2, ![E, 1]⟩ : Shape).BroadcastsInDim ⟨2, ![E, B]⟩ ![0, 1])
    (Y : (⟨2, ![E, 1]⟩ : Shape).Idx → α) (e : Fin E) (j : Fin B) :
    broadcastInDim (⟨2, ![E, B]⟩ : Shape) ![0, 1] hb2 Y (ix2 e j) = Y (ix2 e (0 : Fin 1)) := by
  refine broadcastInDim_apply _ hb2 Y _ (ix2 e (0 : Fin 1)) fun a => ?_
  match a with
  | ⟨0, _⟩ =>
    show e.val = if E = 1 then 0 else e.val
    split
    · have := e.isLt; omega
    · rfl
  | ⟨1, _⟩ =>
    show 0 = if 1 = 1 then 0 else j.val
    rfl

/-- A list `[E]` recast as a column `[E, 1]`, read at `(e, 0)`: entry `e`. -/
theorem castCol_apply {E : Nat} (hsc : (⟨1, ![E]⟩ : Shape).ShapeCasts ⟨2, ![E, 1]⟩)
    (X : (⟨1, ![E]⟩ : Shape).Idx → α) (e : Fin E) :
    shapeCast (⟨2, ![E, 1]⟩ : Shape) X hsc (ix2 e (0 : Fin 1)) = X (ix1 e) := by
  refine shapeCast_apply X hsc _ (ix1 e) ?_
  rw [Shape.rowMajor_val_one, Shape.rowMajor_val_two]
  show e.val = e.val * 1 + 0
  omega

/-- Padding a list at its end by `P` entries makes it `P` entries longer. -/
theorem pads_extent {E E' P : Nat} (hpad : (⟨1, ![E]⟩ : Shape).Pads ![0] ![P] ![0] ⟨1, ![E']⟩) : E' = E + P := by
  obtain ⟨h1, h2⟩ := hpad
  have h : E' = 0 + E + 0 * (E - 1) + P := h2 0
  omega

/-- A list padded at its end, read before the padding: the list's own entry. -/
theorem padEnd_apply_lt {E E' P : Nat} {u : Shape} (X : (⟨1, ![E]⟩ : Shape).Idx → α) (v : u.Idx → α)
    (hpad : (⟨1, ![E]⟩ : Shape).Pads ![0] ![P] ![0] ⟨1, ![E']⟩) (hu : 0 < u.numel) (e' : Fin E') (h : e'.val < E) :
    pad (⟨1, ![E']⟩ : Shape) ![0] ![P] ![0] X v hpad hu (ix1 e') = X (ix1 (⟨e'.val, h⟩ : Fin E)) := by
  refine pad_apply_of_inside _ _ _ X v hpad hu _ (ix1 (⟨e'.val, h⟩ : Fin E)) fun a => ?_
  match a with
  | ⟨0, _⟩ =>
    show e'.val = 0 + e'.val * (0 + 1)
    omega

/-- A list padded at its end, read in the padding: the padding value. -/
theorem padEnd_apply_ge {E E' P : Nat} {u : Shape} (X : (⟨1, ![E]⟩ : Shape).Idx → α) (v : u.Idx → α)
    (hpad : (⟨1, ![E]⟩ : Shape).Pads ![0] ![P] ![0] ⟨1, ![E']⟩) (hu : 0 < u.numel) (e' : Fin E') (h : E ≤ e'.val) :
    pad (⟨1, ![E']⟩ : Shape) ![0] ![P] ![0] X v hpad hu (ix1 e') = v (Shape.Idx.first hu) := by
  refine pad_apply_of_not_inside _ _ _ X v hpad hu _ 0 fun hin => ?_
  have h3 : (e'.val - 0) / (0 + 1) < E := hin.2.2
  rw [Nat.sub_zero, Nat.div_one] at h3
  omega

end Reads

/-! ## Negative row numbers counted from the end -/

section Wrap

/-- A list of signed row numbers with every negative one moved up by `c` (a row number `-k` means row `c - k`),
    written with the array operations: compare with the zero splat, add the splat of `c`, select. -/
abbrev wrap {E : Nat} (hbs : (⟨0, ![]⟩ : Shape).BroadcastsInDim ⟨1, ![E]⟩ ![]) (c : BitVec 32)
    (X : IVec ⟨1, ![E]⟩ 32) : IVec ⟨1, ![E]⟩ 32 :=
  select (cmpi .slt X (broadcastInDim (⟨1, ![E]⟩ : Shape) ![] hbs (constantI ⟨0, ![]⟩ 32 0#32)))
    (addi X (broadcastInDim (⟨1, ![E]⟩ : Shape) ![] hbs (constantI ⟨0, ![]⟩ 32 c))) X

/-- The same on one word. -/
def wrapWord (c z : BitVec 32) : BitVec 32 := Scalar.select (IntOp.cmpi .slt z 0#32) (IntOp.addi z c) z

/-- The list operation acts entry by entry. -/
theorem wrap_apply {E : Nat} (hbs : (⟨0, ![]⟩ : Shape).BroadcastsInDim ⟨1, ![E]⟩ ![]) (c : BitVec 32)
    (X : IVec ⟨1, ![E]⟩ 32) (i : (⟨1, ![E]⟩ : Shape).Idx) : wrap hbs c X i = wrapWord c (X i) := rfl

end Wrap

/-! ## One aggregation step, on the padded edge list and on the edge list itself -/

section Conv

/-- The reference's message array — gathered rows times the weights broadcast along the rows — is the gathered rows
    scaled row by row. -/
theorem mulf_bcast_eq_scaleRows {E B : Nat} {φ : FTy}
    (hb2 : (⟨2, ![E, 1]⟩ : Shape).BroadcastsInDim ⟨2, ![E, B]⟩ ![0, 1])
    (G : (⟨2, ![E, B]⟩ : Shape).Idx → EReal) (n : (⟨2, ![E, 1]⟩ : Shape).Idx → EReal) :
    mulf (F := Ideal) (φ := φ) G (broadcastInDim (⟨2, ![E, B]⟩ : Shape) ![0, 1] hb2 n) = scaleRows G n := by
  funext i
  obtain ⟨e, j, rfl⟩ : ∃ (e : Fin E) (j : Fin B), i = ix2 e j := ⟨i 0, i 1, eq_ix2 i⟩
  rw [mulf_apply, scaleRows_apply, bcastRow_apply]

/-- ONE AGGREGATION STEP, PADDED AGAINST UNPADDED.  `D`, `S`, `Nm` are the edges' destination rows, source rows and
    weights.  On the left the three lists are padded at the end by `P` entries (the weights with a value `vf` that
    is `0`; the values the row lists are padded with do not matter), the source rows are wrapped, and the rows of
    `hw` they name are gathered, scaled by the weights and added into `Z` at the destination rows.  On the right the
    same is done with the lists as they are.  The two results are equal: every padded edge carries a gathered row
    times `0`. -/
theorem conv_pad {N E E' B P : Nat} {φ : FTy} {u u' u'' : Shape} (hN : 0 < N)
    (wf : ScatterDims.WF ⟨2, ![N, B]⟩ ⟨2, ![E, 1]⟩ ⟨2, ![E, B]⟩ [1] [0] [0] 1)
    (wf' : ScatterDims.WF ⟨2, ![N, B]⟩ ⟨2, ![E', 1]⟩ ⟨2, ![E', B]⟩ [1] [0] [0] 1)
    (gwf : GatherDims.WF ⟨2, ![N, B]⟩ ⟨2, ![E, 1]⟩ ⟨2, ![E, B]⟩ [1] [0] [] [0] [] 1 ![1, B])
    (gwf' : GatherDims.WF ⟨2, ![N, B]⟩ ⟨2, ![E', 1]⟩ ⟨2, ![E', B]⟩ [1] [0] [] [0] [] 1 ![1, B])
    (hb1 : (⟨1, ![E]⟩ : Shape).BroadcastsInDim ⟨2, ![E, 1]⟩ ![0])
    (hb1' : (⟨1, ![E']⟩ : Shape).BroadcastsInDim ⟨2, ![E', 1]⟩ ![0])
    (hb2 : (⟨2, ![E, 1]⟩ : Shape).BroadcastsInDim ⟨2, ![E, B]⟩ ![0, 1])
    (hbs : (⟨0, ![]⟩ : Shape).BroadcastsInDim ⟨1, ![E]⟩ ![])
    (hbs' : (⟨0, ![]⟩ : Shape).BroadcastsInDim ⟨1, ![E']⟩ ![])
    (hsc : (⟨1, ![E']⟩ : Shape).ShapeCasts ⟨2, ![E', 1]⟩)
    (hpad : (⟨1, ![E]⟩ : Shape).Pads ![0] ![P] ![0] ⟨1, ![E']⟩)
    (hu : 0 < u.numel) (hu' : 0 < u'.numel) (hu'' : 0 < u''.numel)
    (c : BitVec 32)
    (Z hw : (⟨2, ![N, B]⟩ : Shape).Idx → EReal)
    (D S : IVec ⟨1, ![E]⟩ 32) (Nm : (⟨1, ![E]⟩ : Shape).Idx → EReal)
    (vi : IVec u 32) (vi' : IVec u' 32) (vf : u''.Idx → EReal) (hvf : vf (Shape.Idx.first hu'') = 0) :
    Ideal.hostScatterAdd (rowScatter N E' B wf') Z
        (broadcastInDim (⟨2, ![E', 1]⟩ : Shape) ![0] hb1' (pad (⟨1, ![E']⟩ : Shape) ![0] ![P] ![0] D vi hpad hu))
        (scaleRows
          (Host.gather (rowGather N E' B gwf') hw
            (broadcastInDim (⟨2, ![E', 1]⟩ : Shape) ![0] hb1'
              (wrap hbs' c (pad (⟨1, ![E']⟩ : Shape) ![0] ![P] ![0] S vi' hpad hu'))))
          (shapeCast (⟨2, ![E', 1]⟩ : Shape) (pad (⟨1, ![E']⟩ : Shape) ![0] ![P] ![0] Nm vf hpad hu'') hsc))
      = Ideal.hostScatterAdd (rowScatter N E B wf) Z
        (broadcastInDim (⟨2, ![E, 1]⟩ : Shape) ![0] hb1 D)
        (mulf (F := Ideal) (φ := φ)
          (Host.gather (rowGather N E B gwf) hw (broadcastInDim (⟨2, ![E, 1]⟩ : Shape) ![0] hb1 (wrap hbs c S)))
          (broadcastInDim (⟨2, ![E, B]⟩ : Shape) ![0, 1] hb2 (broadcastInDim (⟨2, ![E, 1]⟩ : Shape) ![0] hb1 Nm))) := by
  have hEP : E' = E + P := pads_extent hpad
  have hE : E ≤ E' := by omega
  rw [mulf_bcast_eq_scaleRows hb2]
  refine scatterAdd_scaled_gather_pad hN hE wf wf' gwf gwf' Z hw _ _ _ _ _ _
    (fun e => ?_) (fun e => ?_) (fun e => ?_) (fun e' he' => ?_)
  · rw [bcastCol_apply, bcastCol_apply, padEnd_apply_lt D vi hpad hu _ e.isLt]
  · rw [bcastCol_apply, bcastCol_apply, wrap_apply, wrap_apply, padEnd_apply_lt S vi' hpad hu' _ e.isLt]
  · rw [castCol_apply, bcastCol_apply, padEnd_apply_lt Nm vf hpad hu'' _ e.isLt]
  · rw [castCol_apply, padEnd_apply_ge Nm vf hpad hu'' e' he', hvf]

/-- The same with the scatter-add written as the host operation at the ideal values, which is that exact sum. -/
theorem conv_pad_host {N E E' B P : Nat} {φ : FTy} {u u' u'' : Shape} (hN : 0 < N)
    (wf : ScatterDims.WF ⟨2, ![N, B]⟩ ⟨2, ![E, 1]⟩ ⟨2, ![E, B]⟩ [1] [0] [0] 1)
    (wf' : ScatterDims.WF ⟨2, ![N, B]⟩ ⟨2, ![E', 1]⟩ ⟨2, ![E', B]⟩ [1] [0] [0] 1)
    (gwf : GatherDims.WF ⟨2, ![N, B]⟩ ⟨2, ![E, 1]⟩ ⟨2, ![E, B]⟩ [1] [0] [] [0] [] 1 ![1, B])
    (gwf' : GatherDims.WF ⟨2, ![N, B]⟩ ⟨2, ![E', 1]⟩ ⟨2, ![E', B]⟩ [1] [0] [] [0] [] 1 ![1, B])
    (hb1 : (⟨1, ![E]⟩ : Shape).BroadcastsInDim ⟨2, ![E, 1]⟩ ![0])
    (hb1' : (⟨1, ![E']⟩ : Shape).BroadcastsInDim ⟨2, ![E', 1]⟩ ![0])
    (hb2 : (⟨2, ![E, 1]⟩ : Shape).BroadcastsInDim ⟨2, ![E, B]⟩ ![0, 1])
    (hbs : (⟨0, ![]⟩ : Shape).BroadcastsInDim ⟨1, ![E]⟩ ![])
    (hbs' : (⟨0, ![]⟩ : Shape).BroadcastsInDim ⟨1, ![E']⟩ ![])
    (hsc : (⟨1, ![E']⟩ : Shape).ShapeCasts ⟨2, ![E', 1]⟩)
    (hpad : (⟨1, ![E]⟩ : Shape).Pads ![0] ![P] ![0] ⟨1, ![E']⟩)
    (hu : 0 < u.numel) (hu' : 0 < u'.numel) (hu'' : 0 < u''.numel)
    (c : BitVec 32)
    (Z hw : (⟨2, ![N, B]⟩ : Shape).Idx → EReal)
    (D S : IVec ⟨1, ![E]⟩ 32) (Nm : (⟨1, ![E]⟩ : Shape).Idx → EReal)
    (vi : IVec u 32) (vi' : IVec u' 32) (vf : u''.Idx → EReal) (hvf : vf (Shape.Idx.first hu'') = 0) :
    Host.scatterAdd (F := Ideal) (φ := φ) (rowScatter N E' B wf') Z
        (broadcastInDim (⟨2, ![E', 1]⟩ : Shape) ![0] hb1' (pad (⟨1, ![E']⟩ : Shape) ![0] ![P] ![0] D vi hpad hu))
        (scaleRows
          (Host.gather (rowGather N E' B gwf') hw
            (broadcastInDim (⟨2, ![E', 1]⟩ : Shape) ![0] hb1'
              (wrap hbs' c (pad (⟨1, ![E']⟩ : Shape) ![0] ![P] ![0] S vi' hpad hu'))))
          (shapeCast (⟨2, ![E', 1]⟩ : Shape) (pad (⟨1, ![E']⟩ : Shape) ![0] ![P] ![0] Nm vf hpad hu'') hsc))
      = Host.scatterAdd (F := Ideal) (φ := φ) (rowScatter N E B wf) Z
        (broadcastInDim (⟨2, ![E, 1]⟩ : Shape) ![0] hb1 D)
        (mulf (F := Ideal) (φ := φ)
          (Host.gather (rowGather N E B gwf) hw (broadcastInDim (⟨2, ![E, 1]⟩ : Shape) ![0] hb1 (wrap hbs c S)))
          (broadcastInDim (⟨2, ![E, B]⟩ : Shape) ![0, 1] hb2 (broadcastInDim (⟨2, ![E, 1]⟩ : Shape) ![0] hb1 Nm))) :=
  conv_pad (φ := φ) hN wf wf' gwf gwf' hb1 hb1' hb2 hbs hbs' hsc hpad hu hu' hu'' c Z hw D S Nm vi vi' vf hvf

end Conv

end Cert.ConvPad

end
-- ==== Proof.KModel.lean ====
/-
  The idealized kernel's value as a layered function of its fourteen arguments, over extended reals.
  The edge list: source and destination node of every edge, the self loops appended (`src`, `dst`);
  the symmetric normalisation  nrm e = dinv (src e) · dinv (dst e)  with dinv = 1/√deg where deg > 0, else 0,
  deg the number of edges arriving at a node.  The kernel pads the three edge arrays by 1376 zero entries
  (`srcP`, `dstP`, `nrmP`) so that 4096 divides their length, and computes one aggregation per layer,
      agg hw = scatter-add over the padded edges of  hw[src e, :] · nrm e  into row dst e,
  its product step being the pipelined call.  Six layers  h ↦ act (agg (h · W) + b)  (widths 15→8→8→2→8→8→15,
  act = max(·, 0) except after the third and the last) and then, per node, the mean over the 15 columns of
  the squared difference between the input and its reconstruction.
-/
import proofs.«147065_j51737176047725_2_alg».proof.Proof.Gen.KernelIdeal
import proofs.«147065_j51737176047725_2_alg».proof.Proof.Spec
import proofs.«147065_j51737176047725_2_alg».proof.Proof.SpecMse
import proofs.«147065_j51737176047725_2_alg».proof.Proof.ConvPad

noncomputable section

namespace Cert.KernelIdeal.Model

open Cert.KernelIdeal Cert.KernelIdeal.Gen Cert.Spec Idealize.ShloMosaic

/-- Source node of each of the 3 200 000 edges, then the 100 000 self loops. -/
def src (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- Destination node of each edge, then the self loops. -/
def dst (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- In-degree of every node: one unit scattered to the destination of each edge. -/
def deg (ei : IVec S2x3200000 32) : FVec Ideal S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (dst ei))
    (broadcastInDim S3300000 ![] bcast_S_S3300000 (constant S_ .f32 0x3F800000#32))

/-- 1/√deg where the degree is positive, 0 elsewhere. -/
def dinv (ei : IVec S2x3200000 32) : FVec Ideal S100000 .f32 :=
  select (cmpf .ogt (deg ei) (broadcastInDim S100000 ![] bcast_S_S100000 (constant S_ .f32 0x00000000#32)))
    (Host.rsqrt (deg ei)) (broadcastInDim S100000 ![] bcast_S_S100000 (constant S_ .f32 0x00000000#32))

/-- The per-edge coefficient dinv (src e) · dinv (dst e). -/
def nrm (ei : IVec S2x3200000 32) : FVec Ideal S3300000 .f32 :=
  mulf (Host.gather gather_S100000_S3300000x1_S3300000_n_0_n_n_0_1_1 (dinv ei)
          (broadcastInDim S3300000x1 ![0] bcast_S3300000_S3300000x1_0 (Cert.ConvPad.wrap bcast_S_S3300000 100000#32 (src ei))))
       (Host.gather gather_S100000_S3300000x1_S3300000_n_0_n_n_0_1_1 (dinv ei)
          (broadcastInDim S3300000x1 ![0] bcast_S3300000_S3300000x1_0 (Cert.ConvPad.wrap bcast_S_S3300000 100000#32 (dst ei))))

/-- The three edge arrays padded with 1376 zero entries. -/
def srcP (ei : IVec S2x3200000 32) : IVec S3301376 32 :=
  pad S3301376 ![0] ![1376] ![0] (src ei) (constantI S_ 32 0#32) pads_S3300000_S3301376_013760 h_S_
def dstP (ei : IVec S2x3200000 32) : IVec S3301376 32 :=
  pad S3301376 ![0] ![1376] ![0] (dst ei) (constantI S_ 32 0#32) pads_S3300000_S3301376_013760 h_S_
def nrmP (ei : IVec S2x3200000 32) : FVec Ideal S3301376 .f32 :=
  pad S3301376 ![0] ![1376] ![0] (nrm ei) (constant S_ .f32 0x00000000#32) pads_S3300000_S3301376_013760 h_S_

/-- One aggregation at width 8: rows of `hw` gathered at the padded sources, scaled by the padded
    coefficients, summed into the rows the padded destinations name. -/
def agg8 (ei : IVec S2x3200000 32) (hw : FVec Ideal S100000x8 .f32) : FVec Ideal S100000x8 .f32 :=
  Host.scatterAdd scatter_S100000x8_S3301376x1_S3301376x8_1_0_0_1
    (broadcastInDim S100000x8 ![] bcast_S_S100000x8 (constant S_ .f32 0x00000000#32))
    (broadcastInDim S3301376x1 ![0] bcast_S3301376_S3301376x1_0 (dstP ei))
    (scaleRows (Host.gather gather_S100000x8_S3301376x1_S3301376x8_1_0_n_n_0_1_18 hw
        (broadcastInDim S3301376x1 ![0] bcast_S3301376_S3301376x1_0 (Cert.ConvPad.wrap bcast_S_S3301376 100000#32 (srcP ei))))
      (shapeCast S3301376x1 (nrmP ei) shapeCasts_S3301376_S3301376x1))

/-- A bias vector added to every row. -/
def bias8 (b : FVec Ideal S8 .f32) : FVec Ideal S100000x8 .f32 :=
  broadcastInDim S100000x8 ![0, 1] bcast_S1x8_S100000x8_0_1 (broadcastInDim S1x8 ![1] bcast_S8_S1x8_1 b)

/-- One aggregation at width 2: rows of `hw` gathered at the padded sources, scaled by the padded
    coefficients, summed into the rows the padded destinations name. -/
def agg2 (ei : IVec S2x3200000 32) (hw : FVec Ideal S100000x2 .f32) : FVec Ideal S100000x2 .f32 :=
  Host.scatterAdd scatter_S100000x2_S3301376x1_S3301376x2_1_0_0_1
    (broadcastInDim S100000x2 ![] bcast_S_S100000x2 (constant S_ .f32 0x00000000#32))
    (broadcastInDim S3301376x1 ![0] bcast_S3301376_S3301376x1_0 (dstP ei))
    (scaleRows (Host.gather gather_S100000x2_S3301376x1_S3301376x2_1_0_n_n_0_1_12 hw
        (broadcastInDim S3301376x1 ![0] bcast_S3301376_S3301376x1_0 (Cert.ConvPad.wrap bcast_S_S3301376 100000#32 (srcP ei))))
      (shapeCast S3301376x1 (nrmP ei) shapeCasts_S3301376_S3301376x1))

/-- A bias vector added to every row. -/
def bias2 (b : FVec Ideal S2 .f32) : FVec Ideal S100000x2 .f32 :=
  broadcastInDim S100000x2 ![0, 1] bcast_S1x2_S100000x2_0_1 (broadcastInDim S1x2 ![1] bcast_S2_S1x2_1 b)

/-- One aggregation at width 15: rows of `hw` gathered at the padded sources, scaled by the padded
    coefficients, summed into the rows the padded destinations name. -/
def agg15 (ei : IVec S2x3200000 32) (hw : FVec Ideal S100000x15 .f32) : FVec Ideal S100000x15 .f32 :=
  Host.scatterAdd scatter_S100000x15_S3301376x1_S3301376x15_1_0_0_1
    (broadcastInDim S100000x15 ![] bcast_S_S100000x15 (constant S_ .f32 0x00000000#32))
    (broadcastInDim S3301376x1 ![0] bcast_S3301376_S3301376x1_0 (dstP ei))
    (scaleRows (Host.gather gather_S100000x15_S3301376x1_S3301376x15_1_0_n_n_0_1_115 hw
        (broadcastInDim S3301376x1 ![0] bcast_S3301376_S3301376x1_0 (Cert.ConvPad.wrap bcast_S_S3301376 100000#32 (srcP ei))))
      (shapeCast S3301376x1 (nrmP ei) shapeCasts_S3301376_S3301376x1))

/-- A bias vector added to every row. -/
def bias15 (b : FVec Ideal S15 .f32) : FVec Ideal S100000x15 .f32 :=
  broadcastInDim S100000x15 ![0, 1] bcast_S1x15_S100000x15_0_1 (broadcastInDim S1x15 ![1] bcast_S15_S1x15_1 b)

/-- max(·, 0) entry by entry. -/
def relu8 (h : FVec Ideal S100000x8 .f32) : FVec Ideal S100000x8 .f32 :=
  maximumf h (broadcastInDim S100000x8 ![] bcast_S_S100000x8 (constant S_ .f32 0x00000000#32))

/-- The reconstruction: six layers of aggregation, product with the weights, bias, activation. -/
def recon (x : FVec Ideal S100000x15 .f32) (ei : IVec S2x3200000 32)
    (W1 : FVec Ideal S15x8 .f32) (b1 : FVec Ideal S8 .f32) (W2 : FVec Ideal S8x8 .f32) (b2 : FVec Ideal S8 .f32)
    (W3 : FVec Ideal S8x2 .f32) (b3 : FVec Ideal S2 .f32) (W4 : FVec Ideal S2x8 .f32) (b4 : FVec Ideal S8 .f32)
    (W5 : FVec Ideal S8x8 .f32) (b5 : FVec Ideal S8 .f32) (W6 : FVec Ideal S8x15 .f32) (b6 : FVec Ideal S15 .f32) :
    FVec Ideal S100000x15 .f32 :=
  addf (agg15 ei (Host.dotGeneral dot_S100000x8_S8x15_S100000x15_1_0_0_1_n_n none
    (relu8 (addf (agg8 ei (Host.dotGeneral dot_S100000x8_S8x8_S100000x8_1_0_0_1_n_n none
      (relu8 (addf (agg8 ei (Host.dotGeneral dot_S100000x2_S2x8_S100000x8_1_0_0_1_n_n none
        (addf (agg2 ei (Host.dotGeneral dot_S100000x8_S8x2_S100000x2_1_0_0_1_n_n none
          (relu8 (addf (agg8 ei (Host.dotGeneral dot_S100000x8_S8x8_S100000x8_1_0_0_1_n_n none
            (relu8 (addf (agg8 ei (Host.dotGeneral dot_S100000x15_S15x8_S100000x8_1_0_0_1_n_n none x W1)) (bias8 b1)))
            W2)) (bias8 b2)))
          W3)) (bias2 b3))
        W4)) (bias8 b4)))
      W5)) (bias8 b5)))
    W6)) (bias15 b6)

/-- The kernel's result: per node, the mean over the 15 columns of (x − reconstruction)². -/
def kval (x : FVec Ideal S100000x15 .f32) (ei : IVec S2x3200000 32)
    (W1 : FVec Ideal S15x8 .f32) (b1 : FVec Ideal S8 .f32) (W2 : FVec Ideal S8x8 .f32) (b2 : FVec Ideal S8 .f32)
    (W3 : FVec Ideal S8x2 .f32) (b3 : FVec Ideal S2 .f32) (W4 : FVec Ideal S2x8 .f32) (b4 : FVec Ideal S8 .f32)
    (W5 : FVec Ideal S8x8 .f32) (b5 : FVec Ideal S8 .f32) (W6 : FVec Ideal S8x15 .f32) (b6 : FVec Ideal S15 .f32) :
    FVec Ideal S100000 .f32 :=
  shapeCast S100000 (mseCol x (recon x ei W1 b1 W2 b2 W3 b3 W4 b4 W5 b5 W6 b6)) shapeCasts_S100000x1_S100000

end Cert.KernelIdeal.Model

end
-- ==== Proof.RegionScale0.lean ====
/-
  Call 0 of the seven: the array `main_v41` of 3301376 rows by 8 columns, every row multiplied by that row's one
  entry of the coefficient column `main_v33`, left in `main_v42`.

  The call works on 806 blocks of 4096 consecutive rows.  At grid point `t` it holds rows 4096·t … 4096·t + 4095 of
  both inputs, multiplies entry (p, q) of the wide block by entry (p, 0) of the column block, and writes the product
  block back over the same rows of the output.  Since an entry of the product only involves entries of its own row,
  each written block is the restriction to those rows of one function of the two whole arrays, `Cert.Spec.scaleRows`;
  and since row r lies in the block of point r / 4096, the 806 blocks cover the array.  So after the call the output
  array is `scaleRows` of the two input arrays, whatever they held on entry.
-/
import proofs.«147065_j51737176047725_2_alg».proof.Proof.Gen.KernelIdeal.Frame
import proofs.«147065_j51737176047725_2_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a load or store of a whole block, however they are spelt. -/
theorem hz0 : (![0, 0] : Fin 2 → Nat) = fun _ => 0 := funext fun a => by fin_cases a <;> rfl

/-- A column broadcast along the rows: entry (p, q) of the widened block is the column's entry (p, 0). -/
theorem bcast0_apply (x : FVec Ideal S4096x1 .f32) (h : S4096x1.Broadcasts S4096x8) (p : Fin 4096) (q : Fin 8) :
    broadcastTo S4096x8 x h (ix2 p q) = x (ix2 p (0 : Fin 1)) :=
  broadcastTo_apply x h (ix2 p q) (ix2 p (0 : Fin 1)) fun a => by
    match a with
    | ⟨0, _⟩ => rfl
    | ⟨1, _⟩ => rfl

/-- The body's arithmetic at entry (p, q) of a block: the wide block's entry times the column block's entry of row p. -/
theorem pay0_apply (x0 : Vec Ideal S4096x8 .f32) (x1 : Vec Ideal S4096x1 .f32) (p : Fin 4096) (q : Fin 8) :
    k0_pay1 (F := Ideal) x0 x1 (ix2 p q) = x0 (ix2 p q) * x1 (ix2 p (0 : Fin 1)) := by
  unfold k0_pay1
  rw [shapeCast_self, shapeCast_self, mulf_apply, bcast0_apply]

/-- The same at an arbitrary index of the block, the row read off the index. -/
theorem pay0_at (x0 : Vec Ideal S4096x8 .f32) (x1 : Vec Ideal S4096x1 .f32) (j : S4096x8.Idx) :
    k0_pay1 (F := Ideal) x0 x1 j = x0 j * x1 (ix2 (⟨(j 0).val, idx2_lt0 j⟩ : Fin 4096) (0 : Fin 1)) := by
  obtain ⟨p, q, rfl⟩ : ∃ (p : Fin 4096) (q : Fin 8), j = ix2 p q := ⟨j 0, j 1, eq_ix2 j⟩
  exact pay0_apply x0 x1 p q

/-- The three index maps, decided over the grid: at point `t` every window is on block row `t`, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled array: entry (p, q) of the written block is row
    4096·t + p of the wide input at column q times the coefficient of that same row. -/
theorem flushed0_eq (c : Dev nD) (t : Fin cfg0.N) :
    (dat0 V c).flushed 2 t = ((cfg0.win 2).blk t).view.read (Elt Ideal)
      (Cert.Spec.scaleRows (V c main_v41 : S3301376x8.Idx → EReal) (V c main_v33 : S3301376x1.Idx → EReal)) := by
  show (cfg0.win 2).cut (grid0.coords t) ((dat0 V c).after 2 t) = _
  rw [after0_2]
  unfold out0_2
  rw [View.canon_unit_zero hz0]
  simp only [View.ld_unit_zero (S := S4096x8) hz0, View.ld_unit_zero (S := S4096x1) hz0]
  obtain ⟨e0, e1, e2, e3, e4, e5⟩ := idx0 t
  funext j
  have hj : (j 0).val < 4096 := (j 0).isLt
  have hj1 : (j 1).val < 8 := (j 1).isLt
  refine (pay0_at (iblk0 V c 0 t) (iblk0 V c 1 t) j).trans ?_
  have hi : ((((cfg0.win 2).blk t).view.emb j) 0).val < 3301376 := ((((cfg0.win 2).blk t).view.emb j) 0).isLt
  -- the wide input's block and the output's block sit over the same rows and columns of their arrays
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 8 + 1 * (j 1).val = win0_2.index t (1 : Fin 2) * 8 + 1 * (j 1).val; omega
  -- the column's block sits over the same rows: its entry (p, 0) is the coefficient of the output entry's row
  have h1 : ((cfg0.win 1).blk t).view.emb (ix2 (⟨(j 0).val, hj⟩ : Fin 4096) (0 : Fin 1))
      = ix2 (⟨((((cfg0.win 2).blk t).view.emb j) 0).val, hi⟩ : Fin 3301376) (0 : Fin 1) := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 1 + 1 * 0 = 0; omega
  have key : ∀ (g : S3301376x8.Idx → EReal) (n : S3301376x1.Idx → EReal),
      g (((cfg0.win 0).blk t).view.emb j)
          * n (((cfg0.win 1).blk t).view.emb (ix2 (⟨(j 0).val, hj⟩ : Fin 4096) (0 : Fin 1)))
        = Cert.Spec.scaleRows g n (((cfg0.win 2).blk t).view.emb j) := by
    intro g n
    rw [h0, h1]
    rfl
  exact key (V c main_v41) (V c main_v33)

/-- An index of the output array is in point `t`'s block iff each coordinate is in the block's range on its axis. -/
theorem mem_blk0 (t : Fin cfg0.N) (i : S3301376x8.Idx) :
    i ∈ ((cfg0.win 2).blk t).view.set ↔ ∀ a : Fin 2, win0_2.index t a * S4096x8.size a ≤ (i a).val ∧ (i a).val < win0_2.index t a * S4096x8.size a + S4096x8.size a := by
  show i ∈ ((View.whole main_v42).slice (win0_2.rect t)).set ↔ _
  rw [View.set_slice_whole, Rect.mem_set_unit]
  exact Iff.rfl

/-- Row `r` lies in the block of point `r / 4096`: the 806 blocks of 4096 rows tile the 3301376 rows. -/
theorem cover0 (i : S3301376x8.Idx) :
    ∃ t : Fin cfg0.N, (cfg0.win 2).flush t = true ∧ i ∈ ((cfg0.win 2).blk t).view.set := by
  have hi0 : (i 0).val < 3301376 := (i 0).isLt
  have hi1 : (i 1).val < 8 := (i 1).isLt
  obtain ⟨t, ht⟩ : ∃ t : Fin cfg0.N, t.val = (i 0).val / 4096 :=
    ⟨⟨(i 0).val / 4096, Nat.lt_of_lt_of_eq (by omega : (i 0).val / 4096 < 806) N_0.symm⟩, rfl⟩
  obtain ⟨-, -, -, -, e4, e5⟩ := idx0 t
  refine ⟨t, flush0_2 t, ?_⟩
  rw [mem_blk0]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 8 ≤ (i 1).val ∧ (i 1).val < win0_2.index t (1 : Fin 2) * 8 + 8; omega

/-- After call 0 its output array is the wide input array with every row multiplied by that row's coefficient,
    for any contents `V` the call finds in its arrays. -/
theorem final0 (c : Dev nD) : (dat0 (F := Ideal) V c).arrAt 2 cfg0.N
    = Cert.Spec.scaleRows (V c main_v41 : S3301376x8.Idx → EReal) (V c main_v33 : S3301376x1.Idx → EReal) :=
  (dat0 V c).arrAt_eq_of_cover 2
    (Cert.Spec.scaleRows (V c main_v41 : S3301376x8.Idx → EReal) (V c main_v33 : S3301376x1.Idx → EReal))
    (fun t _ => flushed0_eq V c t) (fun i => cover0 i)

end Cert.KernelIdeal.Region

end
-- ==== Proof.RegionScale1.lean ====
/-
  Call 1 of the seven: the array `main_v57` of 3301376 rows by 8 columns, every row multiplied by that row's one
  entry of the coefficient column `main_v33`, left in `main_v58`.

  The call works on 806 blocks of 4096 consecutive rows.  At grid point `t` it holds rows 4096·t … 4096·t + 4095 of
  both inputs, multiplies entry (p, q) of the wide block by entry (p, 0) of the column block, and writes the product
  block back over the same rows of the output.  Since an entry of the product only involves entries of its own row,
  each written block is the restriction to those rows of one function of the two whole arrays, `Cert.Spec.scaleRows`;
  and since row r lies in the block of point r / 4096, the 806 blocks cover the array.  So after the call the output
  array is `scaleRows` of the two input arrays, whatever they held on entry.
-/
import proofs.«147065_j51737176047725_2_alg».proof.Proof.Gen.KernelIdeal.Frame
import proofs.«147065_j51737176047725_2_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a load or store of a whole block, however they are spelt. -/
theorem hz1 : (![0, 0] : Fin 2 → Nat) = fun _ => 0 := funext fun a => by fin_cases a <;> rfl

/-- A column broadcast along the rows: entry (p, q) of the widened block is the column's entry (p, 0). -/
theorem bcast1_apply (x : FVec Ideal S4096x1 .f32) (h : S4096x1.Broadcasts S4096x8) (p : Fin 4096) (q : Fin 8) :
    broadcastTo S4096x8 x h (ix2 p q) = x (ix2 p (0 : Fin 1)) :=
  broadcastTo_apply x h (ix2 p q) (ix2 p (0 : Fin 1)) fun a => by
    match a with
    | ⟨0, _⟩ => rfl
    | ⟨1, _⟩ => rfl

/-- The body's arithmetic at entry (p, q) of a block: the wide block's entry times the column block's entry of row p. -/
theorem pay1_apply (x0 : Vec Ideal S4096x8 .f32) (x1 : Vec Ideal S4096x1 .f32) (p : Fin 4096) (q : Fin 8) :
    k1_pay1 (F := Ideal) x0 x1 (ix2 p q) = x0 (ix2 p q) * x1 (ix2 p (0 : Fin 1)) := by
  unfold k1_pay1
  rw [shapeCast_self, shapeCast_self, mulf_apply, bcast1_apply]

/-- The same at an arbitrary index of the block, the row read off the index. -/
theorem pay1_at (x0 : Vec Ideal S4096x8 .f32) (x1 : Vec Ideal S4096x1 .f32) (j : S4096x8.Idx) :
    k1_pay1 (F := Ideal) x0 x1 j = x0 j * x1 (ix2 (⟨(j 0).val, idx2_lt0 j⟩ : Fin 4096) (0 : Fin 1)) := by
  obtain ⟨p, q, rfl⟩ : ∃ (p : Fin 4096) (q : Fin 8), j = ix2 p q := ⟨j 0, j 1, eq_ix2 j⟩
  exact pay1_apply x0 x1 p q

/-- The three index maps, decided over the grid: at point `t` every window is on block row `t`, block column 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled array: entry (p, q) of the written block is row
    4096·t + p of the wide input at column q times the coefficient of that same row. -/
theorem flushed1_eq (c : Dev nD) (t : Fin cfg1.N) :
    (dat1 V c).flushed 2 t = ((cfg1.win 2).blk t).view.read (Elt Ideal)
      (Cert.Spec.scaleRows (V c main_v57 : S3301376x8.Idx → EReal) (V c main_v33 : S3301376x1.Idx → EReal)) := by
  show (cfg1.win 2).cut (grid1.coords t) ((dat1 V c).after 2 t) = _
  rw [after1_2]
  unfold out1_2
  rw [View.canon_unit_zero hz1]
  simp only [View.ld_unit_zero (S := S4096x8) hz1, View.ld_unit_zero (S := S4096x1) hz1]
  obtain ⟨e0, e1, e2, e3, e4, e5⟩ := idx1 t
  funext j
  have hj : (j 0).val < 4096 := (j 0).isLt
  have hj1 : (j 1).val < 8 := (j 1).isLt
  refine (pay1_at (iblk1 V c 0 t) (iblk1 V c 1 t) j).trans ?_
  have hi : ((((cfg1.win 2).blk t).view.emb j) 0).val < 3301376 := ((((cfg1.win 2).blk t).view.emb j) 0).isLt
  -- the wide input's block and the output's block sit over the same rows and columns of their arrays
  have h0 : ((cfg1.win 0).blk t).view.emb j = ((cfg1.win 2).blk t).view.emb j := by
    funext a; apply Fin.ext
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 8 + 1 * (j 1).val = win1_2.index t (1 : Fin 2) * 8 + 1 * (j 1).val; omega
  -- the column's block sits over the same rows: its entry (p, 0) is the coefficient of the output entry's row
  have h1 : ((cfg1.win 1).blk t).view.emb (ix2 (⟨(j 0).val, hj⟩ : Fin 4096) (0 : Fin 1))
      = ix2 (⟨((((cfg1.win 2).blk t).view.emb j) 0).val, hi⟩ : Fin 3301376) (0 : Fin 1) := by
    funext a; apply Fin.ext
    match a with
    | ⟨0, _⟩ => show win1_1.index t (0 : Fin 2) * 4096 + 1 * (j 0).val = win1_2.index t (0 : Fin 2) * 4096 + 1 * (j 0).val; omega
    | ⟨1, _⟩ => show win1_1.index t (1 : Fin 2) * 1 + 1 * 0 = 0; omega
  have key : ∀ (g : S3301376x8.Idx → EReal) (n : S3301376x1.Idx → EReal),
      g (((cfg1.win 0).blk t).view.emb j)
          * n (((cfg1.win 1).blk t).view.emb (ix2 (⟨(j 0).val, hj⟩ : Fin 4096) (0 : Fin 1)))
        = Cert.Spec.scaleRows g n (((cfg1.win 2).blk t).view.emb j) := by
    intro g n
    rw [h0, h1]
    rfl
  exact key (V c main_v57) (V c main_v33)

/-- An index of the output array is in point `t`'s block iff each coordinate is in the block's range on its axis. -/
theorem mem_blk1 (t : Fin cfg1.N) (i : S3301376x8.Idx) :
    i ∈ ((cfg1.win 2).blk t).view.set ↔ ∀ a : Fin 2, win1_2.index t a * S4096x8.size a ≤ (i a).val ∧ (i a).val < win1_2.index t a * S4096x8.size a + S4096x8.size a := by
  show i ∈ ((View.whole main_v58).slice (win1_2.rect t)).set ↔ _
  rw [View.set_slice_whole, Rect.mem_set_unit]
  exact Iff.rfl

/-- Row `r` lies in the block of point `r / 4096`: the 806 blocks of 4096 rows tile the 3301376 rows. -/
theorem cover1 (i : S3301376x8.Idx) :
    ∃ t : Fin cfg1.N, (cfg1.win 2).flush t = true ∧ i ∈ ((cfg1.win 2).blk t).view.set := by
  have hi0 : (i 0).val < 3301376 := (i 0).isLt
  have hi1 : (i 1).val < 8 := (i 1).isLt
  obtain ⟨t, ht⟩ : ∃ t : Fin cfg1.N, t.val = (i 0).val / 4096 :=
    ⟨⟨(i 0).val / 4096, Nat.lt_of_lt_of_eq (by omega : (i 0).val / 4096 < 806) N_1.symm⟩, rfl⟩
  obtain ⟨-, -, -, -, e4, e5⟩ := idx1 t
  refine ⟨t, flush1_2 t, ?_⟩
  rw [mem_blk1]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 8 ≤ (i 1).val ∧ (i 1).val < win1_2.index t (1 : Fin 2) * 8 + 8; omega

/-- After call 1 its output array is the wide input array with every row multiplied by that row's coefficient,
    for any contents `V` the call finds in its arrays. -/
theorem final1 (c : Dev nD) : (dat1 (F := Ideal) V c).arrAt 2 cfg1.N
    = Cert.Spec.scaleRows (V c main_v57 : S3301376x8.Idx → EReal) (V c main_v33 : S3301376x1.Idx → EReal) :=
  (dat1 V c).arrAt_eq_of_cover 2
    (Cert.Spec.scaleRows (V c main_v57 : S3301376x8.Idx → EReal) (V c main_v33 : S3301376x1.Idx → EReal))
    (fun t _ => flushed1_eq V c t) (fun i => cover1 i)

end Cert.KernelIdeal.Region

end
-- ==== Proof.RegionScale2.lean ====
/-
  Call 2 of the seven: the array `main_v73` of 3301376 rows by 2 columns, every row multiplied by that row's one
  entry of the coefficient column `main_v33`, left in `main_v74`.

  The call works on 806 blocks of 4096 consecutive rows.  At grid point `t` it holds rows 4096·t … 4096·t + 4095 of
  both inputs, multiplies entry (p, q) of the wide block by entry (p, 0) of the column block, and writes the product
  block back over the same rows of the output.  Since an entry of the product only involves entries of its own row,
  each written block is the restriction to those rows of one function of the two whole arrays, `Cert.Spec.scaleRows`;
  and since row r lies in the block of point r / 4096, the 806 blocks cover the array.  So after the call the output
  array is `scaleRows` of the two input arrays, whatever they held on entry.
-/
import proofs.«147065_j51737176047725_2_alg».proof.Proof.Gen.KernelIdeal.Frame
import proofs.«147065_j51737176047725_2_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a load or store of a whole block, however they are spelt. -/
theorem hz2 : (![0, 0] : Fin 2 → Nat) = fun _ => 0 := funext fun a => by fin_cases a <;> rfl

/-- A column broadcast along the rows: entry (p, q) of the widened block is the column's entry (p, 0). -/
theorem bcast2_apply (x : FVec Ideal S4096x1 .f32) (h : S4096x1.Broadcasts S4096x2) (p : Fin 4096) (q : Fin 2) :
    broadcastTo S4096x2 x h (ix2 p q) = x (ix2 p (0 : Fin 1)) :=
  broadcastTo_apply x h (ix2 p q) (ix2 p (0 : Fin 1)) fun a => by
    match a with
    | ⟨0, _⟩ => rfl
    | ⟨1, _⟩ => rfl

/-- The body's arithmetic at entry (p, q) of a block: the wide block's entry times the column block's entry of row p. -/
theorem pay2_apply (x0 : Vec Ideal S4096x2 .f32) (x1 : Vec Ideal S4096x1 .f32) (p : Fin 4096) (q : Fin 2) :
    k2_pay1 (F := Ideal) x0 x1 (ix2 p q) = x0 (ix2 p q) * x1 (ix2 p (0 : Fin 1)) := by
  unfold k2_pay1
  rw [shapeCast_self, shapeCast_self, mulf_apply, bcast2_apply]

/-- The same at an arbitrary index of the block, the row read off the index. -/
theorem pay2_at (x0 : Vec Ideal S4096x2 .f32) (x1 : Vec Ideal S4096x1 .f32) (j : S4096x2.Idx) :
    k2_pay1 (F := Ideal) x0 x1 j = x0 j * x1 (ix2 (⟨(j 0).val, idx2_lt0 j⟩ : Fin 4096) (0 : Fin 1)) := by
  obtain ⟨p, q, rfl⟩ : ∃ (p : Fin 4096) (q : Fin 2), j = ix2 p q := ⟨j 0, j 1, eq_ix2 j⟩
  exact pay2_apply x0 x1 p q

/-- The three index maps, decided over the grid: at point `t` every window is on block row `t`, block column 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled array: entry (p, q) of the written block is row
    4096·t + p of the wide input at column q times the coefficient of that same row. -/
theorem flushed2_eq (c : Dev nD) (t : Fin cfg2.N) :
    (dat2 V c).flushed 2 t = ((cfg2.win 2).blk t).view.read (Elt Ideal)
      (Cert.Spec.scaleRows (V c main_v73 : S3301376x2.Idx → EReal) (V c main_v33 : S3301376x1.Idx → EReal)) := by
  show (cfg2.win 2).cut (grid2.coords t) ((dat2 V c).after 2 t) = _
  rw [after2_2]
  unfold out2_2
  rw [View.canon_unit_zero hz2]
  simp only [View.ld_unit_zero (S := S4096x2) hz2, View.ld_unit_zero (S := S4096x1) hz2]
  obtain ⟨e0, e1, e2, e3, e4, e5⟩ := idx2 t
  funext j
  have hj : (j 0).val < 4096 := (j 0).isLt
  have hj1 : (j 1).val < 2 := (j 1).isLt
  refine (pay2_at (iblk2 V c 0 t) (iblk2 V c 1 t) j).trans ?_
  have hi : ((((cfg2.win 2).blk t).view.emb j) 0).val < 3301376 := ((((cfg2.win 2).blk t).view.emb j) 0).isLt
  -- the wide input's block and the output's block sit over the same rows and columns of their arrays
  have h0 : ((cfg2.win 0).blk t).view.emb j = ((cfg2.win 2).blk t).view.emb j := by
    funext a; apply Fin.ext
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 2 + 1 * (j 1).val = win2_2.index t (1 : Fin 2) * 2 + 1 * (j 1).val; omega
  -- the column's block sits over the same rows: its entry (p, 0) is the coefficient of the output entry's row
  have h1 : ((cfg2.win 1).blk t).view.emb (ix2 (⟨(j 0).val, hj⟩ : Fin 4096) (0 : Fin 1))
      = ix2 (⟨((((cfg2.win 2).blk t).view.emb j) 0).val, hi⟩ : Fin 3301376) (0 : Fin 1) := by
    funext a; apply Fin.ext
    match a with
    | ⟨0, _⟩ => show win2_1.index t (0 : Fin 2) * 4096 + 1 * (j 0).val = win2_2.index t (0 : Fin 2) * 4096 + 1 * (j 0).val; omega
    | ⟨1, _⟩ => show win2_1.index t (1 : Fin 2) * 1 + 1 * 0 = 0; omega
  have key : ∀ (g : S3301376x2.Idx → EReal) (n : S3301376x1.Idx → EReal),
      g (((cfg2.win 0).blk t).view.emb j)
          * n (((cfg2.win 1).blk t).view.emb (ix2 (⟨(j 0).val, hj⟩ : Fin 4096) (0 : Fin 1)))
        = Cert.Spec.scaleRows g n (((cfg2.win 2).blk t).view.emb j) := by
    intro g n
    rw [h0, h1]
    rfl
  exact key (V c main_v73) (V c main_v33)

/-- An index of the output array is in point `t`'s block iff each coordinate is in the block's range on its axis. -/
theorem mem_blk2 (t : Fin cfg2.N) (i : S3301376x2.Idx) :
    i ∈ ((cfg2.win 2).blk t).view.set ↔ ∀ a : Fin 2, win2_2.index t a * S4096x2.size a ≤ (i a).val ∧ (i a).val < win2_2.index t a * S4096x2.size a + S4096x2.size a := by
  show i ∈ ((View.whole main_v74).slice (win2_2.rect t)).set ↔ _
  rw [View.set_slice_whole, Rect.mem_set_unit]
  exact Iff.rfl

/-- Row `r` lies in the block of point `r / 4096`: the 806 blocks of 4096 rows tile the 3301376 rows. -/
theorem cover2 (i : S3301376x2.Idx) :
    ∃ t : Fin cfg2.N, (cfg2.win 2).flush t = true ∧ i ∈ ((cfg2.win 2).blk t).view.set := by
  have hi0 : (i 0).val < 3301376 := (i 0).isLt
  have hi1 : (i 1).val < 2 := (i 1).isLt
  obtain ⟨t, ht⟩ : ∃ t : Fin cfg2.N, t.val = (i 0).val / 4096 :=
    ⟨⟨(i 0).val / 4096, Nat.lt_of_lt_of_eq (by omega : (i 0).val / 4096 < 806) N_2.symm⟩, rfl⟩
  obtain ⟨-, -, -, -, e4, e5⟩ := idx2 t
  refine ⟨t, flush2_2 t, ?_⟩
  rw [mem_blk2]
  intro a
  match a with
  | ⟨0, _⟩ => show win2_2.index t (0 : Fin 2) * 4096 ≤ (i 0).val ∧ (i 0).val < win2_2.index t (0 : Fin 2) * 4096 + 4096; omega
  | ⟨1, _⟩ => show win2_2.index t (1 : Fin 2) * 2 ≤ (i 1).val ∧ (i 1).val < win2_2.index t (1 : Fin 2) * 2 + 2; omega

/-- After call 2 its output array is the wide input array with every row multiplied by that row's coefficient,
    for any contents `V` the call finds in its arrays. -/
theorem final2 (c : Dev nD) : (dat2 (F := Ideal) V c).arrAt 2 cfg2.N
    = Cert.Spec.scaleRows (V c main_v73 : S3301376x2.Idx → EReal) (V c main_v33 : S3301376x1.Idx → EReal) :=
  (dat2 V c).arrAt_eq_of_cover 2
    (Cert.Spec.scaleRows (V c main_v73 : S3301376x2.Idx → EReal) (V c main_v33 : S3301376x1.Idx → EReal))
    (fun t _ => flushed2_eq V c t) (fun i => cover2 i)

end Cert.KernelIdeal.Region

end
-- ==== Proof.RegionScale3.lean ====
/-
  Call 3 of the seven: the array `main_v88` of 3301376 rows by 8 columns, every row multiplied by that row's one
  entry of the coefficient column `main_v33`, left in `main_v89`.

  The call works on 806 blocks of 4096 consecutive rows.  At grid point `t` it holds rows 4096·t … 4096·t + 4095 of
  both inputs, multiplies entry (p, q) of the wide block by entry (p, 0) of the column block, and writes the product
  block back over the same rows of the output.  Since an entry of the product only involves entries of its own row,
  each written block is the restriction to those rows of one function of the two whole arrays, `Cert.Spec.scaleRows`;
  and since row r lies in the block of point r / 4096, the 806 blocks cover the array.  So after the call the output
  array is `scaleRows` of the two input arrays, whatever they held on entry.
-/
import proofs.«147065_j51737176047725_2_alg».proof.Proof.Gen.KernelIdeal.Frame
import proofs.«147065_j51737176047725_2_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a load or store of a whole block, however they are spelt. -/
theorem hz3 : (![0, 0] : Fin 2 → Nat) = fun _ => 0 := funext fun a => by fin_cases a <;> rfl

/-- A column broadcast along the rows: entry (p, q) of the widened block is the column's entry (p, 0). -/
theorem bcast3_apply (x : FVec Ideal S4096x1 .f32) (h : S4096x1.Broadcasts S4096x8) (p : Fin 4096) (q : Fin 8) :
    broadcastTo S4096x8 x h (ix2 p q) = x (ix2 p (0 : Fin 1)) :=
  broadcastTo_apply x h (ix2 p q) (ix2 p (0 : Fin 1)) fun a => by
    match a with
    | ⟨0, _⟩ => rfl
    | ⟨1, _⟩ => rfl

/-- The body's arithmetic at entry (p, q) of a block: the wide block's entry times the column block's entry of row p. -/
theorem pay3_apply (x0 : Vec Ideal S4096x8 .f32) (x1 : Vec Ideal S4096x1 .f32) (p : Fin 4096) (q : Fin 8) :
    k3_pay1 (F := Ideal) x0 x1 (ix2 p q) = x0 (ix2 p q) * x1 (ix2 p (0 : Fin 1)) := by
  unfold k3_pay1
  rw [shapeCast_self, shapeCast_self, mulf_apply, bcast3_apply]

/-- The same at an arbitrary index of the block, the row read off the index. -/
theorem pay3_at (x0 : Vec Ideal S4096x8 .f32) (x1 : Vec Ideal S4096x1 .f32) (j : S4096x8.Idx) :
    k3_pay1 (F := Ideal) x0 x1 j = x0 j * x1 (ix2 (⟨(j 0).val, idx2_lt0 j⟩ : Fin 4096) (0 : Fin 1)) := by
  obtain ⟨p, q, rfl⟩ : ∃ (p : Fin 4096) (q : Fin 8), j = ix2 p q := ⟨j 0, j 1, eq_ix2 j⟩
  exact pay3_apply x0 x1 p q

/-- The three index maps, decided over the grid: at point `t` every window is on block row `t`, block column 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the scaled array: entry (p, q) of the written block is row
    4096·t + p of the wide input at column q times the coefficient of that same row. -/
theorem flushed3_eq (c : Dev nD) (t : Fin cfg3.N) :
    (dat3 V c).flushed 2 t = ((cfg3.win 2).blk t).view.read (Elt Ideal)
      (Cert.Spec.scaleRows (V c main_v88 : S3301376x8.Idx → EReal) (V c main_v33 : S3301376x1.Idx → EReal)) := by
  show (cfg3.win 2).cut (grid3.coords t) ((dat3 V c).after 2 t) = _
  rw [after3_2]
  unfold out3_2
  rw [View.canon_unit_zero hz3]
  simp only [View.ld_unit_zero (S := S4096x8) hz3, View.ld_unit_zero (S := S4096x1) hz3]
  obtain ⟨e0, e1, e2, e3, e4, e5⟩ := idx3 t
  funext j
  have hj : (j 0).val < 4096 := (j 0).isLt
  have hj1 : (j 1).val < 8 := (j 1).isLt
  refine (pay3_at (iblk3 V c 0 t) (iblk3 V c 1 t) j).trans ?_
  have hi : ((((cfg3.win 2).blk t).view.emb j) 0).val < 3301376 := ((((cfg3.win 2).blk t).view.emb j) 0).isLt
  -- the wide input's block and the output's block sit over the same rows and columns of their arrays
  have h0 : ((cfg3.win 0).blk t).view.emb j = ((cfg3.win 2).blk t).view.emb j := by
    funext a; apply Fin.ext
    match a with
    | ⟨0, _⟩ => show win3_0.index t (0 : Fin 2) * 4096 + 1 * (j 0).val = win3_2.index t (0 : Fin 2) * 4096 + 1 * (j 0).val; omega
    | ⟨1, _⟩ => show win3_0.index t (1 : Fin 2) * 8 + 1 * (j 1).val = win3_2.index t (1 : Fin 2) * 8 + 1 * (j 1).val; omega
  -- the column's block sits over the same rows: its entry (p, 0) is the coefficient of the output entry's row
  have h1 : ((cfg3.win 1).blk t).view.emb (ix2 (⟨(j 0).val, hj⟩ : Fin 4096) (0 : Fin 1))
      = ix2 (⟨((((cfg3.win 2).blk t).view.emb j) 0).val, hi⟩ : Fin 3301376) (0 : Fin 1) := by
    funext a; apply Fin.ext
    match a with
    | ⟨0, _⟩ => show win3_1.index t (0 : Fin 2) * 4096 + 1 * (j 0).val = win3_2.index t (0 : Fin 2) * 4096 + 1 * (j 0).val; omega
    | ⟨1, _⟩ => show win3_1.index t (1 : Fin 2) * 1 + 1 * 0 = 0; omega
  have key : ∀ (g : S3301376x8.Idx → EReal) (n : S3301376x1.Idx → EReal),
      g (((cfg3.win 0).blk t).view.emb j)
          * n (((cfg3.win 1).blk t).view.emb (ix2 (⟨(j 0).val, hj⟩ : Fin 4096) (0 : Fin 1)))
        = Cert.Spec.scaleRows g n (((cfg3.win 2).blk t).view.emb j) := by
    intro g n
    rw [h0, h1]
    rfl
  exact key (V c main_v88) (V c main_v33)

/-- An index of the output array is in point `t`'s block iff each coordinate is in the block's range on its axis. -/
theorem mem_blk3 (t : Fin cfg3.N) (i : S3301376x8.Idx) :
    i ∈ ((cfg3.win 2).blk t).view.set ↔ ∀ a : Fin 2, win3_2.index t a * S4096x8.size a ≤ (i a).val ∧ (i a).val < win3_2.index t a * S4096x8.size a + S4096x8.size a := by
  show i ∈ ((View.whole main_v89).slice (win3_2.rect t)).set ↔ _
  rw [View.set_slice_whole, Rect.mem_set_unit]
  exact Iff.rfl

/-- Row `r` lies in the block of point `r / 4096`: the 806 blocks of 4096 rows tile the 3301376 rows. -/
theorem cover3 (i : S3301376x8.Idx) :
    ∃ t : Fin cfg3.N, (cfg3.win 2).flush t = true ∧ i ∈ ((cfg3.win 2).blk t).view.set := by
  have hi0 : (i 0).val < 3301376 := (i 0).isLt
  have hi1 : (i 1).val < 8 := (i 1).isLt
  obtain ⟨t, ht⟩ : ∃ t : Fin cfg3.N, t.val = (i 0).val / 4096 :=
    ⟨⟨(i 0).val / 4096, Nat.lt_of_lt_of_eq (by omega : (i 0).val / 4096 < 806) N_3.symm⟩, rfl⟩
  obtain ⟨-, -, -, -, e4, e5⟩ := idx3 t
  refine ⟨t, flush3_2 t, ?_⟩
  rw [mem_blk3]
  intro a
  match a with
  | ⟨0, _⟩ => show win3_2.index t (0 : Fin 2) * 4096 ≤ (i 0).val ∧ (i 0).val < win3_2.index t (0 : Fin 2) * 4096 + 4096; omega
  | ⟨1, _⟩ => show win3_2.index t (1 : Fin 2) * 8 ≤ (i 1).val ∧ (i 1).val < win3_2.index t (1 : Fin 2) * 8 + 8; omega

/-- After call 3 its output array is the wide input array with every row multiplied by that row's coefficient,
    for any contents `V` the call finds in its arrays. -/
theorem final3 (c : Dev nD) : (dat3 (F := Ideal) V c).arrAt 2 cfg3.N
    = Cert.Spec.scaleRows (V c main_v88 : S3301376x8.Idx → EReal) (V c main_v33 : S3301376x1.Idx → EReal) :=
  (dat3 V c).arrAt_eq_of_cover 2
    (Cert.Spec.scaleRows (V c main_v88 : S3301376x8.Idx → EReal) (V c main_v33 : S3301376x1.Idx → EReal))
    (fun t _ => flushed3_eq V c t) (fun i => cover3 i)

end Cert.KernelIdeal.Region

end
-- ==== Proof.RegionScale4.lean ====
/-
  Call 4 of the seven: the array `main_v104` of 3301376 rows by 8 columns, every row multiplied by that row's one
  entry of the coefficient column `main_v33`, left in `main_v105`.

  The call works on 806 blocks of 4096 consecutive rows.  At grid point `t` it holds rows 4096·t … 4096·t + 4095 of
  both inputs, multiplies entry (p, q) of the wide block by entry (p, 0) of the column block, and writes the product
  block back over the same rows of the output.  Since an entry of the product only involves entries of its own row,
  each written block is the restriction to those rows of one function of the two whole arrays, `Cert.Spec.scaleRows`;
  and since row r lies in the block of point r / 4096, the 806 blocks cover the array.  So after the call the output
  array is `scaleRows` of the two input arrays, whatever they held on entry.
-/
import proofs.«147065_j51737176047725_2_alg».proof.Proof.Gen.KernelIdeal.Frame
import proofs.«147065_j51737176047725_2_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a load or store of a whole block, however they are spelt. -/
theorem hz4 : (![0, 0] : Fin 2 → Nat) = fun _ => 0 := funext fun a => by fin_cases a <;> rfl

/-- A column broadcast along the rows: entry (p, q) of the widened block is the column's entry (p, 0). -/
theorem bcast4_apply (x : FVec Ideal S4096x1 .f32) (h : S4096x1.Broadcasts S4096x8) (p : Fin 4096) (q : Fin 8) :
    broadcastTo S4096x8 x h (ix2 p q) = x (ix2 p (0 : Fin 1)) :=
  broadcastTo_apply x h (ix2 p q) (ix2 p (0 : Fin 1)) fun a => by
    match a with
    | ⟨0, _⟩ => rfl
    | ⟨1, _⟩ => rfl

/-- The body's arithmetic at entry (p, q) of a block: the wide block's entry times the column block's entry of row p. -/
theorem pay4_apply (x0 : Vec Ideal S4096x8 .f32) (x1 : Vec Ideal S4096x1 .f32) (p : Fin 4096) (q : Fin 8) :
    k4_pay1 (F := Ideal) x0 x1 (ix2 p q) = x0 (ix2 p q) * x1 (ix2 p (0 : Fin 1)) := by
  unfold k4_pay1
  rw [shapeCast_self, shapeCast_self, mulf_apply, bcast4_apply]

/-- The same at an arbitrary index of the block, the row read off the index. -/
theorem pay4_at (x0 : Vec Ideal S4096x8 .f32) (x1 : Vec Ideal S4096x1 .f32) (j : S4096x8.Idx) :
    k4_pay1 (F := Ideal) x0 x1 j = x0 j * x1 (ix2 (⟨(j 0).val, idx2_lt0 j⟩ : Fin 4096) (0 : Fin 1)) := by
  obtain ⟨p, q, rfl⟩ : ∃ (p : Fin 4096) (q : Fin 8), j = ix2 p q := ⟨j 0, j 1, eq_ix2 j⟩
  exact pay4_apply x0 x1 p q

/-- The three index maps, decided over the grid: at point `t` every window is on block row `t`, block column 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled array: entry (p, q) of the written block is row
    4096·t + p of the wide input at column q times the coefficient of that same row. -/
theorem flushed4_eq (c : Dev nD) (t : Fin cfg4.N) :
    (dat4 V c).flushed 2 t = ((cfg4.win 2).blk t).view.read (Elt Ideal)
      (Cert.Spec.scaleRows (V c main_v104 : S3301376x8.Idx → EReal) (V c main_v33 : S3301376x1.Idx → EReal)) := by
  show (cfg4.win 2).cut (grid4.coords t) ((dat4 V c).after 2 t) = _
  rw [after4_2]
  unfold out4_2
  rw [View.canon_unit_zero hz4]
  simp only [View.ld_unit_zero (S := S4096x8) hz4, View.ld_unit_zero (S := S4096x1) hz4]
  obtain ⟨e0, e1, e2, e3, e4, e5⟩ := idx4 t
  funext j
  have hj : (j 0).val < 4096 := (j 0).isLt
  have hj1 : (j 1).val < 8 := (j 1).isLt
  refine (pay4_at (iblk4 V c 0 t) (iblk4 V c 1 t) j).trans ?_
  have hi : ((((cfg4.win 2).blk t).view.emb j) 0).val < 3301376 := ((((cfg4.win 2).blk t).view.emb j) 0).isLt
  -- the wide input's block and the output's block sit over the same rows and columns of their arrays
  have h0 : ((cfg4.win 0).blk t).view.emb j = ((cfg4.win 2).blk t).view.emb j := by
    funext a; apply Fin.ext
    match a with
    | ⟨0, _⟩ => show win4_0.index t (0 : Fin 2) * 4096 + 1 * (j 0).val = win4_2.index t (0 : Fin 2) * 4096 + 1 * (j 0).val; omega
    | ⟨1, _⟩ => show win4_0.index t (1 : Fin 2) * 8 + 1 * (j 1).val = win4_2.index t (1 : Fin 2) * 8 + 1 * (j 1).val; omega
  -- the column's block sits over the same rows: its entry (p, 0) is the coefficient of the output entry's row
  have h1 : ((cfg4.win 1).blk t).view.emb (ix2 (⟨(j 0).val, hj⟩ : Fin 4096) (0 : Fin 1))
      = ix2 (⟨((((cfg4.win 2).blk t).view.emb j) 0).val, hi⟩ : Fin 3301376) (0 : Fin 1) := by
    funext a; apply Fin.ext
    match a with
    | ⟨0, _⟩ => show win4_1.index t (0 : Fin 2) * 4096 + 1 * (j 0).val = win4_2.index t (0 : Fin 2) * 4096 + 1 * (j 0).val; omega
    | ⟨1, _⟩ => show win4_1.index t (1 : Fin 2) * 1 + 1 * 0 = 0; omega
  have key : ∀ (g : S3301376x8.Idx → EReal) (n : S3301376x1.Idx → EReal),
      g (((cfg4.win 0).blk t).view.emb j)
          * n (((cfg4.win 1).blk t).view.emb (ix2 (⟨(j 0).val, hj⟩ : Fin 4096) (0 : Fin 1)))
        = Cert.Spec.scaleRows g n (((cfg4.win 2).blk t).view.emb j) := by
    intro g n
    rw [h0, h1]
    rfl
  exact key (V c main_v104) (V c main_v33)

/-- An index of the output array is in point `t`'s block iff each coordinate is in the block's range on its axis. -/
theorem mem_blk4 (t : Fin cfg4.N) (i : S3301376x8.Idx) :
    i ∈ ((cfg4.win 2).blk t).view.set ↔ ∀ a : Fin 2, win4_2.index t a * S4096x8.size a ≤ (i a).val ∧ (i a).val < win4_2.index t a * S4096x8.size a + S4096x8.size a := by
  show i ∈ ((View.whole main_v105).slice (win4_2.rect t)).set ↔ _
  rw [View.set_slice_whole, Rect.mem_set_unit]
  exact Iff.rfl

/-- Row `r` lies in the block of point `r / 4096`: the 806 blocks of 4096 rows tile the 3301376 rows. -/
theorem cover4 (i : S3301376x8.Idx) :
    ∃ t : Fin cfg4.N, (cfg4.win 2).flush t = true ∧ i ∈ ((cfg4.win 2).blk t).view.set := by
  have hi0 : (i 0).val < 3301376 := (i 0).isLt
  have hi1 : (i 1).val < 8 := (i 1).isLt
  obtain ⟨t, ht⟩ : ∃ t : Fin cfg4.N, t.val = (i 0).val / 4096 :=
    ⟨⟨(i 0).val / 4096, Nat.lt_of_lt_of_eq (by omega : (i 0).val / 4096 < 806) N_4.symm⟩, rfl⟩
  obtain ⟨-, -, -, -, e4, e5⟩ := idx4 t
  refine ⟨t, flush4_2 t, ?_⟩
  rw [mem_blk4]
  intro a
  match a with
  | ⟨0, _⟩ => show win4_2.index t (0 : Fin 2) * 4096 ≤ (i 0).val ∧ (i 0).val < win4_2.index t (0 : Fin 2) * 4096 + 4096; omega
  | ⟨1, _⟩ => show win4_2.index t (1 : Fin 2) * 8 ≤ (i 1).val ∧ (i 1).val < win4_2.index t (1 : Fin 2) * 8 + 8; omega

/-- After call 4 its output array is the wide input array with every row multiplied by that row's coefficient,
    for any contents `V` the call finds in its arrays. -/
theorem final4 (c : Dev nD) : (dat4 (F := Ideal) V c).arrAt 2 cfg4.N
    = Cert.Spec.scaleRows (V c main_v104 : S3301376x8.Idx → EReal) (V c main_v33 : S3301376x1.Idx → EReal) :=
  (dat4 V c).arrAt_eq_of_cover 2
    (Cert.Spec.scaleRows (V c main_v104 : S3301376x8.Idx → EReal) (V c main_v33 : S3301376x1.Idx → EReal))
    (fun t _ => flushed4_eq V c t) (fun i => cover4 i)

end Cert.KernelIdeal.Region

end
-- ==== Proof.RegionScale5.lean ====
/-
  Call 5 of the seven: the array `main_v120` of 3301376 rows by 15 columns, every row multiplied by that row's one
  entry of the coefficient column `main_v33`, left in `main_v121`.

  The call works on 806 blocks of 4096 consecutive rows.  At grid point `t` it holds rows 4096·t … 4096·t + 4095 of
  both inputs, multiplies entry (p, q) of the wide block by entry (p, 0) of the column block, and writes the product
  block back over the same rows of the output.  Since an entry of the product only involves entries of its own row,
  each written block is the restriction to those rows of one function of the two whole arrays, `Cert.Spec.scaleRows`;
  and since row r lies in the block of point r / 4096, the 806 blocks cover the array.  So after the call the output
  array is `scaleRows` of the two input arrays, whatever they held on entry.
-/
import proofs.«147065_j51737176047725_2_alg».proof.Proof.Gen.KernelIdeal.Frame
import proofs.«147065_j51737176047725_2_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a load or store of a whole block, however they are spelt. -/
theorem hz5 : (![0, 0] : Fin 2 → Nat) = fun _ => 0 := funext fun a => by fin_cases a <;> rfl

/-- A column broadcast along the rows: entry (p, q) of the widened block is the column's entry (p, 0). -/
theorem bcast5_apply (x : FVec Ideal S4096x1 .f32) (h : S4096x1.Broadcasts S4096x15) (p : Fin 4096) (q : Fin 15) :
    broadcastTo S4096x15 x h (ix2 p q) = x (ix2 p (0 : Fin 1)) :=
  broadcastTo_apply x h (ix2 p q) (ix2 p (0 : Fin 1)) fun a => by
    match a with
    | ⟨0, _⟩ => rfl
    | ⟨1, _⟩ => rfl

/-- The body's arithmetic at entry (p, q) of a block: the wide block's entry times the column block's entry of row p. -/
theorem pay5_apply (x0 : Vec Ideal S4096x15 .f32) (x1 : Vec Ideal S4096x1 .f32) (p : Fin 4096) (q : Fin 15) :
    k5_pay1 (F := Ideal) x0 x1 (ix2 p q) = x0 (ix2 p q) * x1 (ix2 p (0 : Fin 1)) := by
  unfold k5_pay1
  rw [shapeCast_self, shapeCast_self, mulf_apply, bcast5_apply]

/-- The same at an arbitrary index of the block, the row read off the index. -/
theorem pay5_at (x0 : Vec Ideal S4096x15 .f32) (x1 : Vec Ideal S4096x1 .f32) (j : S4096x15.Idx) :
    k5_pay1 (F := Ideal) x0 x1 j = x0 j * x1 (ix2 (⟨(j 0).val, idx2_lt0 j⟩ : Fin 4096) (0 : Fin 1)) := by
  obtain ⟨p, q, rfl⟩ : ∃ (p : Fin 4096) (q : Fin 15), j = ix2 p q := ⟨j 0, j 1, eq_ix2 j⟩
  exact pay5_apply x0 x1 p q

/-- The three index maps, decided over the grid: at point `t` every window is on block row `t`, block column 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the scaled array: entry (p, q) of the written block is row
    4096·t + p of the wide input at column q times the coefficient of that same row. -/
theorem flushed5_eq (c : Dev nD) (t : Fin cfg5.N) :
    (dat5 V c).flushed 2 t = ((cfg5.win 2).blk t).view.read (Elt Ideal)
      (Cert.Spec.scaleRows (V c main_v120 : S3301376x15.Idx → EReal) (V c main_v33 : S3301376x1.Idx → EReal)) := by
  show (cfg5.win 2).cut (grid5.coords t) ((dat5 V c).after 2 t) = _
  rw [after5_2]
  unfold out5_2
  rw [View.canon_unit_zero hz5]
  simp only [View.ld_unit_zero (S := S4096x15) hz5, View.ld_unit_zero (S := S4096x1) hz5]
  obtain ⟨e0, e1, e2, e3, e4, e5⟩ := idx5 t
  funext j
  have hj : (j 0).val < 4096 := (j 0).isLt
  have hj1 : (j 1).val < 15 := (j 1).isLt
  refine (pay5_at (iblk5 V c 0 t) (iblk5 V c 1 t) j).trans ?_
  have hi : ((((cfg5.win 2).blk t).view.emb j) 0).val < 3301376 := ((((cfg5.win 2).blk t).view.emb j) 0).isLt
  -- the wide input's block and the output's block sit over the same rows and columns of their arrays
  have h0 : ((cfg5.win 0).blk t).view.emb j = ((cfg5.win 2).blk t).view.emb j := by
    funext a; apply Fin.ext
    match a with
    | ⟨0, _⟩ => show win5_0.index t (0 : Fin 2) * 4096 + 1 * (j 0).val = win5_2.index t (0 : Fin 2) * 4096 + 1 * (j 0).val; omega
    | ⟨1, _⟩ => show win5_0.index t (1 : Fin 2) * 15 + 1 * (j 1).val = win5_2.index t (1 : Fin 2) * 15 + 1 * (j 1).val; omega
  -- the column's block sits over the same rows: its entry (p, 0) is the coefficient of the output entry's row
  have h1 : ((cfg5.win 1).blk t).view.emb (ix2 (⟨(j 0).val, hj⟩ : Fin 4096) (0 : Fin 1))
      = ix2 (⟨((((cfg5.win 2).blk t).view.emb j) 0).val, hi⟩ : Fin 3301376) (0 : Fin 1) := by
    funext a; apply Fin.ext
    match a with
    | ⟨0, _⟩ => show win5_1.index t (0 : Fin 2) * 4096 + 1 * (j 0).val = win5_2.index t (0 : Fin 2) * 4096 + 1 * (j 0).val; omega
    | ⟨1, _⟩ => show win5_1.index t (1 : Fin 2) * 1 + 1 * 0 = 0; omega
  have key : ∀ (g : S3301376x15.Idx → EReal) (n : S3301376x1.Idx → EReal),
      g (((cfg5.win 0).blk t).view.emb j)
          * n (((cfg5.win 1).blk t).view.emb (ix2 (⟨(j 0).val, hj⟩ : Fin 4096) (0 : Fin 1)))
        = Cert.Spec.scaleRows g n (((cfg5.win 2).blk t).view.emb j) := by
    intro g n
    rw [h0, h1]
    rfl
  exact key (V c main_v120) (V c main_v33)

/-- An index of the output array is in point `t`'s block iff each coordinate is in the block's range on its axis. -/
theorem mem_blk5 (t : Fin cfg5.N) (i : S3301376x15.Idx) :
    i ∈ ((cfg5.win 2).blk t).view.set ↔ ∀ a : Fin 2, win5_2.index t a * S4096x15.size a ≤ (i a).val ∧ (i a).val < win5_2.index t a * S4096x15.size a + S4096x15.size a := by
  show i ∈ ((View.whole main_v121).slice (win5_2.rect t)).set ↔ _
  rw [View.set_slice_whole, Rect.mem_set_unit]
  exact Iff.rfl

/-- Row `r` lies in the block of point `r / 4096`: the 806 blocks of 4096 rows tile the 3301376 rows. -/
theorem cover5 (i : S3301376x15.Idx) :
    ∃ t : Fin cfg5.N, (cfg5.win 2).flush t = true ∧ i ∈ ((cfg5.win 2).blk t).view.set := by
  have hi0 : (i 0).val < 3301376 := (i 0).isLt
  have hi1 : (i 1).val < 15 := (i 1).isLt
  obtain ⟨t, ht⟩ : ∃ t : Fin cfg5.N, t.val = (i 0).val / 4096 :=
    ⟨⟨(i 0).val / 4096, Nat.lt_of_lt_of_eq (by omega : (i 0).val / 4096 < 806) N_5.symm⟩, rfl⟩
  obtain ⟨-, -, -, -, e4, e5⟩ := idx5 t
  refine ⟨t, flush5_2 t, ?_⟩
  rw [mem_blk5]
  intro a
  match a with
  | ⟨0, _⟩ => show win5_2.index t (0 : Fin 2) * 4096 ≤ (i 0).val ∧ (i 0).val < win5_2.index t (0 : Fin 2) * 4096 + 4096; omega
  | ⟨1, _⟩ => show win5_2.index t (1 : Fin 2) * 15 ≤ (i 1).val ∧ (i 1).val < win5_2.index t (1 : Fin 2) * 15 + 15; omega

/-- After call 5 its output array is the wide input array with every row multiplied by that row's coefficient,
    for any contents `V` the call finds in its arrays. -/
theorem final5 (c : Dev nD) : (dat5 (F := Ideal) V c).arrAt 2 cfg5.N
    = Cert.Spec.scaleRows (V c main_v120 : S3301376x15.Idx → EReal) (V c main_v33 : S3301376x1.Idx → EReal) :=
  (dat5 V c).arrAt_eq_of_cover 2
    (Cert.Spec.scaleRows (V c main_v120 : S3301376x15.Idx → EReal) (V c main_v33 : S3301376x1.Idx → EReal))
    (fun t _ => flushed5_eq V c t) (fun i => cover5 i)

end Cert.KernelIdeal.Region

end
-- ==== Proof.RegionMse.lean ====
/-
  The last of the seven calls: from the two 100000 × 15 matrices `main_arg0` and `main_v127`, the column
  `main_v128` of per-row means of squared differences.

  The call works on 50 blocks of 2000 consecutive rows.  At grid point `t` it holds rows 2000·t … 2000·t + 1999 of
  both matrices, subtracts them entry by entry, squares, adds the 15 entries of each row, divides each row's sum by
  the float word of 15, and writes the resulting 2000 × 1 block back over the same rows of the output column.  An
  entry of the written block only involves entries of its own row of the two inputs, so each written block is the
  restriction to those rows of one function of the two whole matrices, `Cert.Spec.mseCol`; and since row r lies in
  the block of point r / 2000, the 50 blocks cover the column.  So after the call the output column is `mseCol` of
  the two input matrices, whatever they held on entry.
-/
import proofs.«147065_j51737176047725_2_alg».proof.Proof.Gen.KernelIdeal.Frame
import proofs.«147065_j51737176047725_2_alg».proof.Proof.SpecMse
import Idealize.ShloMosaic.PureOps.Ideal.Laws
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a load or store of a whole block, however they are spelt. -/
theorem hz6 : (![0, 0] : Fin 2 → Nat) = fun _ => 0 := funext fun a => by fin_cases a <;> rfl

/-- The sum along a row of a 2000 × 15 block, entry by entry: the row's 15 entries added. -/
theorem rowSum6_apply (src : FVec Ideal S2000x15 .f32) (h : S2000x15.Reduces [1] S2000) (hφ : FKind.Formats .f32)
    (hacc : (0x00000000#32 : BitVec 32) = 0x00000000#32) (p : Fin 2000) :
    multiReduction .add [1] S2000 src 0x00000000#32 h hφ hacc (ix1 p) = ∑ k : Fin 15, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The body's arithmetic at row p of a block: the sum over the row of the squared differences, divided by the word of 15. -/
theorem pay6_apply (x0 x1 : Vec Ideal S2000x15 .f32) (p : Fin 2000) :
    k6_pay1 (F := Ideal) x0 x1 (ix2 p (0 : Fin 1))
      = Ideal.div (∑ k : Fin 15, (x0 (ix2 p k) - x1 (ix2 p k)) * (x0 (ix2 p k) - x1 (ix2 p k))) (Ideal.ofBits .f32 0x41700000#32) := by
  unfold k6_pay1
  rw [shapeCast_self, divf_apply, broadcast_apply]
  refine congrArg₂ Ideal.div ?_ rfl
  refine (shapeCast_apply _ _ (ix2 p (0 : Fin 1)) (ix1 p) ?_).trans ?_
  · rw [Shape.rowMajor_val_one, Shape.rowMajor_val_two]
    show p.val = p.val * 1 + 0
    omega
  refine (rowSum6_apply _ _ _ _ p).trans ?_
  refine Finset.sum_congr rfl fun k _ => ?_
  rw [mulf_apply, subf_apply]

/-- The same at an arbitrary index of the 2000 × 1 block, the row read off the index. -/
theorem pay6_at (x0 x1 : Vec Ideal S2000x15 .f32) (j : S2000x1.Idx) :
    k6_pay1 (F := Ideal) x0 x1 j
      = Ideal.div (∑ k : Fin 15,
            (x0 (ix2 (⟨(j 0).val, idx2_lt0 j⟩ : Fin 2000) k) - x1 (ix2 (⟨(j 0).val, idx2_lt0 j⟩ : Fin 2000) k))
              * (x0 (ix2 (⟨(j 0).val, idx2_lt0 j⟩ : Fin 2000) k) - x1 (ix2 (⟨(j 0).val, idx2_lt0 j⟩ : Fin 2000) k)))
          (Ideal.ofBits .f32 0x41700000#32) := by
  obtain ⟨p, q, rfl⟩ : ∃ (p : Fin 2000) (q : Fin 1), j = ix2 p q := ⟨j 0, j 1, eq_ix2 j⟩
  obtain rfl : q = 0 := Subsingleton.elim _ _
  exact pay6_apply x0 x1 p

/-- The three index maps, decided over the grid: at point `t` every window is on block row `t`, block column 0. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the column of row means: entry p of the written block is the mean
    over the 15 columns of the squared difference of the two inputs' rows 2000·t + p. -/
theorem flushed6_eq (c : Dev nD) (t : Fin cfg6.N) :
    (dat6 V c).flushed 2 t = ((cfg6.win 2).blk t).view.read (Elt Ideal)
      (Cert.Spec.mseCol (V c main_arg0 : S100000x15.Idx → EReal) (V c main_v127 : S100000x15.Idx → EReal)) := by
  show (cfg6.win 2).cut (grid6.coords t) ((dat6 V c).after 2 t) = _
  rw [after6_2]
  unfold out6_2
  rw [View.canon_unit_zero hz6]
  simp only [View.ld_unit_zero (S := S2000x15) hz6]
  obtain ⟨e0, e1, e2, e3, e4, e5⟩ := idx6 t
  funext j
  have hj : (j 0).val < 2000 := (j 0).isLt
  refine (pay6_at (iblk6 V c 0 t) (iblk6 V c 1 t) j).trans ?_
  have hi : ((((cfg6.win 2).blk t).view.emb j) 0).val < 100000 := ((((cfg6.win 2).blk t).view.emb j) 0).isLt
  -- both inputs' blocks sit over the rows of the output's block: entry (p, k) of either is row 2000·t + p, column k
  have h0 : ∀ k : Fin 15, ((cfg6.win 0).blk t).view.emb (ix2 (⟨(j 0).val, hj⟩ : Fin 2000) k)
      = ix2 (⟨((((cfg6.win 2).blk t).view.emb j) 0).val, hi⟩ : Fin 100000) k := by
    intro k; funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 15 + 1 * k.val = k.val; omega
  have h1 : ∀ k : Fin 15, ((cfg6.win 1).blk t).view.emb (ix2 (⟨(j 0).val, hj⟩ : Fin 2000) k)
      = ix2 (⟨((((cfg6.win 2).blk t).view.emb j) 0).val, hi⟩ : Fin 100000) k := by
    intro k; funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 15 + 1 * k.val = k.val; omega
  have key : ∀ (x y : S100000x15.Idx → EReal) (b0 b1 : S2000x15.Idx → EReal),
      (∀ k : Fin 15, b0 (ix2 (⟨(j 0).val, hj⟩ : Fin 2000) k)
          = x (ix2 (⟨((((cfg6.win 2).blk t).view.emb j) 0).val, hi⟩ : Fin 100000) k)) →
      (∀ k : Fin 15, b1 (ix2 (⟨(j 0).val, hj⟩ : Fin 2000) k)
          = y (ix2 (⟨((((cfg6.win 2).blk t).view.emb j) 0).val, hi⟩ : Fin 100000) k)) →
      Ideal.div (∑ k : Fin 15,
            (b0 (ix2 (⟨(j 0).val, hj⟩ : Fin 2000) k) - b1 (ix2 (⟨(j 0).val, hj⟩ : Fin 2000) k))
              * (b0 (ix2 (⟨(j 0).val, hj⟩ : Fin 2000) k) - b1 (ix2 (⟨(j 0).val, hj⟩ : Fin 2000) k)))
          (Ideal.ofBits .f32 0x41700000#32)
        = Cert.Spec.mseCol x y (((cfg6.win 2).blk t).view.emb j) := by
    intro x y b0 b1 hb0 hb1
    simp only [hb0, hb1]
    rfl
  exact key (V c main_arg0) (V c main_v127) (iblk6 V c 0 t) (iblk6 V c 1 t)
    (fun k => congrArg (V c main_arg0 : S100000x15.Idx → EReal) (h0 k))
    (fun k => congrArg (V c main_v127 : S100000x15.Idx → EReal) (h1 k))

/-- An index of the output array is in point `t`'s block iff each coordinate is in the block's range on its axis. -/
theorem mem_blk6 (t : Fin cfg6.N) (i : S100000x1.Idx) :
    i ∈ ((cfg6.win 2).blk t).view.set ↔ ∀ a : Fin 2, win6_2.index t a * S2000x1.size a ≤ (i a).val ∧ (i a).val < win6_2.index t a * S2000x1.size a + S2000x1.size a := by
  show i ∈ ((View.whole main_v128).slice (win6_2.rect t)).set ↔ _
  rw [View.set_slice_whole, Rect.mem_set_unit]
  exact Iff.rfl

/-- Row `r` lies in the block of point `r / 2000`: the 50 blocks of 2000 rows tile the 100000 rows. -/
theorem cover6 (i : S100000x1.Idx) :
    ∃ t : Fin cfg6.N, (cfg6.win 2).flush t = true ∧ i ∈ ((cfg6.win 2).blk t).view.set := by
  have hi0 : (i 0).val < 100000 := (i 0).isLt
  have hi1 : (i 1).val < 1 := (i 1).isLt
  obtain ⟨t, ht⟩ : ∃ t : Fin cfg6.N, t.val = (i 0).val / 2000 :=
    ⟨⟨(i 0).val / 2000, Nat.lt_of_lt_of_eq (by omega : (i 0).val / 2000 < 50) N_6.symm⟩, rfl⟩
  obtain ⟨-, -, -, -, e4, e5⟩ := idx6 t
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 1 ≤ (i 1).val ∧ (i 1).val < win6_2.index t (1 : Fin 2) * 1 + 1; omega

/-- After the last call its output column holds, row by row, the mean squared difference of the two input
    matrices' rows, for any contents `V` the call finds in its arrays. -/
theorem final6 (c : Dev nD) : (dat6 (F := Ideal) V c).arrAt 2 cfg6.N
    = Cert.Spec.mseCol (V c main_arg0 : S100000x15.Idx → EReal) (V c main_v127 : S100000x15.Idx → EReal) :=
  (dat6 V c).arrAt_eq_of_cover 2
    (Cert.Spec.mseCol (V c main_arg0 : S100000x15.Idx → EReal) (V c main_v127 : S100000x15.Idx → EReal))
    (fun t _ => flushed6_eq V c t) (fun i => cover6 i)

end Cert.KernelIdeal.Region

end
-- ==== Proof.Fold0.lean ====
/-
  What the result buffer holds at the end of the idealized kernel's run, read back through the thirty-one
  segments.  The run alternates stretches of host operations with the seven pipelined calls.  For every call
  the contents of the buffers when it is entered are named (`en0` … `en6`); a call leaves its output array at
  the whole-array function its blocks compute (the region modules), its input arrays and every other buffer
  as entered; a host stretch rewrites the buffers its operations write.  So each entry's few relevant buffers
  are expressions in the previous entry's, layer by layer, and the three padded edge arrays and the weights
  travel unchanged.  This module: the cut points, and what each call leaves.
-/
import proofs.«147065_j51737176047725_2_alg».proof.Proof.Gen.KernelIdeal.Frame
import proofs.«147065_j51737176047725_2_alg».proof.Proof.Spec
import proofs.«147065_j51737176047725_2_alg».proof.Proof.SpecMse
import proofs.«147065_j51737176047725_2_alg».proof.Proof.KModel
import proofs.«147065_j51737176047725_2_alg».proof.Proof.RegionScale0
import proofs.«147065_j51737176047725_2_alg».proof.Proof.RegionScale1
import proofs.«147065_j51737176047725_2_alg».proof.Proof.RegionScale2
import proofs.«147065_j51737176047725_2_alg».proof.Proof.RegionScale3
import proofs.«147065_j51737176047725_2_alg».proof.Proof.RegionScale4
import proofs.«147065_j51737176047725_2_alg».proof.Proof.RegionScale5
import proofs.«147065_j51737176047725_2_alg».proof.Proof.RegionMse

set_option maxRecDepth 16384

noncomputable section

open Cert.KernelIdeal Cert.KernelIdeal.Gen
open Idealize.ShloMosaic Idealize.ShloMosaic.TcCoe Idealize.ShloMosaic.Tactic Idealize.ShloMosaic.StableHlo
open Idealize.SL.Sem
namespace Cert.KernelIdeal.Fold

open Cert.KernelIdeal.Model

variable (m : (ℓ : Loc nD τ sig) → Buf (Elt Ideal) ℓ) (ρ : Dev nD → PrngReg) (c : Dev nD)

/-! ## The host operations of the inlined calls, and the first stretch cut in two

The operations of a called function are printed over typed references; over the plain references they are
these lists (equal to the printed ones by computation).  The first stretch is cut after its seventh
operation, where the two edge arrays are complete. -/

/-- The first stretch up to the source and destination arrays: its first seven operations. -/
abbrev opsA : List (HloOp τ sig (Elt Ideal)) := (hostOps0 (F := Ideal)).take 7
/-- The rest of the first stretch: the degrees, their comparison with 0 and their inverse square root. -/
abbrev opsB : List (HloOp τ sig (Elt Ideal)) := (hostOps0 (F := Ideal)).drop 7
/-- The select between 1/√deg and 0. -/
abbrev ops0_1 : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v12 main_v13 main_call0_v1 main_v14 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]
/-- The sources padded. -/
abbrev ops0_3 : List (HloOp τ sig (Elt Ideal)) :=
  [ StableHlo.unary main_c_6 main_call1_v0 (id : (⟨S_, .i32⟩ : BufTy).Contents (Elt Ideal) → (⟨S_, .i32⟩ : BufTy).Contents (Elt Ideal)),
    StableHlo.binary main_v3 main_call1_v0 main_v30 ((fun x v => pad S3301376 ![0] ![1376] ![0] x v pads_S3300000_S3301376_013760 h_S_) : (⟨S3300000, .i32⟩ : BufTy).Contents (Elt Ideal) → (⟨S_, .i32⟩ : BufTy).Contents (Elt Ideal) → (⟨S3301376, .i32⟩ : BufTy).Contents (Elt Ideal)) ]
/-- The destinations padded. -/
abbrev ops0_5 : List (HloOp τ sig (Elt Ideal)) :=
  [ StableHlo.unary main_c_7 main_call2_v0 (id : (⟨S_, .i32⟩ : BufTy).Contents (Elt Ideal) → (⟨S_, .i32⟩ : BufTy).Contents (Elt Ideal)),
    StableHlo.binary main_v6 main_call2_v0 main_v31 ((fun x v => pad S3301376 ![0] ![1376] ![0] x v pads_S3300000_S3301376_013760 h_S_) : (⟨S3300000, .i32⟩ : BufTy).Contents (Elt Ideal) → (⟨S_, .i32⟩ : BufTy).Contents (Elt Ideal) → (⟨S3301376, .i32⟩ : BufTy).Contents (Elt Ideal)) ]
/-- The coefficients padded. -/
abbrev ops0_7 : List (HloOp τ sig (Elt Ideal)) :=
  [ StableHlo.unary main_cst_8 main_call3_v0 (id : (⟨S_, .f32⟩ : BufTy).Contents (Elt Ideal) → (⟨S_, .f32⟩ : BufTy).Contents (Elt Ideal)),
    StableHlo.binary main_v29 main_call3_v0 main_v32 ((fun x v => pad S3301376 ![0] ![1376] ![0] x v pads_S3300000_S3301376_013760 h_S_) : (⟨S3300000, .f32⟩ : BufTy).Contents (Elt Ideal) → (⟨S_, .f32⟩ : BufTy).Contents (Elt Ideal) → (⟨S3301376, .f32⟩ : BufTy).Contents (Elt Ideal)) ]
/-- The four activations max(·, 0). -/
abbrev ops1_1 : List (HloOp τ sig (Elt Ideal)) :=
  [ StableHlo.nullary main_call4_cst (constant (F := Ideal) S_ .f32 0x00000000#32),
    StableHlo.unary main_call4_cst main_call4_v0 (broadcastInDim S100000x8 ![] bcast_S_S100000x8 : (⟨S_, .f32⟩ : BufTy).Contents (Elt Ideal) → (⟨S100000x8, .f32⟩ : BufTy).Contents (Elt Ideal)),
    StableHlo.binary main_v48 main_call4_v0 main_v49 (maximumf (F := Ideal) (s := S100000x8) (φ := .f32) : (⟨S100000x8, .f32⟩ : BufTy).Contents (Elt Ideal) → (⟨S100000x8, .f32⟩ : BufTy).Contents (Elt Ideal) → (⟨S100000x8, .f32⟩ : BufTy).Contents (Elt Ideal)) ]
abbrev ops2_1 : List (HloOp τ sig (Elt Ideal)) :=
  [ StableHlo.nullary main_call5_cst (constant (F := Ideal) S_ .f32 0x00000000#32),
    StableHlo.unary main_call5_cst main_call5_v0 (broadcastInDim S100000x8 ![] bcast_S_S100000x8 : (⟨S_, .f32⟩ : BufTy).Contents (Elt Ideal) → (⟨S100000x8, .f32⟩ : BufTy).Contents (Elt Ideal)),
    StableHlo.binary main_v64 main_call5_v0 main_v65 (maximumf (F := Ideal) (s := S100000x8) (φ := .f32) : (⟨S100000x8, .f32⟩ : BufTy).Contents (Elt Ideal) → (⟨S100000x8, .f32⟩ : BufTy).Contents (Elt Ideal) → (⟨S100000x8, .f32⟩ : BufTy).Contents (Elt Ideal)) ]
abbrev ops4_1 : List (HloOp τ sig (Elt Ideal)) :=
  [ StableHlo.nullary main_call6_cst (constant (F := Ideal) S_ .f32 0x00000000#32),
    StableHlo.unary main_call6_cst main_call6_v0 (broadcastInDim S100000x8 ![] bcast_S_S100000x8 : (⟨S_, .f32⟩ : BufTy).Contents (Elt Ideal) → (⟨S100000x8, .f32⟩ : BufTy).Contents (Elt Ideal)),
    StableHlo.binary main_v95 main_call6_v0 main_v96 (maximumf (F := Ideal) (s := S100000x8) (φ := .f32) : (⟨S100000x8, .f32⟩ : BufTy).Contents (Elt Ideal) → (⟨S100000x8, .f32⟩ : BufTy).Contents (Elt Ideal) → (⟨S100000x8, .f32⟩ : BufTy).Contents (Elt Ideal)) ]
abbrev ops5_1 : List (HloOp τ sig (Elt Ideal)) :=
  [ StableHlo.nullary main_call7_cst (constant (F := Ideal) S_ .f32 0x00000000#32),
    StableHlo.unary main_call7_cst main_call7_v0 (broadcastInDim S100000x8 ![] bcast_S_S100000x8 : (⟨S_, .f32⟩ : BufTy).Contents (Elt Ideal) → (⟨S100000x8, .f32⟩ : BufTy).Contents (Elt Ideal)),
    StableHlo.binary main_v111 main_call7_v0 main_v112 (maximumf (F := Ideal) (s := S100000x8) (φ := .f32) : (⟨S100000x8, .f32⟩ : BufTy).Contents (Elt Ideal) → (⟨S100000x8, .f32⟩ : BufTy).Contents (Elt Ideal) → (⟨S100000x8, .f32⟩ : BufTy).Contents (Elt Ideal)) ]

/-! ## The buffers at the cut points -/

/-- The launch contents. -/
def q0 : Valuation τ sig (Elt Ideal) := W0 m ρ c
/-- After the edge arrays are built. -/
def qa : Valuation τ sig (Elt Ideal) := StableHlo.after opsA (q0 m ρ c)
def q1 : Valuation τ sig (Elt Ideal) := StableHlo.after opsB (qa m ρ c)
def q2 : Valuation τ sig (Elt Ideal) := StableHlo.after ops0_1 (q1 m ρ c)
def q3 : Valuation τ sig (Elt Ideal) := StableHlo.after hostOps0_2 (q2 m ρ c)
def q4 : Valuation τ sig (Elt Ideal) := StableHlo.after ops0_3 (q3 m ρ c)
def q5 : Valuation τ sig (Elt Ideal) := StableHlo.after hostOps0_4 (q4 m ρ c)
def q6 : Valuation τ sig (Elt Ideal) := StableHlo.after ops0_5 (q5 m ρ c)
def q7 : Valuation τ sig (Elt Ideal) := StableHlo.after hostOps0_6 (q6 m ρ c)
/-- Just before the last stretch in front of the first call. -/
def q8 : Valuation τ sig (Elt Ideal) := StableHlo.after ops0_7 (q7 m ρ c)
/-- The same, as the generated fold spells it. -/
def pre0 : Valuation τ sig (Elt Ideal) := W8 m ρ c
theorem pre0_eq : pre0 m ρ c = q8 m ρ c := rfl

/-- Buffer `b` when the first call is entered. -/
def en0 (b : Ref sig .tc) : Buf (Elt Ideal) ((c : Thread nD τ).loc b) := StableHlo.after hostOps0_8 (pre0 m ρ c) (Proc.devRef .tc b)
/-- Buffer `b` when call 1 … 6 is entered. -/
def en1 (b : Ref sig .tc) : Buf (Elt Ideal) ((c : Thread nD τ).loc b) := StableHlo.after hostOps1_2 (StableHlo.after ops1_1 (StableHlo.after hostOps1 (W10 m ρ c))) (Proc.devRef .tc b)
def en2 (b : Ref sig .tc) : Buf (Elt Ideal) ((c : Thread nD τ).loc b) := StableHlo.after hostOps2_2 (StableHlo.after ops2_1 (StableHlo.after hostOps2 (W14 m ρ c))) (Proc.devRef .tc b)
def en3 (b : Ref sig .tc) : Buf (Elt Ideal) ((c : Thread nD τ).loc b) := StableHlo.after hostOps3 (W18 m ρ c) (Proc.devRef .tc b)
def en4 (b : Ref sig .tc) : Buf (Elt Ideal) ((c : Thread nD τ).loc b) := StableHlo.after hostOps4_2 (StableHlo.after ops4_1 (StableHlo.after hostOps4 (W20 m ρ c))) (Proc.devRef .tc b)
def en5 (b : Ref sig .tc) : Buf (Elt Ideal) ((c : Thread nD τ).loc b) := StableHlo.after hostOps5_2 (StableHlo.after ops5_1 (StableHlo.after hostOps5 (W24 m ρ c))) (Proc.devRef .tc b)
def en6 (b : Ref sig .tc) : Buf (Elt Ideal) ((c : Thread nD τ).loc b) := StableHlo.after hostOps6 (W28 m ρ c) (Proc.devRef .tc b)

/-! ## What each call leaves -/

theorem exit0_out : W10 m ρ c (no_index (Proc.devRef .tc main_v42)) = Cert.Spec.scaleRows (en0 m ρ c main_v41) (en0 m ρ c main_v33) :=
  (W10_arr m ρ c 2).trans (Region.final0 (V9 m ρ) c)
theorem exit0_in1 : W10 m ρ c (no_index (Proc.devRef .tc main_v33)) = en0 m ρ c main_v33 :=
  (W10_arr m ρ c 1).trans (((dat0 (V9 m ρ) c).arrAt_in 1 rfl _).trans (A_eq0 (V9 m ρ) c 1))
theorem exit0_ne (b : Ref sig .tc) (hb : ∀ w, Pipeline.arrRef spec0 w ≠ b) : W10 m ρ c (no_index (Proc.devRef .tc b)) = en0 m ρ c b :=
  W10_of_ne m ρ c b hb

theorem exit1_out : W14 m ρ c (no_index (Proc.devRef .tc main_v58)) = Cert.Spec.scaleRows (en1 m ρ c main_v57) (en1 m ρ c main_v33) :=
  (W14_arr m ρ c 2).trans (Region.final1 (V13 m ρ) c)
theorem exit1_in1 : W14 m ρ c (no_index (Proc.devRef .tc main_v33)) = en1 m ρ c main_v33 :=
  (W14_arr m ρ c 1).trans (((dat1 (V13 m ρ) c).arrAt_in 1 rfl _).trans (A_eq1 (V13 m ρ) c 1))
theorem exit1_ne (b : Ref sig .tc) (hb : ∀ w, Pipeline.arrRef spec1 w ≠ b) : W14 m ρ c (no_index (Proc.devRef .tc b)) = en1 m ρ c b :=
  W14_of_ne m ρ c b hb

theorem exit2_out : W18 m ρ c (no_index (Proc.devRef .tc main_v74)) = Cert.Spec.scaleRows (en2 m ρ c main_v73) (en2 m ρ c main_v33) :=
  (W18_arr m ρ c 2).trans (Region.final2 (V17 m ρ) c)
theorem exit2_in1 : W18 m ρ c (no_index (Proc.devRef .tc main_v33)) = en2 m ρ c main_v33 :=
  (W18_arr m ρ c 1).trans (((dat2 (V17 m ρ) c).arrAt_in 1 rfl _).trans (A_eq2 (V17 m ρ) c 1))
theorem exit2_ne (b : Ref sig .tc) (hb : ∀ w, Pipeline.arrRef spec2 w ≠ b) : W18 m ρ c (no_index (Proc.devRef .tc b)) = en2 m ρ c b :=
  W18_of_ne m ρ c b hb

theorem exit3_out : W20 m ρ c (no_index (Proc.devRef .tc main_v89)) = Cert.Spec.scaleRows (en3 m ρ c main_v88) (en3 m ρ c main_v33) :=
  (W20_arr m ρ c 2).trans (Region.final3 (V19 m ρ) c)
theorem exit3_in1 : W20 m ρ c (no_index (Proc.devRef .tc main_v33)) = en3 m ρ c main_v33 :=
  (W20_arr m ρ c 1).trans (((dat3 (V19 m ρ) c).arrAt_in 1 rfl _).trans (A_eq3 (V19 m ρ) c 1))
theorem exit3_ne (b : Ref sig .tc) (hb : ∀ w, Pipeline.arrRef spec3 w ≠ b) : W20 m ρ c (no_index (Proc.devRef .tc b)) = en3 m ρ c b :=
  W20_of_ne m ρ c b hb

theorem exit4_out : W24 m ρ c (no_index (Proc.devRef .tc main_v105)) = Cert.Spec.scaleRows (en4 m ρ c main_v104) (en4 m ρ c main_v33) :=
  (W24_arr m ρ c 2).trans (Region.final4 (V23 m ρ) c)
theorem exit4_in1 : W24 m ρ c (no_index (Proc.devRef .tc main_v33)) = en4 m ρ c main_v33 :=
  (W24_arr m ρ c 1).trans (((dat4 (V23 m ρ) c).arrAt_in 1 rfl _).trans (A_eq4 (V23 m ρ) c 1))
theorem exit4_ne (b : Ref sig .tc) (hb : ∀ w, Pipeline.arrRef spec4 w ≠ b) : W24 m ρ c (no_index (Proc.devRef .tc b)) = en4 m ρ c b :=
  W24_of_ne m ρ c b hb

theorem exit5_out : W28 m ρ c (no_index (Proc.devRef .tc main_v121)) = Cert.Spec.scaleRows (en5 m ρ c main_v120) (en5 m ρ c main_v33) :=
  (W28_arr m ρ c 2).trans (Region.final5 (V27 m ρ) c)
theorem exit5_in1 : W28 m ρ c (no_index (Proc.devRef .tc main_v33)) = en5 m ρ c main_v33 :=
  (W28_arr m ρ c 1).trans (((dat5 (V27 m ρ) c).arrAt_in 1 rfl _).trans (A_eq5 (V27 m ρ) c 1))
theorem exit5_ne (b : Ref sig .tc) (hb : ∀ w, Pipeline.arrRef spec5 w ≠ b) : W28 m ρ c (no_index (Proc.devRef .tc b)) = en5 m ρ c b :=
  W28_of_ne m ρ c b hb

theorem exit6_out : W30 m ρ c (no_index (Proc.devRef .tc main_v128)) = Cert.Spec.mseCol (en6 m ρ c main_arg0) (en6 m ρ c main_v127) :=
  (W30_arr m ρ c 2).trans (Region.final6 (V29 m ρ) c)
theorem exit6_ne (b : Ref sig .tc) (hb : ∀ w, Pipeline.arrRef spec6 w ≠ b) : W30 m ρ c (no_index (Proc.devRef .tc b)) = en6 m ρ c b :=
  W30_of_ne m ρ c b hb

/-- One stage of the fold: unfold the stage's lists, read every operation's result at its own buffer and pass
    every other buffer through, cross a call by what it leaves. -/
macro "fold_stage" : tactic => `(tactic| simp (disch := decide) only [W31, hostOps0, hostOps0_2, hostOps0_4, hostOps0_6, hostOps0_8, hostOps1, hostOps1_2, hostOps2, hostOps2_2, hostOps3, hostOps4, hostOps4_2, hostOps5, hostOps5_2, hostOps6, hostOps7, opsA, opsB, ops0_1, ops0_3, ops0_5, ops0_7, ops1_1, ops2_1, ops4_1, ops5_1, List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', exit0_out, exit0_ne, exit1_out, exit1_ne, exit2_out, exit2_ne, exit3_out, exit3_ne, exit4_out, exit4_ne, exit5_out, exit5_ne, exit6_out, exit6_ne, exit0_in1, exit1_in1, exit2_in1, exit3_in1, exit4_in1, exit5_in1])
/-- The same walk through the generated fold's own spelling: for a buffer no operation writes. -/
macro "fold_walk" : tactic => `(tactic| simp (disch := decide) only [W1, W2, W3, W4, W5, W6, W7, W8, W9, W11, W12, W13, W15, W16, W17, W19, W21, W22, W23, W25, W26, W27, W29, W31, V9, V13, V17, V19, V23, V27, V29, hostOps0, hostOps0_1, hostOps0_2, hostOps0_3, hostOps0_4, hostOps0_5, hostOps0_6, hostOps0_7, hostOps0_8, hostOps1, hostOps1_1, hostOps1_2, hostOps2, hostOps2_1, hostOps2_2, hostOps3, hostOps4, hostOps4_1, hostOps4_2, hostOps5, hostOps5_1, hostOps5_2, hostOps6, hostOps7, after_cons, after_nil, nullary_result', unary_result', binary_result', ternary_result', quaternary_result', reshape_result', nullary_result_ne', unary_result_ne', binary_result_ne', ternary_result_ne', quaternary_result_ne', reshape_result_ne'])

end Cert.KernelIdeal.Fold

end
-- ==== Proof.Fold0a.lean ====
/-
  Before the first call: the edge arrays, the degrees, the normalisation and their padded forms, one stretch
  of host operations at a time, each read in terms of the stretch before.
-/
import proofs.«147065_j51737176047725_2_alg».proof.Proof.Gen.KernelIdeal.Frame
import proofs.«147065_j51737176047725_2_alg».proof.Proof.Spec
import proofs.«147065_j51737176047725_2_alg».proof.Proof.Fold0

set_option maxRecDepth 16384

noncomputable section

open Cert.KernelIdeal Cert.KernelIdeal.Gen
open Idealize.ShloMosaic Idealize.ShloMosaic.TcCoe Idealize.ShloMosaic.Tactic Idealize.ShloMosaic.StableHlo
open Idealize.SL.Sem
namespace Cert.KernelIdeal.Fold

open Cert.KernelIdeal.Model

variable (m : (ℓ : Loc nD τ sig) → Buf (Elt Ideal) ℓ) (ρ : Dev nD → PrngReg) (c : Dev nD)

theorem q0_arg1 : q0 m ρ c (no_index (Proc.devRef .tc main_arg1)) = (m ((c : Thread nD τ).loc main_arg1)) := rfl
theorem qa_v3 : qa m ρ c (no_index (Proc.devRef .tc main_v3)) = src (m ((c : Thread nD τ).loc main_arg1)) := by
  unfold qa; fold_stage
  try simp only [q0_arg1]
  try rfl
theorem qa_v6 : qa m ρ c (no_index (Proc.devRef .tc main_v6)) = dst (m ((c : Thread nD τ).loc main_arg1)) := by
  unfold qa; fold_stage
  try simp only [q0_arg1]
  try rfl
theorem q1_v12 : q1 m ρ c (no_index (Proc.devRef .tc main_v12)) = cmpf (F := Ideal) .ogt (deg (m ((c : Thread nD τ).loc main_arg1))) (broadcastInDim S100000 ![] bcast_S_S100000 (constant (F := Ideal) S_ .f32 0x00000000#32)) := by
  unfold q1; fold_stage
  try simp only [qa_v6]
  try rfl
theorem q1_v13 : q1 m ρ c (no_index (Proc.devRef .tc main_v13)) = Host.rsqrt (F := Ideal) (deg (m ((c : Thread nD τ).loc main_arg1))) := by
  unfold q1; fold_stage
  try simp only [qa_v6]
  try rfl
theorem q1_cst2 : q1 m ρ c (no_index (Proc.devRef .tc main_cst_2)) = constant (F := Ideal) S_ .f32 0x00000000#32 := by
  unfold q1; fold_stage
  try rfl
theorem q1_v3 : q1 m ρ c (no_index (Proc.devRef .tc main_v3)) = src (m ((c : Thread nD τ).loc main_arg1)) := by
  unfold q1; fold_stage
  try simp only [qa_v3]
  try rfl
theorem q1_v6 : q1 m ρ c (no_index (Proc.devRef .tc main_v6)) = dst (m ((c : Thread nD τ).loc main_arg1)) := by
  unfold q1; fold_stage
  try simp only [qa_v6]
  try rfl
theorem q2_v14 : q2 m ρ c (no_index (Proc.devRef .tc main_v14)) = dinv (m ((c : Thread nD τ).loc main_arg1)) := by
  unfold q2; fold_stage
  try simp only [q1_v12, q1_v13, q1_cst2]
  try rfl
theorem q2_v3 : q2 m ρ c (no_index (Proc.devRef .tc main_v3)) = src (m ((c : Thread nD τ).loc main_arg1)) := by
  unfold q2; fold_stage
  try simp only [q1_v3]
  try rfl
theorem q2_v6 : q2 m ρ c (no_index (Proc.devRef .tc main_v6)) = dst (m ((c : Thread nD τ).loc main_arg1)) := by
  unfold q2; fold_stage
  try simp only [q1_v6]
  try rfl
theorem q3_v29 : q3 m ρ c (no_index (Proc.devRef .tc main_v29)) = nrm (m ((c : Thread nD τ).loc main_arg1)) := by
  unfold q3; fold_stage
  try simp only [q2_v14, q2_v3, q2_v6]
  try rfl
theorem q3_v3 : q3 m ρ c (no_index (Proc.devRef .tc main_v3)) = src (m ((c : Thread nD τ).loc main_arg1)) := by
  unfold q3; fold_stage
  try simp only [q2_v3]
  try rfl
theorem q3_v6 : q3 m ρ c (no_index (Proc.devRef .tc main_v6)) = dst (m ((c : Thread nD τ).loc main_arg1)) := by
  unfold q3; fold_stage
  try simp only [q2_v6]
  try rfl
theorem q3_c6 : q3 m ρ c (no_index (Proc.devRef .tc main_c_6)) = constantI S_ 32 0#32 := by
  unfold q3; fold_stage
  try rfl
theorem q4_v30 : q4 m ρ c (no_index (Proc.devRef .tc main_v30)) = srcP (m ((c : Thread nD τ).loc main_arg1)) := by
  unfold q4; fold_stage
  try simp only [q3_v3, q3_c6]
  try rfl
theorem q4_v6 : q4 m ρ c (no_index (Proc.devRef .tc main_v6)) = dst (m ((c : Thread nD τ).loc main_arg1)) := by
  unfold q4; fold_stage
  try simp only [q3_v6]
  try rfl
theorem q4_v29 : q4 m ρ c (no_index (Proc.devRef .tc main_v29)) = nrm (m ((c : Thread nD τ).loc main_arg1)) := by
  unfold q4; fold_stage
  try simp only [q3_v29]
  try rfl
theorem q5_c7 : q5 m ρ c (no_index (Proc.devRef .tc main_c_7)) = constantI S_ 32 0#32 := by
  unfold q5; fold_stage
  try rfl
theorem q5_v30 : q5 m ρ c (no_index (Proc.devRef .tc main_v30)) = srcP (m ((c : Thread nD τ).loc main_arg1)) := by
  unfold q5; fold_stage
  try simp only [q4_v30]
  try rfl
theorem q5_v6 : q5 m ρ c (no_index (Proc.devRef .tc main_v6)) = dst (m ((c : Thread nD τ).loc main_arg1)) := by
  unfold q5; fold_stage
  try simp only [q4_v6]
  try rfl
theorem q5_v29 : q5 m ρ c (no_index (Proc.devRef .tc main_v29)) = nrm (m ((c : Thread nD τ).loc main_arg1)) := by
  unfold q5; fold_stage
  try simp only [q4_v29]
  try rfl
theorem q6_v31 : q6 m ρ c (no_index (Proc.devRef .tc main_v31)) = dstP (m ((c : Thread nD τ).loc main_arg1)) := by
  unfold q6; fold_stage
  try simp only [q5_v6, q5_c7]
  try rfl
theorem q6_v30 : q6 m ρ c (no_index (Proc.devRef .tc main_v30)) = srcP (m ((c : Thread nD τ).loc main_arg1)) := by
  unfold q6; fold_stage
  try simp only [q5_v30]
  try rfl
theorem q6_v29 : q6 m ρ c (no_index (Proc.devRef .tc main_v29)) = nrm (m ((c : Thread nD τ).loc main_arg1)) := by
  unfold q6; fold_stage
  try simp only [q5_v29]
  try rfl
theorem q7_cst8 : q7 m ρ c (no_index (Proc.devRef .tc main_cst_8)) = constant (F := Ideal) S_ .f32 0x00000000#32 := by
  unfold q7; fold_stage
  try rfl
theorem q7_v30 : q7 m ρ c (no_index (Proc.devRef .tc main_v30)) = srcP (m ((c : Thread nD τ).loc main_arg1)) := by
  unfold q7; fold_stage
  try simp only [q6_v30]
  try rfl
theorem q7_v31 : q7 m ρ c (no_index (Proc.devRef .tc main_v31)) = dstP (m ((c : Thread nD τ).loc main_arg1)) := by
  unfold q7; fold_stage
  try simp only [q6_v31]
  try rfl
theorem q7_v29 : q7 m ρ c (no_index (Proc.devRef .tc main_v29)) = nrm (m ((c : Thread nD τ).loc main_arg1)) := by
  unfold q7; fold_stage
  try simp only [q6_v29]
  try rfl
theorem q8_v32 : q8 m ρ c (no_index (Proc.devRef .tc main_v32)) = nrmP (m ((c : Thread nD τ).loc main_arg1)) := by
  unfold q8; fold_stage
  try simp only [q7_v29, q7_cst8]
  try rfl
theorem q8_v30 : q8 m ρ c (no_index (Proc.devRef .tc main_v30)) = srcP (m ((c : Thread nD τ).loc main_arg1)) := by
  unfold q8; fold_stage
  try simp only [q7_v30]
  try rfl
theorem q8_v31 : q8 m ρ c (no_index (Proc.devRef .tc main_v31)) = dstP (m ((c : Thread nD τ).loc main_arg1)) := by
  unfold q8; fold_stage
  try simp only [q7_v31]
  try rfl

theorem pre0_v30 : pre0 m ρ c (no_index (Proc.devRef .tc main_v30)) = srcP (m ((c : Thread nD τ).loc main_arg1)) := by rw [pre0_eq]; exact q8_v30 m ρ c
theorem pre0_v31 : pre0 m ρ c (no_index (Proc.devRef .tc main_v31)) = dstP (m ((c : Thread nD τ).loc main_arg1)) := by rw [pre0_eq]; exact q8_v31 m ρ c
theorem pre0_v32 : pre0 m ρ c (no_index (Proc.devRef .tc main_v32)) = nrmP (m ((c : Thread nD τ).loc main_arg1)) := by rw [pre0_eq]; exact q8_v32 m ρ c

end Cert.KernelIdeal.Fold

end
-- ==== Proof.Fold0b.lean ====
/-
  The arguments reach the first call unchanged, and what the first call finds in its own input arrays.
-/
import proofs.«147065_j51737176047725_2_alg».proof.Proof.Gen.KernelIdeal.Frame
import proofs.«147065_j51737176047725_2_alg».proof.Proof.Spec
import proofs.«147065_j51737176047725_2_alg».proof.Proof.Fold0a

set_option maxRecDepth 16384

noncomputable section

open Cert.KernelIdeal Cert.KernelIdeal.Gen
open Idealize.ShloMosaic Idealize.ShloMosaic.TcCoe Idealize.ShloMosaic.Tactic Idealize.ShloMosaic.StableHlo
open Idealize.SL.Sem
namespace Cert.KernelIdeal.Fold

open Cert.KernelIdeal.Model

variable (m : (ℓ : Loc nD τ sig) → Buf (Elt Ideal) ℓ) (ρ : Dev nD → PrngReg) (c : Dev nD)
theorem pre0_main_arg0 : pre0 m ρ c (no_index (Proc.devRef .tc main_arg0)) = m ((c : Thread nD τ).loc main_arg0) := by
  unfold pre0; fold_walk; try rfl
theorem pre0_main_arg1 : pre0 m ρ c (no_index (Proc.devRef .tc main_arg1)) = m ((c : Thread nD τ).loc main_arg1) := by
  unfold pre0; fold_walk; try rfl
theorem pre0_main_arg2 : pre0 m ρ c (no_index (Proc.devRef .tc main_arg2)) = m ((c : Thread nD τ).loc main_arg2) := by
  unfold pre0; fold_walk; try rfl
theorem pre0_main_arg3 : pre0 m ρ c (no_index (Proc.devRef .tc main_arg3)) = m ((c : Thread nD τ).loc main_arg3) := by
  unfold pre0; fold_walk; try rfl
theorem pre0_main_arg4 : pre0 m ρ c (no_index (Proc.devRef .tc main_arg4)) = m ((c : Thread nD τ).loc main_arg4) := by
  unfold pre0; fold_walk; try rfl
theorem pre0_main_arg5 : pre0 m ρ c (no_index (Proc.devRef .tc main_arg5)) = m ((c : Thread nD τ).loc main_arg5) := by
  unfold pre0; fold_walk; try rfl
theorem pre0_main_arg6 : pre0 m ρ c (no_index (Proc.devRef .tc main_arg6)) = m ((c : Thread nD τ).loc main_arg6) := by
  unfold pre0; fold_walk; try rfl
theorem pre0_main_arg7 : pre0 m ρ c (no_index (Proc.devRef .tc main_arg7)) = m ((c : Thread nD τ).loc main_arg7) := by
  unfold pre0; fold_walk; try rfl
theorem pre0_main_arg8 : pre0 m ρ c (no_index (Proc.devRef .tc main_arg8)) = m ((c : Thread nD τ).loc main_arg8) := by
  unfold pre0; fold_walk; try rfl
theorem pre0_main_arg9 : pre0 m ρ c (no_index (Proc.devRef .tc main_arg9)) = m ((c : Thread nD τ).loc main_arg9) := by
  unfold pre0; fold_walk; try rfl
theorem pre0_main_arg10 : pre0 m ρ c (no_index (Proc.devRef .tc main_arg10)) = m ((c : Thread nD τ).loc main_arg10) := by
  unfold pre0; fold_walk; try rfl
theorem pre0_main_arg11 : pre0 m ρ c (no_index (Proc.devRef .tc main_arg11)) = m ((c : Thread nD τ).loc main_arg11) := by
  unfold pre0; fold_walk; try rfl
theorem pre0_main_arg12 : pre0 m ρ c (no_index (Proc.devRef .tc main_arg12)) = m ((c : Thread nD τ).loc main_arg12) := by
  unfold pre0; fold_walk; try rfl
theorem pre0_main_arg13 : pre0 m ρ c (no_index (Proc.devRef .tc main_arg13)) = m ((c : Thread nD τ).loc main_arg13) := by
  unfold pre0; fold_walk; try rfl

theorem en0_v30 : en0 m ρ c main_v30 = pre0 m ρ c (Proc.devRef .tc main_v30) := by unfold en0; fold_stage; try rfl
theorem en0_v31 : en0 m ρ c main_v31 = pre0 m ρ c (Proc.devRef .tc main_v31) := by unfold en0; fold_stage; try rfl
theorem en0_v33 : en0 m ρ c main_v33 = shapeCast S3301376x1 (pre0 m ρ c (Proc.devRef .tc main_v32)) shapeCasts_S3301376_S3301376x1 := by
  unfold en0; fold_stage; try rfl
theorem en0_main_arg0 : en0 m ρ c main_arg0 = pre0 m ρ c (Proc.devRef .tc main_arg0) := by unfold en0; fold_stage; try rfl
theorem en0_main_arg1 : en0 m ρ c main_arg1 = pre0 m ρ c (Proc.devRef .tc main_arg1) := by unfold en0; fold_stage; try rfl
theorem en0_main_arg2 : en0 m ρ c main_arg2 = pre0 m ρ c (Proc.devRef .tc main_arg2) := by unfold en0; fold_stage; try rfl
theorem en0_main_arg3 : en0 m ρ c main_arg3 = pre0 m ρ c (Proc.devRef .tc main_arg3) := by unfold en0; fold_stage; try rfl
theorem en0_main_arg4 : en0 m ρ c main_arg4 = pre0 m ρ c (Proc.devRef .tc main_arg4) := by unfold en0; fold_stage; try rfl
theorem en0_main_arg5 : en0 m ρ c main_arg5 = pre0 m ρ c (Proc.devRef .tc main_arg5) := by unfold en0; fold_stage; try rfl
theorem en0_main_arg6 : en0 m ρ c main_arg6 = pre0 m ρ c (Proc.devRef .tc main_arg6) := by unfold en0; fold_stage; try rfl
theorem en0_main_arg7 : en0 m ρ c main_arg7 = pre0 m ρ c (Proc.devRef .tc main_arg7) := by unfold en0; fold_stage; try rfl
theorem en0_main_arg8 : en0 m ρ c main_arg8 = pre0 m ρ c (Proc.devRef .tc main_arg8) := by unfold en0; fold_stage; try rfl
theorem en0_main_arg9 : en0 m ρ c main_arg9 = pre0 m ρ c (Proc.devRef .tc main_arg9) := by unfold en0; fold_stage; try rfl
theorem en0_main_arg10 : en0 m ρ c main_arg10 = pre0 m ρ c (Proc.devRef .tc main_arg10) := by unfold en0; fold_stage; try rfl
theorem en0_main_arg11 : en0 m ρ c main_arg11 = pre0 m ρ c (Proc.devRef .tc main_arg11) := by unfold en0; fold_stage; try rfl
theorem en0_main_arg12 : en0 m ρ c main_arg12 = pre0 m ρ c (Proc.devRef .tc main_arg12) := by unfold en0; fold_stage; try rfl
theorem en0_main_arg13 : en0 m ρ c main_arg13 = pre0 m ρ c (Proc.devRef .tc main_arg13) := by unfold en0; fold_stage; try rfl

theorem en0_v41 : en0 m ρ c main_v41 = Host.gather gather_S100000x8_S3301376x1_S3301376x8_1_0_n_n_0_1_18 (Host.dotGeneral (F := Ideal) (φ₁ := .f32) (φ₂ := .f32) dot_S100000x15_S15x8_S100000x8_1_0_0_1_n_n none (pre0 m ρ c (Proc.devRef .tc main_arg0)) (pre0 m ρ c (Proc.devRef .tc main_arg2))) (broadcastInDim S3301376x1 ![0] bcast_S3301376_S3301376x1_0 (Cert.ConvPad.wrap bcast_S_S3301376 100000#32 (pre0 m ρ c (Proc.devRef .tc main_v30)))) := by
  unfold en0; fold_stage
  try (generalize pre0 m ρ c = E; rfl)

end Cert.KernelIdeal.Fold

end
-- ==== Proof.Fold1.lean ====
/-
  The fold continued: what each later call finds in the few buffers that matter, as an expression in what the
  call before it found — one aggregation, bias, activation and product with the next weights per stage — and
  the buffers that travel unchanged.
-/
import proofs.«147065_j51737176047725_2_alg».proof.Proof.Gen.KernelIdeal.Frame
import proofs.«147065_j51737176047725_2_alg».proof.Proof.Spec
import proofs.«147065_j51737176047725_2_alg».proof.Proof.Fold0b
import proofs.«147065_j51737176047725_2_alg».proof.Proof.SpecMse
import proofs.«147065_j51737176047725_2_alg».proof.Proof.KModel
import proofs.«147065_j51737176047725_2_alg».proof.Proof.RegionScale0
import proofs.«147065_j51737176047725_2_alg».proof.Proof.RegionScale1
import proofs.«147065_j51737176047725_2_alg».proof.Proof.RegionScale2
import proofs.«147065_j51737176047725_2_alg».proof.Proof.RegionScale3
import proofs.«147065_j51737176047725_2_alg».proof.Proof.RegionScale4
import proofs.«147065_j51737176047725_2_alg».proof.Proof.RegionScale5
import proofs.«147065_j51737176047725_2_alg».proof.Proof.RegionMse

set_option maxRecDepth 16384

noncomputable section

open Cert.KernelIdeal Cert.KernelIdeal.Gen
open Idealize.ShloMosaic Idealize.ShloMosaic.TcCoe Idealize.ShloMosaic.Tactic Idealize.ShloMosaic.StableHlo
open Idealize.SL.Sem

namespace Cert.KernelIdeal.Fold

open Cert.KernelIdeal.Model

variable (m : (ℓ : Loc nD τ sig) → Buf (Elt Ideal) ℓ) (ρ : Dev nD → PrngReg) (c : Dev nD)

/-! ## From one call's entry to the next -/

theorem en1_in : en1 m ρ c main_v57 = Host.gather gather_S100000x8_S3301376x1_S3301376x8_1_0_n_n_0_1_18 (Host.dotGeneral (F := Ideal) (φ₁ := .f32) (φ₂ := .f32) dot_S100000x8_S8x8_S100000x8_1_0_0_1_n_n none (maximumf (F := Ideal) (addf (F := Ideal) (Host.scatterAdd (F := Ideal) scatter_S100000x8_S3301376x1_S3301376x8_1_0_0_1 (broadcastInDim S100000x8 ![] bcast_S_S100000x8 (constant (F := Ideal) S_ .f32 0x00000000#32)) (broadcastInDim S3301376x1 ![0] bcast_S3301376_S3301376x1_0 (en0 m ρ c main_v31)) (Cert.Spec.scaleRows (en0 m ρ c main_v41) (en0 m ρ c main_v33))) (broadcastInDim S100000x8 ![0, 1] bcast_S1x8_S100000x8_0_1 (broadcastInDim S1x8 ![1] bcast_S8_S1x8_1 (en0 m ρ c main_arg3)))) (broadcastInDim S100000x8 ![] bcast_S_S100000x8 (constant (F := Ideal) S_ .f32 0x00000000#32))) (en0 m ρ c main_arg4)) (broadcastInDim S3301376x1 ![0] bcast_S3301376_S3301376x1_0 (Cert.ConvPad.wrap bcast_S_S3301376 100000#32 (en0 m ρ c main_v30))) := by
  unfold en1; fold_stage
  try (generalize en0 m ρ c = E; rfl)
theorem en1_main_v30 : en1 m ρ c main_v30 = en0 m ρ c main_v30 := by unfold en1; fold_stage; try rfl
theorem en1_main_v31 : en1 m ρ c main_v31 = en0 m ρ c main_v31 := by unfold en1; fold_stage; try rfl
theorem en1_main_v33 : en1 m ρ c main_v33 = en0 m ρ c main_v33 := by unfold en1; fold_stage; try rfl
theorem en1_main_arg0 : en1 m ρ c main_arg0 = en0 m ρ c main_arg0 := by unfold en1; fold_stage; try rfl
theorem en1_main_arg3 : en1 m ρ c main_arg3 = en0 m ρ c main_arg3 := by unfold en1; fold_stage; try rfl
theorem en1_main_arg4 : en1 m ρ c main_arg4 = en0 m ρ c main_arg4 := by unfold en1; fold_stage; try rfl
theorem en1_main_arg5 : en1 m ρ c main_arg5 = en0 m ρ c main_arg5 := by unfold en1; fold_stage; try rfl
theorem en1_main_arg6 : en1 m ρ c main_arg6 = en0 m ρ c main_arg6 := by unfold en1; fold_stage; try rfl
theorem en1_main_arg7 : en1 m ρ c main_arg7 = en0 m ρ c main_arg7 := by unfold en1; fold_stage; try rfl
theorem en1_main_arg8 : en1 m ρ c main_arg8 = en0 m ρ c main_arg8 := by unfold en1; fold_stage; try rfl
theorem en1_main_arg9 : en1 m ρ c main_arg9 = en0 m ρ c main_arg9 := by unfold en1; fold_stage; try rfl
theorem en1_main_arg10 : en1 m ρ c main_arg10 = en0 m ρ c main_arg10 := by unfold en1; fold_stage; try rfl
theorem en1_main_arg11 : en1 m ρ c main_arg11 = en0 m ρ c main_arg11 := by unfold en1; fold_stage; try rfl
theorem en1_main_arg12 : en1 m ρ c main_arg12 = en0 m ρ c main_arg12 := by unfold en1; fold_stage; try rfl
theorem en1_main_arg13 : en1 m ρ c main_arg13 = en0 m ρ c main_arg13 := by unfold en1; fold_stage; try rfl

theorem en2_in : en2 m ρ c main_v73 = Host.gather gather_S100000x2_S3301376x1_S3301376x2_1_0_n_n_0_1_12 (Host.dotGeneral (F := Ideal) (φ₁ := .f32) (φ₂ := .f32) dot_S100000x8_S8x2_S100000x2_1_0_0_1_n_n none (maximumf (F := Ideal) (addf (F := Ideal) (Host.scatterAdd (F := Ideal) scatter_S100000x8_S3301376x1_S3301376x8_1_0_0_1 (broadcastInDim S100000x8 ![] bcast_S_S100000x8 (constant (F := Ideal) S_ .f32 0x00000000#32)) (broadcastInDim S3301376x1 ![0] bcast_S3301376_S3301376x1_0 (en1 m ρ c main_v31)) (Cert.Spec.scaleRows (en1 m ρ c main_v57) (en1 m ρ c main_v33))) (broadcastInDim S100000x8 ![0, 1] bcast_S1x8_S100000x8_0_1 (broadcastInDim S1x8 ![1] bcast_S8_S1x8_1 (en1 m ρ c main_arg5)))) (broadcastInDim S100000x8 ![] bcast_S_S100000x8 (constant (F := Ideal) S_ .f32 0x00000000#32))) (en1 m ρ c main_arg6)) (broadcastInDim S3301376x1 ![0] bcast_S3301376_S3301376x1_0 (Cert.ConvPad.wrap bcast_S_S3301376 100000#32 (en1 m ρ c main_v30))) := by
  unfold en2; fold_stage
  try (generalize en1 m ρ c = E; rfl)
theorem en2_main_v30 : en2 m ρ c main_v30 = en1 m ρ c main_v30 := by unfold en2; fold_stage; try rfl
theorem en2_main_v31 : en2 m ρ c main_v31 = en1 m ρ c main_v31 := by unfold en2; fold_stage; try rfl
theorem en2_main_v33 : en2 m ρ c main_v33 = en1 m ρ c main_v33 := by unfold en2; fold_stage; try rfl
theorem en2_main_arg0 : en2 m ρ c main_arg0 = en1 m ρ c main_arg0 := by unfold en2; fold_stage; try rfl
theorem en2_main_arg3 : en2 m ρ c main_arg3 = en1 m ρ c main_arg3 := by unfold en2; fold_stage; try rfl
theorem en2_main_arg4 : en2 m ρ c main_arg4 = en1 m ρ c main_arg4 := by unfold en2; fold_stage; try rfl
theorem en2_main_arg5 : en2 m ρ c main_arg5 = en1 m ρ c main_arg5 := by unfold en2; fold_stage; try rfl
theorem en2_main_arg6 : en2 m ρ c main_arg6 = en1 m ρ c main_arg6 := by unfold en2; fold_stage; try rfl
theorem en2_main_arg7 : en2 m ρ c main_arg7 = en1 m ρ c main_arg7 := by unfold en2; fold_stage; try rfl
theorem en2_main_arg8 : en2 m ρ c main_arg8 = en1 m ρ c main_arg8 := by unfold en2; fold_stage; try rfl
theorem en2_main_arg9 : en2 m ρ c main_arg9 = en1 m ρ c main_arg9 := by unfold en2; fold_stage; try rfl
theorem en2_main_arg10 : en2 m ρ c main_arg10 = en1 m ρ c main_arg10 := by unfold en2; fold_stage; try rfl
theorem en2_main_arg11 : en2 m ρ c main_arg11 = en1 m ρ c main_arg11 := by unfold en2; fold_stage; try rfl
theorem en2_main_arg12 : en2 m ρ c main_arg12 = en1 m ρ c main_arg12 := by unfold en2; fold_stage; try rfl
theorem en2_main_arg13 : en2 m ρ c main_arg13 = en1 m ρ c main_arg13 := by unfold en2; fold_stage; try rfl

theorem en3_in : en3 m ρ c main_v88 = Host.gather gather_S100000x8_S3301376x1_S3301376x8_1_0_n_n_0_1_18 (Host.dotGeneral (F := Ideal) (φ₁ := .f32) (φ₂ := .f32) dot_S100000x2_S2x8_S100000x8_1_0_0_1_n_n none (addf (F := Ideal) (Host.scatterAdd (F := Ideal) scatter_S100000x2_S3301376x1_S3301376x2_1_0_0_1 (broadcastInDim S100000x2 ![] bcast_S_S100000x2 (constant (F := Ideal) S_ .f32 0x00000000#32)) (broadcastInDim S3301376x1 ![0] bcast_S3301376_S3301376x1_0 (en2 m ρ c main_v31)) (Cert.Spec.scaleRows (en2 m ρ c main_v73) (en2 m ρ c main_v33))) (broadcastInDim S100000x2 ![0, 1] bcast_S1x2_S100000x2_0_1 (broadcastInDim S1x2 ![1] bcast_S2_S1x2_1 (en2 m ρ c main_arg7)))) (en2 m ρ c main_arg8)) (broadcastInDim S3301376x1 ![0] bcast_S3301376_S3301376x1_0 (Cert.ConvPad.wrap bcast_S_S3301376 100000#32 (en2 m ρ c main_v30))) := by
  unfold en3; fold_stage
  try (generalize en2 m ρ c = E; rfl)
theorem en3_main_v30 : en3 m ρ c main_v30 = en2 m ρ c main_v30 := by unfold en3; fold_stage; try rfl
theorem en3_main_v31 : en3 m ρ c main_v31 = en2 m ρ c main_v31 := by unfold en3; fold_stage; try rfl
theorem en3_main_v33 : en3 m ρ c main_v33 = en2 m ρ c main_v33 := by unfold en3; fold_stage; try rfl
theorem en3_main_arg0 : en3 m ρ c main_arg0 = en2 m ρ c main_arg0 := by unfold en3; fold_stage; try rfl
theorem en3_main_arg3 : en3 m ρ c main_arg3 = en2 m ρ c main_arg3 := by unfold en3; fold_stage; try rfl
theorem en3_main_arg4 : en3 m ρ c main_arg4 = en2 m ρ c main_arg4 := by unfold en3; fold_stage; try rfl
theorem en3_main_arg5 : en3 m ρ c main_arg5 = en2 m ρ c main_arg5 := by unfold en3; fold_stage; try rfl
theorem en3_main_arg6 : en3 m ρ c main_arg6 = en2 m ρ c main_arg6 := by unfold en3; fold_stage; try rfl
theorem en3_main_arg7 : en3 m ρ c main_arg7 = en2 m ρ c main_arg7 := by unfold en3; fold_stage; try rfl
theorem en3_main_arg8 : en3 m ρ c main_arg8 = en2 m ρ c main_arg8 := by unfold en3; fold_stage; try rfl
theorem en3_main_arg9 : en3 m ρ c main_arg9 = en2 m ρ c main_arg9 := by unfold en3; fold_stage; try rfl
theorem en3_main_arg10 : en3 m ρ c main_arg10 = en2 m ρ c main_arg10 := by unfold en3; fold_stage; try rfl
theorem en3_main_arg11 : en3 m ρ c main_arg11 = en2 m ρ c main_arg11 := by unfold en3; fold_stage; try rfl
theorem en3_main_arg12 : en3 m ρ c main_arg12 = en2 m ρ c main_arg12 := by unfold en3; fold_stage; try rfl
theorem en3_main_arg13 : en3 m ρ c main_arg13 = en2 m ρ c main_arg13 := by unfold en3; fold_stage; try rfl

theorem en4_in : en4 m ρ c main_v104 = Host.gather gather_S100000x8_S3301376x1_S3301376x8_1_0_n_n_0_1_18 (Host.dotGeneral (F := Ideal) (φ₁ := .f32) (φ₂ := .f32) dot_S100000x8_S8x8_S100000x8_1_0_0_1_n_n none (maximumf (F := Ideal) (addf (F := Ideal) (Host.scatterAdd (F := Ideal) scatter_S100000x8_S3301376x1_S3301376x8_1_0_0_1 (broadcastInDim S100000x8 ![] bcast_S_S100000x8 (constant (F := Ideal) S_ .f32 0x00000000#32)) (broadcastInDim S3301376x1 ![0] bcast_S3301376_S3301376x1_0 (en3 m ρ c main_v31)) (Cert.Spec.scaleRows (en3 m ρ c main_v88) (en3 m ρ c main_v33))) (broadcastInDim S100000x8 ![0, 1] bcast_S1x8_S100000x8_0_1 (broadcastInDim S1x8 ![1] bcast_S8_S1x8_1 (en3 m ρ c main_arg9)))) (broadcastInDim S100000x8 ![] bcast_S_S100000x8 (constant (F := Ideal) S_ .f32 0x00000000#32))) (en3 m ρ c main_arg10)) (broadcastInDim S3301376x1 ![0] bcast_S3301376_S3301376x1_0 (Cert.ConvPad.wrap bcast_S_S3301376 100000#32 (en3 m ρ c main_v30))) := by
  unfold en4; fold_stage
  try (generalize en3 m ρ c = E; rfl)
theorem en4_main_v30 : en4 m ρ c main_v30 = en3 m ρ c main_v30 := by unfold en4; fold_stage; try rfl
theorem en4_main_v31 : en4 m ρ c main_v31 = en3 m ρ c main_v31 := by unfold en4; fold_stage; try rfl
theorem en4_main_v33 : en4 m ρ c main_v33 = en3 m ρ c main_v33 := by unfold en4; fold_stage; try rfl
theorem en4_main_arg0 : en4 m ρ c main_arg0 = en3 m ρ c main_arg0 := by unfold en4; fold_stage; try rfl
theorem en4_main_arg3 : en4 m ρ c main_arg3 = en3 m ρ c main_arg3 := by unfold en4; fold_stage; try rfl
theorem en4_main_arg4 : en4 m ρ c main_arg4 = en3 m ρ c main_arg4 := by unfold en4; fold_stage; try rfl
theorem en4_main_arg5 : en4 m ρ c main_arg5 = en3 m ρ c main_arg5 := by unfold en4; fold_stage; try rfl
theorem en4_main_arg6 : en4 m ρ c main_arg6 = en3 m ρ c main_arg6 := by unfold en4; fold_stage; try rfl
theorem en4_main_arg7 : en4 m ρ c main_arg7 = en3 m ρ c main_arg7 := by unfold en4; fold_stage; try rfl
theorem en4_main_arg8 : en4 m ρ c main_arg8 = en3 m ρ c main_arg8 := by unfold en4; fold_stage; try rfl
theorem en4_main_arg9 : en4 m ρ c main_arg9 = en3 m ρ c main_arg9 := by unfold en4; fold_stage; try rfl
theorem en4_main_arg10 : en4 m ρ c main_arg10 = en3 m ρ c main_arg10 := by unfold en4; fold_stage; try rfl
theorem en4_main_arg11 : en4 m ρ c main_arg11 = en3 m ρ c main_arg11 := by unfold en4; fold_stage; try rfl
theorem en4_main_arg12 : en4 m ρ c main_arg12 = en3 m ρ c main_arg12 := by unfold en4; fold_stage; try rfl
theorem en4_main_arg13 : en4 m ρ c main_arg13 = en3 m ρ c main_arg13 := by unfold en4; fold_stage; try rfl

theorem en5_in : en5 m ρ c main_v120 = Host.gather gather_S100000x15_S3301376x1_S3301376x15_1_0_n_n_0_1_115 (Host.dotGeneral (F := Ideal) (φ₁ := .f32) (φ₂ := .f32) dot_S100000x8_S8x15_S100000x15_1_0_0_1_n_n none (maximumf (F := Ideal) (addf (F := Ideal) (Host.scatterAdd (F := Ideal) scatter_S100000x8_S3301376x1_S3301376x8_1_0_0_1 (broadcastInDim S100000x8 ![] bcast_S_S100000x8 (constant (F := Ideal) S_ .f32 0x00000000#32)) (broadcastInDim S3301376x1 ![0] bcast_S3301376_S3301376x1_0 (en4 m ρ c main_v31)) (Cert.Spec.scaleRows (en4 m ρ c main_v104) (en4 m ρ c main_v33))) (broadcastInDim S100000x8 ![0, 1] bcast_S1x8_S100000x8_0_1 (broadcastInDim S1x8 ![1] bcast_S8_S1x8_1 (en4 m ρ c main_arg11)))) (broadcastInDim S100000x8 ![] bcast_S_S100000x8 (constant (F := Ideal) S_ .f32 0x00000000#32))) (en4 m ρ c main_arg12)) (broadcastInDim S3301376x1 ![0] bcast_S3301376_S3301376x1_0 (Cert.ConvPad.wrap bcast_S_S3301376 100000#32 (en4 m ρ c main_v30))) := by
  unfold en5; fold_stage
  try (generalize en4 m ρ c = E; rfl)
theorem en5_main_v30 : en5 m ρ c main_v30 = en4 m ρ c main_v30 := by unfold en5; fold_stage; try rfl
theorem en5_main_v31 : en5 m ρ c main_v31 = en4 m ρ c main_v31 := by unfold en5; fold_stage; try rfl
theorem en5_main_v33 : en5 m ρ c main_v33 = en4 m ρ c main_v33 := by unfold en5; fold_stage; try rfl
theorem en5_main_arg0 : en5 m ρ c main_arg0 = en4 m ρ c main_arg0 := by unfold en5; fold_stage; try rfl
theorem en5_main_arg3 : en5 m ρ c main_arg3 = en4 m ρ c main_arg3 := by unfold en5; fold_stage; try rfl
theorem en5_main_arg4 : en5 m ρ c main_arg4 = en4 m ρ c main_arg4 := by unfold en5; fold_stage; try rfl
theorem en5_main_arg5 : en5 m ρ c main_arg5 = en4 m ρ c main_arg5 := by unfold en5; fold_stage; try rfl
theorem en5_main_arg6 : en5 m ρ c main_arg6 = en4 m ρ c main_arg6 := by unfold en5; fold_stage; try rfl
theorem en5_main_arg7 : en5 m ρ c main_arg7 = en4 m ρ c main_arg7 := by unfold en5; fold_stage; try rfl
theorem en5_main_arg8 : en5 m ρ c main_arg8 = en4 m ρ c main_arg8 := by unfold en5; fold_stage; try rfl
theorem en5_main_arg9 : en5 m ρ c main_arg9 = en4 m ρ c main_arg9 := by unfold en5; fold_stage; try rfl
theorem en5_main_arg10 : en5 m ρ c main_arg10 = en4 m ρ c main_arg10 := by unfold en5; fold_stage; try rfl
theorem en5_main_arg11 : en5 m ρ c main_arg11 = en4 m ρ c main_arg11 := by unfold en5; fold_stage; try rfl
theorem en5_main_arg12 : en5 m ρ c main_arg12 = en4 m ρ c main_arg12 := by unfold en5; fold_stage; try rfl
theorem en5_main_arg13 : en5 m ρ c main_arg13 = en4 m ρ c main_arg13 := by unfold en5; fold_stage; try rfl

theorem en6_in : en6 m ρ c main_v127 = (addf (F := Ideal) (Host.scatterAdd (F := Ideal) scatter_S100000x15_S3301376x1_S3301376x15_1_0_0_1 (broadcastInDim S100000x15 ![] bcast_S_S100000x15 (constant (F := Ideal) S_ .f32 0x00000000#32)) (broadcastInDim S3301376x1 ![0] bcast_S3301376_S3301376x1_0 (en5 m ρ c main_v31)) (Cert.Spec.scaleRows (en5 m ρ c main_v120) (en5 m ρ c main_v33))) (broadcastInDim S100000x15 ![0, 1] bcast_S1x15_S100000x15_0_1 (broadcastInDim S1x15 ![1] bcast_S15_S1x15_1 (en5 m ρ c main_arg13)))) := by
  unfold en6; fold_stage
  try (generalize en5 m ρ c = E; rfl)
theorem en6_main_v30 : en6 m ρ c main_v30 = en5 m ρ c main_v30 := by unfold en6; fold_stage; try rfl
theorem en6_main_v31 : en6 m ρ c main_v31 = en5 m ρ c main_v31 := by unfold en6; fold_stage; try rfl
theorem en6_main_v33 : en6 m ρ c main_v33 = en5 m ρ c main_v33 := by unfold en6; fold_stage; try rfl
theorem en6_main_arg0 : en6 m ρ c main_arg0 = en5 m ρ c main_arg0 := by unfold en6; fold_stage; try rfl
theorem en6_main_arg3 : en6 m ρ c main_arg3 = en5 m ρ c main_arg3 := by unfold en6; fold_stage; try rfl
theorem en6_main_arg4 : en6 m ρ c main_arg4 = en5 m ρ c main_arg4 := by unfold en6; fold_stage; try rfl
theorem en6_main_arg5 : en6 m ρ c main_arg5 = en5 m ρ c main_arg5 := by unfold en6; fold_stage; try rfl
theorem en6_main_arg6 : en6 m ρ c main_arg6 = en5 m ρ c main_arg6 := by unfold en6; fold_stage; try rfl
theorem en6_main_arg7 : en6 m ρ c main_arg7 = en5 m ρ c main_arg7 := by unfold en6; fold_stage; try rfl
theorem en6_main_arg8 : en6 m ρ c main_arg8 = en5 m ρ c main_arg8 := by unfold en6; fold_stage; try rfl
theorem en6_main_arg9 : en6 m ρ c main_arg9 = en5 m ρ c main_arg9 := by unfold en6; fold_stage; try rfl
theorem en6_main_arg10 : en6 m ρ c main_arg10 = en5 m ρ c main_arg10 := by unfold en6; fold_stage; try rfl
theorem en6_main_arg11 : en6 m ρ c main_arg11 = en5 m ρ c main_arg11 := by unfold en6; fold_stage; try rfl
theorem en6_main_arg12 : en6 m ρ c main_arg12 = en5 m ρ c main_arg12 := by unfold en6; fold_stage; try rfl
theorem en6_main_arg13 : en6 m ρ c main_arg13 = en5 m ρ c main_arg13 := by unfold en6; fold_stage; try rfl

theorem last_eq : W31 m ρ c (Proc.devRef .tc main_v129) = shapeCast S100000 (Cert.Spec.mseCol (en6 m ρ c main_arg0) (en6 m ρ c main_v127)) shapeCasts_S100000x1_S100000 := by
  fold_stage
  try (generalize en6 m ρ c = E; rfl)

end Cert.KernelIdeal.Fold

end
-- ==== Proof.Fold2.lean ====
/-
  The stages composed: the result buffer's final contents are the layered value of the fourteen arguments.
-/
import proofs.«147065_j51737176047725_2_alg».proof.Proof.Gen.KernelIdeal.Frame
import proofs.«147065_j51737176047725_2_alg».proof.Proof.Spec
import proofs.«147065_j51737176047725_2_alg».proof.Proof.Fold1
import proofs.«147065_j51737176047725_2_alg».proof.Proof.SpecMse
import proofs.«147065_j51737176047725_2_alg».proof.Proof.KModel
import proofs.«147065_j51737176047725_2_alg».proof.Proof.RegionScale0
import proofs.«147065_j51737176047725_2_alg».proof.Proof.RegionScale1
import proofs.«147065_j51737176047725_2_alg».proof.Proof.RegionScale2
import proofs.«147065_j51737176047725_2_alg».proof.Proof.RegionScale3
import proofs.«147065_j51737176047725_2_alg».proof.Proof.RegionScale4
import proofs.«147065_j51737176047725_2_alg».proof.Proof.RegionScale5
import proofs.«147065_j51737176047725_2_alg».proof.Proof.RegionMse

set_option maxRecDepth 16384

noncomputable section

open Cert.KernelIdeal Cert.KernelIdeal.Gen
open Idealize.ShloMosaic Idealize.ShloMosaic.TcCoe Idealize.ShloMosaic.Tactic Idealize.ShloMosaic.StableHlo
open Idealize.SL.Sem

namespace Cert.KernelIdeal.Fold

open Cert.KernelIdeal.Model

variable (m : (ℓ : Loc nD τ sig) → Buf (Elt Ideal) ℓ) (ρ : Dev nD → PrngReg) (c : Dev nD)

/-! ## The stages composed -/

/-- The result buffer ends at the layered value of the launch contents of the fourteen arguments. -/
theorem result_eq : W31 m ρ c (Proc.devRef .tc main_v129) = kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [last_eq]
  simp only [en6_in, en5_in, en4_in, en3_in, en2_in, en1_in, en6_main_v30, en6_main_v31, en6_main_v33, en6_main_arg0, en6_main_arg3, en6_main_arg4, en6_main_arg5, en6_main_arg6, en6_main_arg7, en6_main_arg8, en6_main_arg9, en6_main_arg10, en6_main_arg11, en6_main_arg12, en6_main_arg13, en5_main_v30, en5_main_v31, en5_main_v33, en5_main_arg0, en5_main_arg3, en5_main_arg4, en5_main_arg5, en5_main_arg6, en5_main_arg7, en5_main_arg8, en5_main_arg9, en5_main_arg10, en5_main_arg11, en5_main_arg12, en5_main_arg13, en4_main_v30, en4_main_v31, en4_main_v33, en4_main_arg0, en4_main_arg3, en4_main_arg4, en4_main_arg5, en4_main_arg6, en4_main_arg7, en4_main_arg8, en4_main_arg9, en4_main_arg10, en4_main_arg11, en4_main_arg12, en4_main_arg13, en3_main_v30, en3_main_v31, en3_main_v33, en3_main_arg0, en3_main_arg3, en3_main_arg4, en3_main_arg5, en3_main_arg6, en3_main_arg7, en3_main_arg8, en3_main_arg9, en3_main_arg10, en3_main_arg11, en3_main_arg12, en3_main_arg13, en2_main_v30, en2_main_v31, en2_main_v33, en2_main_arg0, en2_main_arg3, en2_main_arg4, en2_main_arg5, en2_main_arg6, en2_main_arg7, en2_main_arg8, en2_main_arg9, en2_main_arg10, en2_main_arg11, en2_main_arg12, en2_main_arg13, en1_main_v30, en1_main_v31, en1_main_v33, en1_main_arg0, en1_main_arg3, en1_main_arg4, en1_main_arg5, en1_main_arg6, en1_main_arg7, en1_main_arg8, en1_main_arg9, en1_main_arg10, en1_main_arg11, en1_main_arg12, en1_main_arg13, en0_v41, en0_v33, en0_v30, en0_v31, en0_main_arg0, en0_main_arg1, en0_main_arg2, en0_main_arg3, en0_main_arg4, en0_main_arg5, en0_main_arg6, en0_main_arg7, en0_main_arg8, en0_main_arg9, en0_main_arg10, en0_main_arg11, en0_main_arg12, en0_main_arg13, pre0_v30, pre0_v31, pre0_v32, pre0_main_arg0, pre0_main_arg1, pre0_main_arg2, pre0_main_arg3, pre0_main_arg4, pre0_main_arg5, pre0_main_arg6, pre0_main_arg7, pre0_main_arg8, pre0_main_arg9, pre0_main_arg10, pre0_main_arg11, pre0_main_arg12, pre0_main_arg13]
  unfold kval recon agg15 agg8 agg2 bias15 bias8 bias2 relu8
  rfl

end Cert.KernelIdeal.Fold

end
-- ==== Proof.RefValue.lean ====
/-
  The value the reference program computes, written layer by layer over the extended reals in the program's own
  shapes, dimension records and shape facts: the edge list with self-loops, the symmetric normalisation, the
  aggregation at the three feature widths, the six layers of the auto-encoder and the per-node mean squared error.
-/
import proofs.«147065_j51737176047725_2_alg».proof.Proof.Gen.ReferenceIdeal
import proofs.«147065_j51737176047725_2_alg».proof.Proof.ConvPad

noncomputable section

namespace Cert.ReferenceIdeal.RefValue

open Cert.ReferenceIdeal Cert.ReferenceIdeal.Gen Idealize.ShloMosaic

/-! ## The edge list: the given edges followed by one self-loop per node -/

/-- The source rows: row 0 of the edge array, then the nodes `0 … 99999` themselves. -/
def src (ei : IVec S2x3200000 32) : IVec S3300000 32 :=
  concatenate S3300000 0
    [⟨S3200000, shapeCast S3200000 (extractStridedSlice S1x3200000 ![0, 0] ei slices_S2x3200000_S1x3200000_0_0)
        shapeCasts_S1x3200000_S3200000⟩,
     ⟨S100000, iotaInDim S100000 32 0⟩] concatenates_S3200000_S100000_S3300000_d0

/-- The destination rows: row 1 of the edge array, then the nodes themselves. -/
def dst (ei : IVec S2x3200000 32) : IVec S3300000 32 :=
  concatenate S3300000 0
    [⟨S3200000, shapeCast S3200000 (extractStridedSlice S1x3200000 ![1, 0] ei slices_S2x3200000_S1x3200000_1_0)
        shapeCasts_S1x3200000_S3200000⟩,
     ⟨S100000, iotaInDim S100000 32 0⟩] concatenates_S3200000_S100000_S3300000_d0

/-! ## The symmetric normalisation -/

/-- The in-degree of every node: a `1` added at each edge's destination row. -/
def deg (ei : IVec S2x3200000 32) : FVec Ideal S100000 .f32 :=
  Host.scatterAdd (F := Ideal) (φ := .f32) scatter_S100000_S3300000x1_S3300000_n_0_0_1
    (broadcastInDim S100000 ![] bcast_S_S100000 (constant (F := Ideal) S_ .f32 0x00000000#32))
    (broadcastInDim S3300000x1 ![0] bcast_S3300000_S3300000x1_0 (dst ei))
    (broadcastInDim S3300000 ![] bcast_S_S3300000 (constant (F := Ideal) S_ .f32 0x3F800000#32))

/-- `deg ^ (-1/2)` where the degree is positive, `0` elsewhere. -/
def dinv (ei : IVec S2x3200000 32) : FVec Ideal S100000 .f32 :=
  select
    (cmpf (F := Ideal) (φ := .f32) .ogt (deg ei)
      (broadcastInDim S100000 ![] bcast_S_S100000 (constant (F := Ideal) S_ .f32 0x00000000#32)))
    (Host.rsqrt (F := Ideal) (φ := .f32) (deg ei))
    (broadcastInDim S100000 ![] bcast_S_S100000 (constant (F := Ideal) S_ .f32 0x00000000#32))

/-- The weight of edge `e`: `dinv` at its (wrapped) source row times `dinv` at its (wrapped) destination row. -/
def nrm (ei : IVec S2x3200000 32) : FVec Ideal S3300000 .f32 :=
  mulf (F := Ideal) (φ := .f32)
    (Host.gather gather_S100000_S3300000x1_S3300000_n_0_n_n_0_1_1 (dinv ei)
      (broadcastInDim S3300000x1 ![0] bcast_S3300000_S3300000x1_0
        (Cert.ConvPad.wrap bcast_S_S3300000 100000#32 (src ei))))
    (Host.gather gather_S100000_S3300000x1_S3300000_n_0_n_n_0_1_1 (dinv ei)
      (broadcastInDim S3300000x1 ![0] bcast_S3300000_S3300000x1_0
        (Cert.ConvPad.wrap bcast_S_S3300000 100000#32 (dst ei))))

/-! ## The aggregation, at the three feature widths -/

/-- One aggregation over width 8: gather the rows of `hw` named by the wrapped source rows, scale row `e` by the
    edge weight `nrm e`, add into the zero array at the destination rows. -/
def agg8 (ei : IVec S2x3200000 32) (hw : FVec Ideal S100000x8 .f32) : FVec Ideal S100000x8 .f32 :=
  Host.scatterAdd (F := Ideal) (φ := .f32) scatter_S100000x8_S3300000x1_S3300000x8_1_0_0_1
    (broadcastInDim S100000x8 ![] bcast_S_S100000x8 (constant (F := Ideal) S_ .f32 0x00000000#32))
    (broadcastInDim S3300000x1 ![0] bcast_S3300000_S3300000x1_0 (dst ei))
    (mulf (F := Ideal) (φ := .f32)
      (Host.gather gather_S100000x8_S3300000x1_S3300000x8_1_0_n_n_0_1_18 hw
        (broadcastInDim S3300000x1 ![0] bcast_S3300000_S3300000x1_0
          (Cert.ConvPad.wrap bcast_S_S3300000 100000#32 (src ei))))
      (broadcastInDim S3300000x8 ![0, 1] bcast_S3300000x1_S3300000x8_0_1
        (broadcastInDim S3300000x1 ![0] bcast_S3300000_S3300000x1_0 (nrm ei))))

/-- The bias row `[8]` repeated down the `100000` rows. -/
def bias8 (b : FVec Ideal S8 .f32) : FVec Ideal S100000x8 .f32 :=
  broadcastInDim S100000x8 ![0, 1] bcast_S1x8_S100000x8_0_1 (broadcastInDim S1x8 ![1] bcast_S8_S1x8_1 b)

/-- One aggregation over width 2: gather the rows of `hw` named by the wrapped source rows, scale row `e` by the
    edge weight `nrm e`, add into the zero array at the destination rows. -/
def agg2 (ei : IVec S2x3200000 32) (hw : FVec Ideal S100000x2 .f32) : FVec Ideal S100000x2 .f32 :=
  Host.scatterAdd (F := Ideal) (φ := .f32) scatter_S100000x2_S3300000x1_S3300000x2_1_0_0_1
    (broadcastInDim S100000x2 ![] bcast_S_S100000x2 (constant (F := Ideal) S_ .f32 0x00000000#32))
    (broadcastInDim S3300000x1 ![0] bcast_S3300000_S3300000x1_0 (dst ei))
    (mulf (F := Ideal) (φ := .f32)
      (Host.gather gather_S100000x2_S3300000x1_S3300000x2_1_0_n_n_0_1_12 hw
        (broadcastInDim S3300000x1 ![0] bcast_S3300000_S3300000x1_0
          (Cert.ConvPad.wrap bcast_S_S3300000 100000#32 (src ei))))
      (broadcastInDim S3300000x2 ![0, 1] bcast_S3300000x1_S3300000x2_0_1
        (broadcastInDim S3300000x1 ![0] bcast_S3300000_S3300000x1_0 (nrm ei))))

/-- The bias row `[2]` repeated down the `100000` rows. -/
def bias2 (b : FVec Ideal S2 .f32) : FVec Ideal S100000x2 .f32 :=
  broadcastInDim S100000x2 ![0, 1] bcast_S1x2_S100000x2_0_1 (broadcastInDim S1x2 ![1] bcast_S2_S1x2_1 b)

/-- One aggregation over width 15: gather the rows of `hw` named by the wrapped source rows, scale row `e` by the
    edge weight `nrm e`, add into the zero array at the destination rows. -/
def agg15 (ei : IVec S2x3200000 32) (hw : FVec Ideal S100000x15 .f32) : FVec Ideal S100000x15 .f32 :=
  Host.scatterAdd (F := Ideal) (φ := .f32) scatter_S100000x15_S3300000x1_S3300000x15_1_0_0_1
    (broadcastInDim S100000x15 ![] bcast_S_S100000x15 (constant (F := Ideal) S_ .f32 0x00000000#32))
    (broadcastInDim S3300000x1 ![0] bcast_S3300000_S3300000x1_0 (dst ei))
    (mulf (F := Ideal) (φ := .f32)
      (Host.gather gather_S100000x15_S3300000x1_S3300000x15_1_0_n_n_0_1_115 hw
        (broadcastInDim S3300000x1 ![0] bcast_S3300000_S3300000x1_0
          (Cert.ConvPad.wrap bcast_S_S3300000 100000#32 (src ei))))
      (broadcastInDim S3300000x15 ![0, 1] bcast_S3300000x1_S3300000x15_0_1
        (broadcastInDim S3300000x1 ![0] bcast_S3300000_S3300000x1_0 (nrm ei))))

/-- The bias row `[15]` repeated down the `100000` rows. -/
def bias15 (b : FVec Ideal S15 .f32) : FVec Ideal S100000x15 .f32 :=
  broadcastInDim S100000x15 ![0, 1] bcast_S1x15_S100000x15_0_1 (broadcastInDim S1x15 ![1] bcast_S15_S1x15_1 b)

/-- The positive part, entry by entry. -/
def relu8 (h : FVec Ideal S100000x8 .f32) : FVec Ideal S100000x8 .f32 :=
  maximumf (F := Ideal) (φ := .f32) h
    (broadcastInDim S100000x8 ![] bcast_S_S100000x8 (constant (F := Ideal) S_ .f32 0x00000000#32))

/-! ## The six layers and the mean squared error -/

/-- A hidden layer of width 8: aggregate the transformed features, add the bias, take the positive part. -/
def layer8 (ei : IVec S2x3200000 32) (hw : FVec Ideal S100000x8 .f32) (b : FVec Ideal S8 .f32) :
    FVec Ideal S100000x8 .f32 :=
  relu8 (addf (F := Ideal) (φ := .f32) (agg8 ei hw) (bias8 b))

/-- The bottleneck layer of width 2: aggregate and add the bias. -/
def layer2 (ei : IVec S2x3200000 32) (hw : FVec Ideal S100000x2 .f32) (b : FVec Ideal S2 .f32) :
    FVec Ideal S100000x2 .f32 :=
  addf (F := Ideal) (φ := .f32) (agg2 ei hw) (bias2 b)

/-- The output layer of width 15: aggregate and add the bias. -/
def layer15 (ei : IVec S2x3200000 32) (hw : FVec Ideal S100000x15 .f32) (b : FVec Ideal S15 .f32) :
    FVec Ideal S100000x15 .f32 :=
  addf (F := Ideal) (φ := .f32) (agg15 ei hw) (bias15 b)

/-- After layer 1 (15 → 8). -/
def h1 (x : FVec Ideal S100000x15 .f32) (ei : IVec S2x3200000 32) (W1 : FVec Ideal S15x8 .f32) (b1 : FVec Ideal S8 .f32) : FVec Ideal S100000x8 .f32 :=
  layer8 ei (Host.dotGeneral (F := Ideal) dot_S100000x15_S15x8_S100000x8_1_0_0_1_n_n none x W1) b1

/-- After layer 2 (8 → 8). -/
def h2 (x : FVec Ideal S100000x15 .f32) (ei : IVec S2x3200000 32) (W1 : FVec Ideal S15x8 .f32) (b1 : FVec Ideal S8 .f32) (W2 : FVec Ideal S8x8 .f32) (b2 : FVec Ideal S8 .f32) : FVec Ideal S100000x8 .f32 :=
  layer8 ei (Host.dotGeneral (F := Ideal) dot_S100000x8_S8x8_S100000x8_1_0_0_1_n_n none (h1 x ei W1 b1) W2) b2

/-- After layer 3 (8 → 2), the bottleneck: no positive part is taken. -/
def h3 (x : FVec Ideal S100000x15 .f32) (ei : IVec S2x3200000 32) (W1 : FVec Ideal S15x8 .f32) (b1 : FVec Ideal S8 .f32) (W2 : FVec Ideal S8x8 .f32) (b2 : FVec Ideal S8 .f32) (W3 : FVec Ideal S8x2 .f32) (b3 : FVec Ideal S2 .f32) : FVec Ideal S100000x2 .f32 :=
  layer2 ei (Host.dotGeneral (F := Ideal) dot_S100000x8_S8x2_S100000x2_1_0_0_1_n_n none (h2 x ei W1 b1 W2 b2) W3) b3

/-- After layer 4 (2 → 8). -/
def h4 (x : FVec Ideal S100000x15 .f32) (ei : IVec S2x3200000 32) (W1 : FVec Ideal S15x8 .f32) (b1 : FVec Ideal S8 .f32) (W2 : FVec Ideal S8x8 .f32) (b2 : FVec Ideal S8 .f32) (W3 : FVec Ideal S8x2 .f32) (b3 : FVec Ideal S2 .f32) (W4 : FVec Ideal S2x8 .f32) (b4 : FVec Ideal S8 .f32) : FVec Ideal S100000x8 .f32 :=
  layer8 ei (Host.dotGeneral (F := Ideal) dot_S100000x2_S2x8_S100000x8_1_0_0_1_n_n none (h3 x ei W1 b1 W2 b2 W3 b3) W4) b4

/-- After layer 5 (8 → 8). -/
def h5 (x : FVec Ideal S100000x15 .f32) (ei : IVec S2x3200000 32) (W1 : FVec Ideal S15x8 .f32) (b1 : FVec Ideal S8 .f32) (W2 : FVec Ideal S8x8 .f32) (b2 : FVec Ideal S8 .f32) (W3 : FVec Ideal S8x2 .f32) (b3 : FVec Ideal S2 .f32) (W4 : FVec Ideal S2x8 .f32) (b4 : FVec Ideal S8 .f32) (W5 : FVec Ideal S8x8 .f32) (b5 : FVec Ideal S8 .f32) : FVec Ideal S100000x8 .f32 :=
  layer8 ei (Host.dotGeneral (F := Ideal) dot_S100000x8_S8x8_S100000x8_1_0_0_1_n_n none (h4 x ei W1 b1 W2 b2 W3 b3 W4 b4) W5) b5

/-- The reconstruction of the node features, after layer 6 (8 → 15): no positive part is taken. -/
def recon (x : FVec Ideal S100000x15 .f32) (ei : IVec S2x3200000 32) (W1 : FVec Ideal S15x8 .f32) (b1 : FVec Ideal S8 .f32) (W2 : FVec Ideal S8x8 .f32) (b2 : FVec Ideal S8 .f32) (W3 : FVec Ideal S8x2 .f32) (b3 : FVec Ideal S2 .f32) (W4 : FVec Ideal S2x8 .f32) (b4 : FVec Ideal S8 .f32) (W5 : FVec Ideal S8x8 .f32) (b5 : FVec Ideal S8 .f32) (W6 : FVec Ideal S8x15 .f32) (b6 : FVec Ideal S15 .f32) : FVec Ideal S100000x15 .f32 :=
  layer15 ei (Host.dotGeneral (F := Ideal) dot_S100000x8_S8x15_S100000x15_1_0_0_1_n_n none (h5 x ei W1 b1 W2 b2 W3 b3 W4 b4 W5 b5) W6) b6

/-- THE REFERENCE'S VALUE: per node, the mean over the 15 features of the squared difference between the features
    and their reconstruction. -/
def refVal (x : FVec Ideal S100000x15 .f32) (ei : IVec S2x3200000 32) (W1 : FVec Ideal S15x8 .f32) (b1 : FVec Ideal S8 .f32) (W2 : FVec Ideal S8x8 .f32) (b2 : FVec Ideal S8 .f32) (W3 : FVec Ideal S8x2 .f32) (b3 : FVec Ideal S2 .f32) (W4 : FVec Ideal S2x8 .f32) (b4 : FVec Ideal S8 .f32) (W5 : FVec Ideal S8x8 .f32) (b5 : FVec Ideal S8 .f32) (W6 : FVec Ideal S8x15 .f32) (b6 : FVec Ideal S15 .f32) : FVec Ideal S100000 .f32 :=
  Host.divf (F := Ideal) (φ := .f32)
    (Host.reduceAdd (F := Ideal) (φ := .f32)
      (mulf (F := Ideal) (φ := .f32)
        (subf (F := Ideal) (φ := .f32) x (recon x ei W1 b1 W2 b2 W3 b3 W4 b4 W5 b5 W6 b6))
        (subf (F := Ideal) (φ := .f32) x (recon x ei W1 b1 W2 b2 W3 b3 W4 b4 W5 b5 W6 b6)))
      (constant (F := Ideal) S_ .f32 0x00000000#32) reducesTo_S100000x15_S100000_d1 h_S_)
    (broadcastInDim S100000 ![] bcast_S_S100000 (constant (F := Ideal) S_ .f32 0x41700000#32))

end Cert.ReferenceIdeal.RefValue

end
-- ==== Proof.RefFold.lean ====
/-
  The reference program's run, evaluated.  The generated operation list (179 host operations) is cut into fourteen
  consecutive pieces; the buffers after each cut are named, and for each cut the few buffers that later pieces read
  are computed from the previous cut's: the edge list with self-loops, the degrees, their inverse square roots,
  the edge weights, the six layers, and last the per-node mean squared error.  Composed, the result buffer holds
  `refVal` of the arguments.  The function-call operations of the list are spelt here as the plain operations they
  abbreviate (the equality with the generated list is checked by `ops_split`).
-/
import proofs.«147065_j51737176047725_2_alg».proof.Proof.RefRunBase
import proofs.«147065_j51737176047725_2_alg».proof.Proof.RefValue

-- one declaration at a time: each evaluation holds its piece's composed term while it runs
set_option Elab.async false

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.RefRun

/-! ## The operation list cut into consecutive pieces -/

section Pieces
variable {F : FTy → Type} [FloatOps F]

/-- Operations 1 to 3 of @main. -/
abbrev opsP1a : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000 ]

/-- Operations 4 to 4 of @main. -/
abbrev opsP1b : List (HloOp τ sig (Elt F)) :=
  [ binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 5 to 6 of @main. -/
abbrev opsP1c : List (HloOp τ sig (Elt F)) :=
  [ unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000 ]

/-- Operations 7 to 7 of @main. -/
abbrev opsP1d : List (HloOp τ sig (Elt F)) :=
  [ binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 8 to 13 of @main. -/
abbrev opsP2 : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- Operations 14 to 21 of @main. -/
abbrev opsP3 : List (HloOp τ sig (Elt F)) :=
  [ nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- Operations 22 to 40 of @main. -/
abbrev opsP4 : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Operations 41 to 63 of @main. -/
abbrev opsL1 : List (HloOp τ sig (Elt F)) :=
  [ binary main_arg0 main_arg2 main_v30 ((fun l r => Host.dotGeneral dot_S100000x15_S15x8_S100000x8_1_0_0_1_n_n none l r) : (⟨S100000x15, .f32⟩ : BufTy).Contents (Elt F) → (⟨S15x8, .f32⟩ : BufTy).Contents (Elt F) → (⟨S100000x8, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x8 ![0, 1] bcast_S3300000x1_S3300000x8_0_1 : (⟨S3300000x1, .f32⟩ : BufTy).Contents (Elt F) → (⟨S3300000x8, .f32⟩ : BufTy).Contents (Elt F)),
    binary main_v37 main_v39 main_v40 (mulf : (⟨S3300000x8, .f32⟩ : BufTy).Contents (Elt F) → (⟨S3300000x8, .f32⟩ : BufTy).Contents (Elt F) → (⟨S3300000x8, .f32⟩ : BufTy).Contents (Elt F)),
    nullary main_cst_8 (constant S_ .f32 0x00000000#32),
    unary main_cst_8 main_v41 (broadcastInDim S100000x8 ![] bcast_S_S100000x8 : (⟨S_, .f32⟩ : BufTy).Contents (Elt F) → (⟨S100000x8, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg3 main_v44 (broadcastInDim S1x8 ![1] bcast_S8_S1x8_1 : (⟨S8, .f32⟩ : BufTy).Contents (Elt F) → (⟨S1x8, .f32⟩ : BufTy).Contents (Elt F)),
    unary main_v44 main_v45 (broadcastInDim S100000x8 ![0, 1] bcast_S1x8_S100000x8_0_1 : (⟨S1x8, .f32⟩ : BufTy).Contents (Elt F) → (⟨S100000x8, .f32⟩ : BufTy).Contents (Elt F)),
    binary main_v43 main_v45 main_v46 (addf : (⟨S100000x8, .f32⟩ : BufTy).Contents (Elt F) → (⟨S100000x8, .f32⟩ : BufTy).Contents (Elt F) → (⟨S100000x8, .f32⟩ : BufTy).Contents (Elt F)),
    nullary main_call1_cst (constant S_ .f32 0x00000000#32),
    unary main_call1_cst main_call1_v0 ((broadcastInDim S100000x8 ![] bcast_S_S100000x8) : (⟨S_, .f32⟩ : BufTy).Contents (Elt F) → (⟨S100000x8, .f32⟩ : BufTy).Contents (Elt F)),
    binary main_v46 main_call1_v0 main_v47 (maximumf : (⟨S100000x8, .f32⟩ : BufTy).Contents (Elt F) → (⟨S100000x8, .f32⟩ : BufTy).Contents (Elt F) → (⟨S100000x8, .f32⟩ : BufTy).Contents (Elt F)) ]

/-- Operations 64 to 86 of @main. -/
abbrev opsL2 : List (HloOp τ sig (Elt F)) :=
  [ binary main_v47 main_arg4 main_v48 ((fun l r => Host.dotGeneral dot_S100000x8_S8x8_S100000x8_1_0_0_1_n_n none l r) : (⟨S100000x8, .f32⟩ : BufTy).Contents (Elt F) → (⟨S8x8, .f32⟩ : BufTy).Contents (Elt F) → (⟨S100000x8, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x8 ![0, 1] bcast_S3300000x1_S3300000x8_0_1 : (⟨S3300000x1, .f32⟩ : BufTy).Contents (Elt F) → (⟨S3300000x8, .f32⟩ : BufTy).Contents (Elt F)),
    binary main_v55 main_v57 main_v58 (mulf : (⟨S3300000x8, .f32⟩ : BufTy).Contents (Elt F) → (⟨S3300000x8, .f32⟩ : BufTy).Contents (Elt F) → (⟨S3300000x8, .f32⟩ : BufTy).Contents (Elt F)),
    nullary main_cst_11 (constant S_ .f32 0x00000000#32),
    unary main_cst_11 main_v59 (broadcastInDim S100000x8 ![] bcast_S_S100000x8 : (⟨S_, .f32⟩ : BufTy).Contents (Elt F) → (⟨S100000x8, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg5 main_v62 (broadcastInDim S1x8 ![1] bcast_S8_S1x8_1 : (⟨S8, .f32⟩ : BufTy).Contents (Elt F) → (⟨S1x8, .f32⟩ : BufTy).Contents (Elt F)),
    unary main_v62 main_v63 (broadcastInDim S100000x8 ![0, 1] bcast_S1x8_S100000x8_0_1 : (⟨S1x8, .f32⟩ : BufTy).Contents (Elt F) → (⟨S100000x8, .f32⟩ : BufTy).Contents (Elt F)),
    binary main_v61 main_v63 main_v64 (addf : (⟨S100000x8, .f32⟩ : BufTy).Contents (Elt F) → (⟨S100000x8, .f32⟩ : BufTy).Contents (Elt F) → (⟨S100000x8, .f32⟩ : BufTy).Contents (Elt F)),
    nullary main_call2_cst (constant S_ .f32 0x00000000#32),
    unary main_call2_cst main_call2_v0 ((broadcastInDim S100000x8 ![] bcast_S_S100000x8) : (⟨S_, .f32⟩ : BufTy).Contents (Elt F) → (⟨S100000x8, .f32⟩ : BufTy).Contents (Elt F)),
    binary main_v64 main_call2_v0 main_v65 (maximumf : (⟨S100000x8, .f32⟩ : BufTy).Contents (Elt F) → (⟨S100000x8, .f32⟩ : BufTy).Contents (Elt F) → (⟨S100000x8, .f32⟩ : BufTy).Contents (Elt F)) ]

/-- Operations 87 to 106 of @main. -/
abbrev opsL3 : List (HloOp τ sig (Elt F)) :=
  [ binary main_v65 main_arg6 main_v66 ((fun l r => Host.dotGeneral dot_S100000x8_S8x2_S100000x2_1_0_0_1_n_n none l r) : (⟨S100000x8, .f32⟩ : BufTy).Contents (Elt F) → (⟨S8x2, .f32⟩ : BufTy).Contents (Elt F) → (⟨S100000x2, .f32⟩ : BufTy).Contents (Elt F)),
    nullary main_c_12 (constantI S_ 32 0#32),
    unary main_c_12 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v29 main_v74 (broadcastInDim S3300000x1 ![0] bcast_S3300000_S3300000x1_0 : (⟨S3300000, .f32⟩ : BufTy).Contents (Elt F) → (⟨S3300000x1, .f32⟩ : BufTy).Contents (Elt F)),
    unary main_v74 main_v75 (broadcastInDim S3300000x2 ![0, 1] bcast_S3300000x1_S3300000x2_0_1 : (⟨S3300000x1, .f32⟩ : BufTy).Contents (Elt F) → (⟨S3300000x2, .f32⟩ : BufTy).Contents (Elt F)),
    binary main_v73 main_v75 main_v76 (mulf : (⟨S3300000x2, .f32⟩ : BufTy).Contents (Elt F) → (⟨S3300000x2, .f32⟩ : BufTy).Contents (Elt F) → (⟨S3300000x2, .f32⟩ : BufTy).Contents (Elt F)),
    nullary main_cst_14 (constant S_ .f32 0x00000000#32),
    unary main_cst_14 main_v77 (broadcastInDim S100000x2 ![] bcast_S_S100000x2 : (⟨S_, .f32⟩ : BufTy).Contents (Elt F) → (⟨S100000x2, .f32⟩ : BufTy).Contents (Elt F)),
    unary main_v6 main_v78 (broadcastInDim S3300000x1 ![0] bcast_S3300000_S3300000x1_0 : (⟨S3300000, .i32⟩ : BufTy).Contents (Elt F) → (⟨S3300000x1, .i32⟩ : BufTy).Contents (Elt F)),
    ternary main_v77 main_v78 main_v76 main_v79 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg7 main_v80 (broadcastInDim S1x2 ![1] bcast_S2_S1x2_1 : (⟨S2, .f32⟩ : BufTy).Contents (Elt F) → (⟨S1x2, .f32⟩ : BufTy).Contents (Elt F)),
    unary main_v80 main_v81 (broadcastInDim S100000x2 ![0, 1] bcast_S1x2_S100000x2_0_1 : (⟨S1x2, .f32⟩ : BufTy).Contents (Elt F) → (⟨S100000x2, .f32⟩ : BufTy).Contents (Elt F)),
    binary main_v79 main_v81 main_v82 (addf : (⟨S100000x2, .f32⟩ : BufTy).Contents (Elt F) → (⟨S100000x2, .f32⟩ : BufTy).Contents (Elt F) → (⟨S100000x2, .f32⟩ : BufTy).Contents (Elt F)) ]

/-- Operations 107 to 129 of @main. -/
abbrev opsL4 : List (HloOp τ sig (Elt F)) :=
  [ binary main_v82 main_arg8 main_v83 ((fun l r => Host.dotGeneral dot_S100000x2_S2x8_S100000x8_1_0_0_1_n_n none l r) : (⟨S100000x2, .f32⟩ : BufTy).Contents (Elt F) → (⟨S2x8, .f32⟩ : BufTy).Contents (Elt F) → (⟨S100000x8, .f32⟩ : BufTy).Contents (Elt F)),
    nullary main_c_15 (constantI S_ 32 0#32),
    unary main_c_15 main_v84 (broadcastInDim S3300000 ![] bcast_S_S3300000 : (⟨S_, .i32⟩ : BufTy).Contents (Elt F) → (⟨S3300000, .i32⟩ : BufTy).Contents (Elt F)),
    binary main_v3 main_v84 main_v85 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v86 (broadcastInDim S3300000 ![] bcast_S_S3300000 : (⟨S_, .i32⟩ : BufTy).Contents (Elt F) → (⟨S3300000, .i32⟩ : BufTy).Contents (Elt F)),
    binary main_v3 main_v86 main_v87 (addi : (⟨S3300000, .i32⟩ : BufTy).Contents (Elt F) → (⟨S3300000, .i32⟩ : BufTy).Contents (Elt F) → (⟨S3300000, .i32⟩ : BufTy).Contents (Elt F)),
    ternary main_v85 main_v87 main_v3 main_v88 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v88 main_v89 (broadcastInDim S3300000x1 ![0] bcast_S3300000_S3300000x1_0 : (⟨S3300000, .i32⟩ : BufTy).Contents (Elt F) → (⟨S3300000x1, .i32⟩ : BufTy).Contents (Elt F)),
    binary main_v83 main_v89 main_v90 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v29 main_v91 (broadcastInDim S3300000x1 ![0] bcast_S3300000_S3300000x1_0 : (⟨S3300000, .f32⟩ : BufTy).Contents (Elt F) → (⟨S3300000x1, .f32⟩ : BufTy).Contents (Elt F)),
    unary main_v91 main_v92 (broadcastInDim S3300000x8 ![0, 1] bcast_S3300000x1_S3300000x8_0_1 : (⟨S3300000x1, .f32⟩ : BufTy).Contents (Elt F) → (⟨S3300000x8, .f32⟩ : BufTy).Contents (Elt F)),
    binary main_v90 main_v92 main_v93 (mulf : (⟨S3300000x8, .f32⟩ : BufTy).Contents (Elt F) → (⟨S3300000x8, .f32⟩ : BufTy).Contents (Elt F) → (⟨S3300000x8, .f32⟩ : BufTy).Contents (Elt F)),
    nullary main_cst_17 (constant S_ .f32 0x00000000#32),
    unary main_cst_17 main_v94 (broadcastInDim S100000x8 ![] bcast_S_S100000x8 : (⟨S_, .f32⟩ : BufTy).Contents (Elt F) → (⟨S100000x8, .f32⟩ : BufTy).Contents (Elt F)),
    unary main_v6 main_v95 (broadcastInDim S3300000x1 ![0] bcast_S3300000_S3300000x1_0 : (⟨S3300000, .i32⟩ : BufTy).Contents (Elt F) → (⟨S3300000x1, .i32⟩ : BufTy).Contents (Elt F)),
    ternary main_v94 main_v95 main_v93 main_v96 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg9 main_v97 (broadcastInDim S1x8 ![1] bcast_S8_S1x8_1 : (⟨S8, .f32⟩ : BufTy).Contents (Elt F) → (⟨S1x8, .f32⟩ : BufTy).Contents (Elt F)),
    unary main_v97 main_v98 (broadcastInDim S100000x8 ![0, 1] bcast_S1x8_S100000x8_0_1 : (⟨S1x8, .f32⟩ : BufTy).Contents (Elt F) → (⟨S100000x8, .f32⟩ : BufTy).Contents (Elt F)),
    binary main_v96 main_v98 main_v99 (addf : (⟨S100000x8, .f32⟩ : BufTy).Contents (Elt F) → (⟨S100000x8, .f32⟩ : BufTy).Contents (Elt F) → (⟨S100000x8, .f32⟩ : BufTy).Contents (Elt F)),
    nullary main_call3_cst (constant S_ .f32 0x00000000#32),
    unary main_call3_cst main_call3_v0 ((broadcastInDim S100000x8 ![] bcast_S_S100000x8) : (⟨S_, .f32⟩ : BufTy).Contents (Elt F) → (⟨S100000x8, .f32⟩ : BufTy).Contents (Elt F)),
    binary main_v99 main_call3_v0 main_v100 (maximumf : (⟨S100000x8, .f32⟩ : BufTy).Contents (Elt F) → (⟨S100000x8, .f32⟩ : BufTy).Contents (Elt F) → (⟨S100000x8, .f32⟩ : BufTy).Contents (Elt F)) ]

/-- Operations 130 to 152 of @main. -/
abbrev opsL5 : List (HloOp τ sig (Elt F)) :=
  [ binary main_v100 main_arg10 main_v101 ((fun l r => Host.dotGeneral dot_S100000x8_S8x8_S100000x8_1_0_0_1_n_n none l r) : (⟨S100000x8, .f32⟩ : BufTy).Contents (Elt F) → (⟨S8x8, .f32⟩ : BufTy).Contents (Elt F) → (⟨S100000x8, .f32⟩ : BufTy).Contents (Elt F)),
    nullary main_c_18 (constantI S_ 32 0#32),
    unary main_c_18 main_v102 (broadcastInDim S3300000 ![] bcast_S_S3300000 : (⟨S_, .i32⟩ : BufTy).Contents (Elt F) → (⟨S3300000, .i32⟩ : BufTy).Contents (Elt F)),
    binary main_v3 main_v102 main_v103 (cmpi .slt : (⟨S3300000, .i32⟩ : BufTy).Contents (Elt F) → (⟨S3300000, .i32⟩ : BufTy).Contents (Elt F) → (⟨S3300000, .i1⟩ : BufTy).Contents (Elt F)),
    nullary main_c_19 (constantI S_ 32 100000#32),
    unary main_c_19 main_v104 (broadcastInDim S3300000 ![] bcast_S_S3300000 : (⟨S_, .i32⟩ : BufTy).Contents (Elt F) → (⟨S3300000, .i32⟩ : BufTy).Contents (Elt F)),
    binary main_v3 main_v104 main_v105 (addi : (⟨S3300000, .i32⟩ : BufTy).Contents (Elt F) → (⟨S3300000, .i32⟩ : BufTy).Contents (Elt F) → (⟨S3300000, .i32⟩ : BufTy).Contents (Elt F)),
    ternary main_v103 main_v105 main_v3 main_v106 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v106 main_v107 (broadcastInDim S3300000x1 ![0] bcast_S3300000_S3300000x1_0 : (⟨S3300000, .i32⟩ : BufTy).Contents (Elt F) → (⟨S3300000x1, .i32⟩ : BufTy).Contents (Elt F)),
    binary main_v101 main_v107 main_v108 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v29 main_v109 (broadcastInDim S3300000x1 ![0] bcast_S3300000_S3300000x1_0 : (⟨S3300000, .f32⟩ : BufTy).Contents (Elt F) → (⟨S3300000x1, .f32⟩ : BufTy).Contents (Elt F)),
    unary main_v109 main_v110 (broadcastInDim S3300000x8 ![0, 1] bcast_S3300000x1_S3300000x8_0_1 : (⟨S3300000x1, .f32⟩ : BufTy).Contents (Elt F) → (⟨S3300000x8, .f32⟩ : BufTy).Contents (Elt F)),
    binary main_v108 main_v110 main_v111 (mulf : (⟨S3300000x8, .f32⟩ : BufTy).Contents (Elt F) → (⟨S3300000x8, .f32⟩ : BufTy).Contents (Elt F) → (⟨S3300000x8, .f32⟩ : BufTy).Contents (Elt F)),
    nullary main_cst_20 (constant S_ .f32 0x00000000#32),
    unary main_cst_20 main_v112 (broadcastInDim S100000x8 ![] bcast_S_S100000x8 : (⟨S_, .f32⟩ : BufTy).Contents (Elt F) → (⟨S100000x8, .f32⟩ : BufTy).Contents (Elt F)),
    unary main_v6 main_v113 (broadcastInDim S3300000x1 ![0] bcast_S3300000_S3300000x1_0 : (⟨S3300000, .i32⟩ : BufTy).Contents (Elt F) → (⟨S3300000x1, .i32⟩ : BufTy).Contents (Elt F)),
    ternary main_v112 main_v113 main_v111 main_v114 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg11 main_v115 (broadcastInDim S1x8 ![1] bcast_S8_S1x8_1 : (⟨S8, .f32⟩ : BufTy).Contents (Elt F) → (⟨S1x8, .f32⟩ : BufTy).Contents (Elt F)),
    unary main_v115 main_v116 (broadcastInDim S100000x8 ![0, 1] bcast_S1x8_S100000x8_0_1 : (⟨S1x8, .f32⟩ : BufTy).Contents (Elt F) → (⟨S100000x8, .f32⟩ : BufTy).Contents (Elt F)),
    binary main_v114 main_v116 main_v117 (addf : (⟨S100000x8, .f32⟩ : BufTy).Contents (Elt F) → (⟨S100000x8, .f32⟩ : BufTy).Contents (Elt F) → (⟨S100000x8, .f32⟩ : BufTy).Contents (Elt F)),
    nullary main_call4_cst (constant S_ .f32 0x00000000#32),
    unary main_call4_cst main_call4_v0 ((broadcastInDim S100000x8 ![] bcast_S_S100000x8) : (⟨S_, .f32⟩ : BufTy).Contents (Elt F) → (⟨S100000x8, .f32⟩ : BufTy).Contents (Elt F)),
    binary main_v117 main_call4_v0 main_v118 (maximumf : (⟨S100000x8, .f32⟩ : BufTy).Contents (Elt F) → (⟨S100000x8, .f32⟩ : BufTy).Contents (Elt F) → (⟨S100000x8, .f32⟩ : BufTy).Contents (Elt F)) ]

/-- Operations 153 to 172 of @main. -/
abbrev opsL6 : List (HloOp τ sig (Elt F)) :=
  [ binary main_v118 main_arg12 main_v119 ((fun l r => Host.dotGeneral dot_S100000x8_S8x15_S100000x15_1_0_0_1_n_n none l r) : (⟨S100000x8, .f32⟩ : BufTy).Contents (Elt F) → (⟨S8x15, .f32⟩ : BufTy).Contents (Elt F) → (⟨S100000x15, .f32⟩ : BufTy).Contents (Elt F)),
    nullary main_c_21 (constantI S_ 32 0#32),
    unary main_c_21 main_v120 (broadcastInDim S3300000 ![] bcast_S_S3300000 : (⟨S_, .i32⟩ : BufTy).Contents (Elt F) → (⟨S3300000, .i32⟩ : BufTy).Contents (Elt F)),
    binary main_v3 main_v120 main_v121 (cmpi .slt : (⟨S3300000, .i32⟩ : BufTy).Contents (Elt F) → (⟨S3300000, .i32⟩ : BufTy).Contents (Elt F) → (⟨S3300000, .i1⟩ : BufTy).Contents (Elt F)),
    nullary main_c_22 (constantI S_ 32 100000#32),
    unary main_c_22 main_v122 (broadcastInDim S3300000 ![] bcast_S_S3300000 : (⟨S_, .i32⟩ : BufTy).Contents (Elt F) → (⟨S3300000, .i32⟩ : BufTy).Contents (Elt F)),
    binary main_v3 main_v122 main_v123 (addi : (⟨S3300000, .i32⟩ : BufTy).Contents (Elt F) → (⟨S3300000, .i32⟩ : BufTy).Contents (Elt F) → (⟨S3300000, .i32⟩ : BufTy).Contents (Elt F)),
    ternary main_v121 main_v123 main_v3 main_v124 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v124 main_v125 (broadcastInDim S3300000x1 ![0] bcast_S3300000_S3300000x1_0 : (⟨S3300000, .i32⟩ : BufTy).Contents (Elt F) → (⟨S3300000x1, .i32⟩ : BufTy).Contents (Elt F)),
    binary main_v119 main_v125 main_v126 ((fun x i => Host.gather gather_S100000x15_S3300000x1_S3300000x15_1_0_n_n_0_1_115 x i) : (⟨S100000x15, .f32⟩ : BufTy).Contents (Elt F) → (⟨S3300000x1, .i32⟩ : BufTy).Contents (Elt F) → (⟨S3300000x15, .f32⟩ : BufTy).Contents (Elt F)),
    unary main_v29 main_v127 (broadcastInDim S3300000x1 ![0] bcast_S3300000_S3300000x1_0 : (⟨S3300000, .f32⟩ : BufTy).Contents (Elt F) → (⟨S3300000x1, .f32⟩ : BufTy).Contents (Elt F)),
    unary main_v127 main_v128 (broadcastInDim S3300000x15 ![0, 1] bcast_S3300000x1_S3300000x15_0_1 : (⟨S3300000x1, .f32⟩ : BufTy).Contents (Elt F) → (⟨S3300000x15, .f32⟩ : BufTy).Contents (Elt F)),
    binary main_v126 main_v128 main_v129 (mulf : (⟨S3300000x15, .f32⟩ : BufTy).Contents (Elt F) → (⟨S3300000x15, .f32⟩ : BufTy).Contents (Elt F) → (⟨S3300000x15, .f32⟩ : BufTy).Contents (Elt F)),
    nullary main_cst_23 (constant S_ .f32 0x00000000#32),
    unary main_cst_23 main_v130 (broadcastInDim S100000x15 ![] bcast_S_S100000x15 : (⟨S_, .f32⟩ : BufTy).Contents (Elt F) → (⟨S100000x15, .f32⟩ : BufTy).Contents (Elt F)),
    unary main_v6 main_v131 (broadcastInDim S3300000x1 ![0] bcast_S3300000_S3300000x1_0 : (⟨S3300000, .i32⟩ : BufTy).Contents (Elt F) → (⟨S3300000x1, .i32⟩ : BufTy).Contents (Elt F)),
    ternary main_v130 main_v131 main_v129 main_v132 ((fun x i u => Host.scatterAdd scatter_S100000x15_S3300000x1_S3300000x15_1_0_0_1 x i u) : (⟨S100000x15, .f32⟩ : BufTy).Contents (Elt F) → (⟨S3300000x1, .i32⟩ : BufTy).Contents (Elt F) → (⟨S3300000x15, .f32⟩ : BufTy).Contents (Elt F) → (⟨S100000x15, .f32⟩ : BufTy).Contents (Elt F)),
    unary main_arg13 main_v133 (broadcastInDim S1x15 ![1] bcast_S15_S1x15_1 : (⟨S15, .f32⟩ : BufTy).Contents (Elt F) → (⟨S1x15, .f32⟩ : BufTy).Contents (Elt F)),
    unary main_v133 main_v134 (broadcastInDim S100000x15 ![0, 1] bcast_S1x15_S100000x15_0_1 : (⟨S1x15, .f32⟩ : BufTy).Contents (Elt F) → (⟨S100000x15, .f32⟩ : BufTy).Contents (Elt F)),
    binary main_v132 main_v134 main_v135 (addf : (⟨S100000x15, .f32⟩ : BufTy).Contents (Elt F) → (⟨S100000x15, .f32⟩ : BufTy).Contents (Elt F) → (⟨S100000x15, .f32⟩ : BufTy).Contents (Elt F)) ]

/-- Operations 173 to 179 of @main. -/
abbrev opsT : List (HloOp τ sig (Elt F)) :=
  [ binary main_arg0 main_v135 main_v136 (subf : (⟨S100000x15, .f32⟩ : BufTy).Contents (Elt F) → (⟨S100000x15, .f32⟩ : BufTy).Contents (Elt F) → (⟨S100000x15, .f32⟩ : BufTy).Contents (Elt F)),
    binary main_v136 main_v136 main_v137 (mulf : (⟨S100000x15, .f32⟩ : BufTy).Contents (Elt F) → (⟨S100000x15, .f32⟩ : BufTy).Contents (Elt F) → (⟨S100000x15, .f32⟩ : BufTy).Contents (Elt F)),
    nullary main_cst_24 (constant S_ .f32 0x00000000#32),
    binary main_v137 main_cst_24 main_v138 ((fun x v => Host.reduceAdd x v reducesTo_S100000x15_S100000_d1 h_S_) : (⟨S100000x15, .f32⟩ : BufTy).Contents (Elt F) → (⟨S_, .f32⟩ : BufTy).Contents (Elt F) → (⟨S100000, .f32⟩ : BufTy).Contents (Elt F)),
    nullary main_cst_25 (constant S_ .f32 0x41700000#32),
    unary main_cst_25 main_v139 (broadcastInDim S100000 ![] bcast_S_S100000 : (⟨S_, .f32⟩ : BufTy).Contents (Elt F) → (⟨S100000, .f32⟩ : BufTy).Contents (Elt F)),
    binary main_v138 main_v139 main_v140 (Host.divf : (⟨S100000, .f32⟩ : BufTy).Contents (Elt F) → (⟨S100000, .f32⟩ : BufTy).Contents (Elt F) → (⟨S100000, .f32⟩ : BufTy).Contents (Elt F)) ]

set_option maxRecDepth 65536 in
theorem ops_split : (ops (F := F)) = opsP1a ++ (opsP1b ++ (opsP1c ++ (opsP1d ++ (opsP2 ++ (opsP3 ++ (opsP4 ++ (opsL1 ++ (opsL2 ++ (opsL3 ++ (opsL4 ++ (opsL5 ++ (opsL6 ++ (opsT))))))))))))) := rfl

end Pieces

/-! ## What the buffers that later pieces read hold after each piece -/

/-- The buffers after the first 3 operations. -/
def V1 (m : (ℓ : Loc nD τ sig) → Buf (Elt Ideal) ℓ) (c : Dev nD) : Valuation τ sig (Elt Ideal) :=
  after (opsP1a (F := Ideal)) (launchContents m c)

set_option maxRecDepth 65536 in
theorem V1_v0 (m : (ℓ : Loc nD τ sig) → Buf (Elt Ideal) ℓ) (c : Dev nD) :
    V1 m c (Proc.devRef .tc main_v0) = iotaInDim S100000 32 0 := by
  unfold V1; after_results_simp <;> rfl

set_option maxRecDepth 65536 in
theorem V1_v2 (m : (ℓ : Loc nD τ sig) → Buf (Elt Ideal) ℓ) (c : Dev nD) :
    V1 m c (Proc.devRef .tc main_v2) = shapeCast S3200000 (extractStridedSlice S1x3200000 ![0, 0] (m ((c.tc : Thread nD τ).loc main_arg1)) slices_S2x3200000_S1x3200000_0_0) shapeCasts_S1x3200000_S3200000 := by
  unfold V1; after_results_simp <;> rfl

theorem V1_arg0 (m : (ℓ : Loc nD τ sig) → Buf (Elt Ideal) ℓ) (c : Dev nD) :
    V1 m c (Proc.devRef .tc main_arg0) = m ((c.tc : Thread nD τ).loc main_arg0) := by
  unfold V1; after_results_simp <;> rfl

theorem V1_arg12 (m : (ℓ : Loc nD τ sig) → Buf (Elt Ideal) ℓ) (c : Dev nD) :
    V1 m c (Proc.devRef .tc main_arg12) = m ((c.tc : Thread nD τ).loc main_arg12) := by
  unfold V1; after_results_simp <;> rfl

theorem V1_arg13 (m : (ℓ : Loc nD τ sig) → Buf (Elt Ideal) ℓ) (c : Dev nD) :
    V1 m c (Proc.devRef .tc main_arg13) = m ((c.tc : Thread nD τ).loc main_arg13) := by
  unfold V1; after_results_simp <;> rfl

theorem V1_arg10 (m : (ℓ : Loc nD τ sig) → Buf (Elt Ideal) ℓ) (c : Dev nD) :
    V1 m c (Proc.devRef .tc main_arg10) = m ((c.tc : Thread nD τ).loc main_arg10) := by
  unfold V1; after_results_simp <;> rfl

theorem V1_arg11 (m : (ℓ : Loc nD τ sig) → Buf (Elt Ideal) ℓ) (c : Dev nD) :
    V1 m c (Proc.devRef .tc main_arg11) = m ((c.tc : Thread nD τ).loc main_arg11) := by
  unfold V1; after_results_simp <;> rfl

theorem V1_arg8 (m : (ℓ : Loc nD τ sig) → Buf (Elt Ideal) ℓ) (c : Dev nD) :
    V1 m c (Proc.devRef .tc main_arg8) = m ((c.tc : Thread nD τ).loc main_arg8) := by
  unfold V1; after_results_simp <;> rfl

theorem V1_arg9 (m : (ℓ : Loc nD τ sig) → Buf (Elt Ideal) ℓ) (c : Dev nD) :
    V1 m c (Proc.devRef .tc main_arg9) = m ((c.tc : Thread nD τ).loc main_arg9) := by
  unfold V1; after_results_simp <;> rfl

theorem V1_arg6 (m : (ℓ : Loc nD τ sig) → Buf (Elt Ideal) ℓ) (c : Dev nD) :
    V1 m c (Proc.devRef .tc main_arg6) = m ((c.tc : Thread nD τ).loc main_arg6) := by
  unfold V1; after_results_simp <;> rfl

theorem V1_arg7 (m : (ℓ : Loc nD τ sig) → Buf (Elt Ideal) ℓ) (c : Dev nD) :
    V1 m c (Proc.devRef .tc main_arg7) = m ((c.tc : Thread nD τ).loc main_arg7) := by
  unfold V1; after_results_simp <;> rfl

theorem V1_arg4 (m : (ℓ : Loc nD τ sig) → Buf (Elt Ideal) ℓ) (c : Dev nD) :
    V1 m c (Proc.devRef .tc main_arg4) = m ((c.tc : Thread nD τ).loc main_arg4) := by
  unfold V1; after_results_simp <;> rfl

theorem V1_arg5 (m : (ℓ : Loc nD τ sig) → Buf (Elt Ideal) ℓ) (c : Dev nD) :
    V1 m c (Proc.devRef .tc main_arg5) = m ((c.tc : Thread nD τ).loc main_arg5) := by
  unfold V1; after_results_simp <;> rfl

theorem V1_arg2 (m : (ℓ : Loc nD τ sig) → Buf (Elt Ideal) ℓ) (c : Dev nD) :
    V1 m c (Proc.devRef .tc main_arg2) = m ((c.tc : Thread nD τ).loc main_arg2) := by
  unfold V1; after_results_simp <;> rfl

theorem V1_arg3 (m : (ℓ : Loc nD τ sig) → Buf (Elt Ideal) ℓ) (c : Dev nD) :
    V1 m c (Proc.devRef .tc main_arg3) = m ((c.tc : Thread nD τ).loc main_arg3) := by
  unfold V1; after_results_simp <;> rfl

theorem V1_arg1 (m : (ℓ : Loc nD τ sig) → Buf (Elt Ideal) ℓ) (c : Dev nD) :
    V1 m c (Proc.devRef .tc main_arg1) = m ((c.tc : Thread nD τ).loc main_arg1) := by
  unfold V1; after_results_simp <;> rfl

/-- The buffers after the first 4 operations. -/
def V2 (m : (ℓ : Loc nD τ sig) → Buf (Elt Ideal) ℓ) (c : Dev nD) : Valuation τ sig (Elt Ideal) :=
  after (opsP1b (F := Ideal)) (V1 m c)

set_option maxRecDepth 65536 in
theorem V2_v3 (m : (ℓ : Loc nD τ sig) → Buf (Elt Ideal) ℓ) (c : Dev nD) :
    V2 m c (Proc.devRef .tc main_v3) = src (m ((c.tc : Thread nD τ).loc main_arg1)) := by
  unfold V2; after_results_simp
  rw [V1_v2 m c, V1_v0 m c]
  rfl

theorem V2_arg0 (m : (ℓ : Loc nD τ sig) → Buf (Elt Ideal) ℓ) (c : Dev nD) :
    V2 m c (Proc.devRef .tc main_arg0) = m ((c.tc : Thread nD τ).loc main_arg0) := by
  unfold V2; after_results_simp; exact V1_arg0 m c

theorem V2_arg12 (m : (ℓ : Loc nD τ sig) → Buf (Elt Ideal) ℓ) (c : Dev nD) :
    V2 m c (Proc.devRef .tc main_arg12) = m ((c.tc : Thread nD τ).loc main_arg12) := by
  unfold V2; after_results_simp; exact V1_arg12 m c

theorem V2_arg13 (m : (ℓ : Loc nD τ sig) → Buf (Elt Ideal) ℓ) (c : Dev nD) :
    V2 m c (Proc.devRef .tc main_arg13) = m ((c.tc : Thread nD τ).loc main_arg13) := by
  unfold V2; after_results_simp; exact V1_arg13 m c

theorem V2_arg10 (m : (ℓ : Loc nD τ sig) → Buf (Elt Ideal) ℓ) (c : Dev nD) :
    V2 m c (Proc.devRef .tc main_arg10) = m ((c.tc : Thread nD τ).loc main_arg10) := by
  unfold V2; after_results_simp; exact V1_arg10 m c

theorem V2_arg11 (m : (ℓ : Loc nD τ sig) → Buf (Elt Ideal) ℓ) (c : Dev nD) :
    V2 m c (Proc.devRef .tc main_arg11) = m ((c.tc : Thread nD τ).loc main_arg11) := by
  unfold V2; after_results_simp; exact V1_arg11 m c

theorem V2_arg8 (m : (ℓ : Loc nD τ sig) → Buf (Elt Ideal) ℓ) (c : Dev nD) :
    V2 m c (Proc.devRef .tc main_arg8) = m ((c.tc : Thread nD τ).loc main_arg8) := by
  unfold V2; after_results_simp; exact V1_arg8 m c

theorem V2_arg9 (m : (ℓ : Loc nD τ sig) → Buf (Elt Ideal) ℓ) (c : Dev nD) :
    V2 m c (Proc.devRef .tc main_arg9) = m ((c.tc : Thread nD τ).loc main_arg9) := by
  unfold V2; after_results_simp; exact V1_arg9 m c

theorem V2_arg6 (m : (ℓ : Loc nD τ sig) → Buf (Elt Ideal) ℓ) (c : Dev nD) :
    V2 m c (Proc.devRef .tc main_arg6) = m ((c.tc : Thread nD τ).loc main_arg6) := by
  unfold V2; after_results_simp; exact V1_arg6 m c

theorem V2_arg7 (m : (ℓ : Loc nD τ sig) → Buf (Elt Ideal) ℓ) (c : Dev nD) :
    V2 m c (Proc.devRef .tc main_arg7) = m ((c.tc : Thread nD τ).loc main_arg7) := by
  unfold V2; after_results_simp; exact V1_arg7 m c

theorem V2_arg4 (m : (ℓ : Loc nD τ sig) → Buf (Elt Ideal) ℓ) (c : Dev nD) :
    V2 m c (Proc.devRef .tc main_arg4) = m ((c.tc : Thread nD τ).loc main_arg4) := by
  unfold V2; after_results_simp; exact V1_arg4 m c

theorem V2_arg5 (m : (ℓ : Loc nD τ sig) → Buf (Elt Ideal) ℓ) (c : Dev nD) :
    V2 m c (Proc.devRef .tc main_arg5) = m ((c.tc : Thread nD τ).loc main_arg5) := by
  unfold V2; after_results_simp; exact V1_arg5 m c

theorem V2_arg2 (m : (ℓ : Loc nD τ sig) → Buf (Elt Ideal) ℓ) (c : Dev nD) :
    V2 m c (Proc.devRef .tc main_arg2) = m ((c.tc : Thread nD τ).loc main_arg2) := by
  unfold V2; after_results_simp; exact V1_arg2 m c

theorem V2_arg3 (m : (ℓ : Loc nD τ sig) → Buf (Elt Ideal) ℓ) (c : Dev nD) :
    V2 m c (Proc.devRef .tc main_arg3) = m ((c.tc : Thread nD τ).loc main_arg3) := by
  unfold V2; after_results_simp; exact V1_arg3 m c

theorem V2_v0 (m : (ℓ : Loc nD τ sig) → Buf (Elt Ideal) ℓ) (c : Dev nD) :
    V2 m c (Proc.devRef .tc main_v0) = iotaInDim S100000 32 0 := by
  unfold V2; after_results_simp; exact V1_v0 m c

theorem V2_arg1 (m : (ℓ : Loc nD τ sig) → Buf (Elt Ideal) ℓ) (c : Dev nD) :
    V2 m c (Proc.devRef .tc main_arg1) = m ((c.tc : Thread nD τ).loc main_arg1) := by
  unfold V2; after_results_simp; exact V1_arg1 m c

/-- The buffers after the first 6 operations. -/
def V3 (m : (ℓ : Loc nD τ sig) → Buf (Elt Ideal) ℓ) (c : Dev nD) : Valuation τ sig (Elt Ideal) :=
  after (opsP1c (F := Ideal)) (V2 m c)

set_option maxRecDepth 65536 in
theorem V3_v5 (m : (ℓ : Loc nD τ sig) → Buf (Elt Ideal) ℓ) (c : Dev nD) :
    V3 m c (Proc.devRef .tc main_v5) = shapeCast S3200000 (extractStridedSlice S1x3200000 ![1, 0] (m ((c.tc : Thread nD τ).loc main_arg1)) slices_S2x3200000_S1x3200000_1_0) shapeCasts_S1x3200000_S3200000 := by
  unfold V3; after_results_simp
  rw [V2_arg1 m c]
  rfl

theorem V3_arg0 (m : (ℓ : Loc nD τ sig) → Buf (Elt Ideal) ℓ) (c : Dev nD) :
    V3 m c (Proc.devRef .tc main_arg0) = m ((c.tc : Thread nD τ).loc main_arg0) := by
  unfold V3; after_results_simp; exact V2_arg0 m c

theorem V3_v3 (m : (ℓ : Loc nD τ sig) → Buf (Elt Ideal) ℓ) (c : Dev nD) :
    V3 m c (Proc.devRef .tc main_v3) = src (m ((c.tc : Thread nD τ).loc main_arg1)) := by
  unfold V3; after_results_simp; exact V2_v3 m c

theorem V3_arg12 (m : (ℓ : Loc nD τ sig) → Buf (Elt Ideal) ℓ) (c : Dev nD) :
    V3 m c (Proc.devRef .tc main_arg12) = m ((c.tc : Thread nD τ).loc main_arg12) := by
  unfold V3; after_results_simp; exact V2_arg12 m c

theorem V3_arg13 (m : (ℓ : Loc nD τ sig) → Buf (Elt Ideal) ℓ) (c : Dev nD) :
    V3 m c (Proc.devRef .tc main_arg13) = m ((c.tc : Thread nD τ).loc main_arg13) := by
  unfold V3; after_results_simp; exact V2_arg13 m c

theorem V3_arg10 (m : (ℓ : Loc nD τ sig) → Buf (Elt Ideal) ℓ) (c : Dev nD) :
    V3 m c (Proc.devRef .tc main_arg10) = m ((c.tc : Thread nD τ).loc main_arg10) := by
  unfold V3; after_results_simp; exact V2_arg10 m c

theorem V3_arg11 (m : (ℓ : Loc nD τ sig) → Buf (Elt Ideal) ℓ) (c : Dev nD) :
    V3 m c (Proc.devRef .tc main_arg11) = m ((c.tc : Thread nD τ).loc main_arg11) := by
  unfold V3; after_results_simp; exact V2_arg11 m c

theorem V3_arg8 (m : (ℓ : Loc nD τ sig) → Buf (Elt Ideal) ℓ) (c : Dev nD) :
    V3 m c (Proc.devRef .tc main_arg8) = m ((c.tc : Thread nD τ).loc main_arg8) := by
  unfold V3; after_results_simp; exact V2_arg8 m c

theorem V3_arg9 (m : (ℓ : Loc nD τ sig) → Buf (Elt Ideal) ℓ) (c : Dev nD) :
    V3 m c (Proc.devRef .tc main_arg9) = m ((c.tc : Thread nD τ).loc main_arg9) := by
  unfold V3; after_results_simp; exact V2_arg9 m c

theorem V3_arg6 (m : (ℓ : Loc nD τ sig) → Buf (Elt Ideal) ℓ) (c : Dev nD) :
    V3 m c (Proc.devRef .tc main_arg6) = m ((c.tc : Thread nD τ).loc main_arg6) := by
  unfold V3; after_results_simp; exact V2_arg6 m c

theorem V3_arg7 (m : (ℓ : Loc nD τ sig) → Buf (Elt Ideal) ℓ) (c : Dev nD) :
    V3 m c (Proc.devRef .tc main_arg7) = m ((c.tc : Thread nD τ).loc main_arg7) := by
  unfold V3; after_results_simp; exact V2_arg7 m c

theorem V3_arg4 (m : (ℓ : Loc nD τ sig) → Buf (Elt Ideal) ℓ) (c : Dev nD) :
    V3 m c (Proc.devRef .tc main_arg4) = m ((c.tc : Thread nD τ).loc main_arg4) := by
  unfold V3; after_results_simp; exact V2_arg4 m c

theorem V3_arg5 (m : (ℓ : Loc nD τ sig) → Buf (Elt Ideal) ℓ) (c : Dev nD) :
    V3 m c (Proc.devRef .tc main_arg5) = m ((c.tc : Thread nD τ).loc main_arg5) := by
  unfold V3; after_results_simp; exact V2_arg5 m c

theorem V3_arg2 (m : (ℓ : Loc nD τ sig) → Buf (Elt Ideal) ℓ) (c : Dev nD) :
    V3 m c (Proc.devRef .tc main_arg2) = m ((c.tc : Thread nD τ).loc main_arg2) := by
  unfold V3; after_results_simp; exact V2_arg2 m c

theorem V3_arg3 (m : (ℓ : Loc nD τ sig) → Buf (Elt Ideal) ℓ) (c : Dev nD) :
    V3 m c (Proc.devRef .tc main_arg3) = m ((c.tc : Thread nD τ).loc main_arg3) := by
  unfold V3; after_results_simp; exact V2_arg3 m c

theorem V3_v0 (m : (ℓ : Loc nD τ sig) → Buf (Elt Ideal) ℓ) (c : Dev nD) :
    V3 m c (Proc.devRef .tc main_v0) = iotaInDim S100000 32 0 := by
  unfold V3; after_results_simp; exact V2_v0 m c

/-- The buffers after the first 7 operations. -/
def V4 (m : (ℓ : Loc nD τ sig) → Buf (Elt Ideal) ℓ) (c : Dev nD) : Valuation τ sig (Elt Ideal) :=
  after (opsP1d (F := Ideal)) (V3 m c)

set_option maxRecDepth 65536 in
theorem V4_v6 (m : (ℓ : Loc nD τ sig) → Buf (Elt Ideal) ℓ) (c : Dev nD) :
    V4 m c (Proc.devRef .tc main_v6) = dst (m ((c.tc : Thread nD τ).loc main_arg1)) := by
  unfold V4; after_results_simp
  rw [V3_v5 m c, V3_v0 m c]
  rfl

theorem V4_arg0 (m : (ℓ : Loc nD τ sig) → Buf (Elt Ideal) ℓ) (c : Dev nD) :
    V4 m c (Proc.devRef .tc main_arg0) = m ((c.tc : Thread nD τ).loc main_arg0) := by
  unfold V4; after_results_simp; exact V3_arg0 m c

theorem V4_v3 (m : (ℓ : Loc nD τ sig) → Buf (Elt Ideal) ℓ) (c : Dev nD) :
    V4 m c (Proc.devRef .tc main_v3) = src (m ((c.tc : Thread nD τ).loc main_arg1)) := by
  unfold V4; after_results_simp; exact V3_v3 m c

theorem V4_arg12 (m : (ℓ : Loc nD τ sig) → Buf (Elt Ideal) ℓ) (c : Dev nD) :
    V4 m c (Proc.devRef .tc main_arg12) = m ((c.tc : Thread nD τ).loc main_arg12) := by
  unfold V4; after_results_simp; exact V3_arg12 m c

theorem V4_arg13 (m : (ℓ : Loc nD τ sig) → Buf (Elt Ideal) ℓ) (c : Dev nD) :
    V4 m c (Proc.devRef .tc main_arg13) = m ((c.tc : Thread nD τ).loc main_arg13) := by
  unfold V4; after_results_simp; exact V3_arg13 m c

theorem V4_arg10 (m : (ℓ : Loc nD τ sig) → Buf (Elt Ideal) ℓ) (c : Dev nD) :
    V4 m c (Proc.devRef .tc main_arg10) = m ((c.tc : Thread nD τ).loc main_arg10) := by
  unfold V4; after_results_simp; exact V3_arg10 m c

theorem V4_arg11 (m : (ℓ : Loc nD τ sig) → Buf (Elt Ideal) ℓ) (c : Dev nD) :
    V4 m c (Proc.devRef .tc main_arg11) = m ((c.tc : Thread nD τ).loc main_arg11) := by
  unfold V4; after_results_simp; exact V3_arg11 m c

theorem V4_arg8 (m : (ℓ : Loc nD τ sig) → Buf (Elt Ideal) ℓ) (c : Dev nD) :
    V4 m c (Proc.devRef .tc main_arg8) = m ((c.tc : Thread nD τ).loc main_arg8) := by
  unfold V4; after_results_simp; exact V3_arg8 m c

theorem V4_arg9 (m : (ℓ : Loc nD τ sig) → Buf (Elt Ideal) ℓ) (c : Dev nD) :
    V4 m c (Proc.devRef .tc main_arg9) = m ((c.tc : Thread nD τ).loc main_arg9) := by
  unfold V4; after_results_simp; exact V3_arg9 m c

theorem V4_arg6 (m : (ℓ : Loc nD τ sig) → Buf (Elt Ideal) ℓ) (c : Dev nD) :
    V4 m c (Proc.devRef .tc main_arg6) = m ((c.tc : Thread nD τ).loc main_arg6) := by
  unfold V4; after_results_simp; exact V3_arg6 m c

theorem V4_arg7 (m : (ℓ : Loc nD τ sig) → Buf (Elt Ideal) ℓ) (c : Dev nD) :
    V4 m c (Proc.devRef .tc main_arg7) = m ((c.tc : Thread nD τ).loc main_arg7) := by
  unfold V4; after_results_simp; exact V3_arg7 m c

theorem V4_arg4 (m : (ℓ : Loc nD τ sig) → Buf (Elt Ideal) ℓ) (c : Dev nD) :
    V4 m c (Proc.devRef .tc main_arg4) = m ((c.tc : Thread nD τ).loc main_arg4) := by
  unfold V4; after_results_simp; exact V3_arg4 m c

theorem V4_arg5 (m : (ℓ : Loc nD τ sig) → Buf (Elt Ideal) ℓ) (c : Dev nD) :
    V4 m c (Proc.devRef .tc main_arg5) = m ((c.tc : Thread nD τ).loc main_arg5) := by
  unfold V4; after_results_simp; exact V3_arg5 m c

theorem V4_arg2 (m : (ℓ : Loc nD τ sig) → Buf (Elt Ideal) ℓ) (c : Dev nD) :
    V4 m c (Proc.devRef .tc main_arg2) = m ((c.tc : Thread nD τ).loc main_arg2) := by
  unfold V4; after_results_simp; exact V3_arg2 m c

theorem V4_arg3 (m : (ℓ : Loc nD τ sig) → Buf (Elt Ideal) ℓ) (c : Dev nD) :
    V4 m c (Proc.devRef .tc main_arg3) = m ((c.tc : Thread nD τ).loc main_arg3) := by
  unfold V4; after_results_simp; exact V3_arg3 m c

/-- The buffers after the first 13 operations. -/
def V5 (m : (ℓ : Loc nD τ sig) → Buf (Elt Ideal) ℓ) (c : Dev nD) : Valuation τ sig (Elt Ideal) :=
  after (opsP2 (F := Ideal)) (V4 m c)

set_option maxRecDepth 65536 in
theorem V5_v10 (m : (ℓ : Loc nD τ sig) → Buf (Elt Ideal) ℓ) (c : Dev nD) :
    V5 m c (Proc.devRef .tc main_v10) = deg (m ((c.tc : Thread nD τ).loc main_arg1)) := by
  unfold V5; after_results_simp
  rw [V4_v6 m c]
  rfl

theorem V5_arg0 (m : (ℓ : Loc nD τ sig) → Buf (Elt Ideal) ℓ) (c : Dev nD) :
    V5 m c (Proc.devRef .tc main_arg0) = m ((c.tc : Thread nD τ).loc main_arg0) := by
  unfold V5; after_results_simp; exact V4_arg0 m c

theorem V5_v3 (m : (ℓ : Loc nD τ sig) → Buf (Elt Ideal) ℓ) (c : Dev nD) :
    V5 m c (Proc.devRef .tc main_v3) = src (m ((c.tc : Thread nD τ).loc main_arg1)) := by
  unfold V5; after_results_simp; exact V4_v3 m c

theorem V5_v6 (m : (ℓ : Loc nD τ sig) → Buf (Elt Ideal) ℓ) (c : Dev nD) :
    V5 m c (Proc.devRef .tc main_v6) = dst (m ((c.tc : Thread nD τ).loc main_arg1)) := by
  unfold V5; after_results_simp; exact V4_v6 m c

theorem V5_arg12 (m : (ℓ : Loc nD τ sig) → Buf (Elt Ideal) ℓ) (c : Dev nD) :
    V5 m c (Proc.devRef .tc main_arg12) = m ((c.tc : Thread nD τ).loc main_arg12) := by
  unfold V5; after_results_simp; exact V4_arg12 m c

theorem V5_arg13 (m : (ℓ : Loc nD τ sig) → Buf (Elt Ideal) ℓ) (c : Dev nD) :
    V5 m c (Proc.devRef .tc main_arg13) = m ((c.tc : Thread nD τ).loc main_arg13) := by
  unfold V5; after_results_simp; exact V4_arg13 m c

theorem V5_arg10 (m : (ℓ : Loc nD τ sig) → Buf (Elt Ideal) ℓ) (c : Dev nD) :
    V5 m c (Proc.devRef .tc main_arg10) = m ((c.tc : Thread nD τ).loc main_arg10) := by
  unfold V5; after_results_simp; exact V4_arg10 m c

theorem V5_arg11 (m : (ℓ : Loc nD τ sig) → Buf (Elt Ideal) ℓ) (c : Dev nD) :
    V5 m c (Proc.devRef .tc main_arg11) = m ((c.tc : Thread nD τ).loc main_arg11) := by
  unfold V5; after_results_simp; exact V4_arg11 m c

theorem V5_arg8 (m : (ℓ : Loc nD τ sig) → Buf (Elt Ideal) ℓ) (c : Dev nD) :
    V5 m c (Proc.devRef .tc main_arg8) = m ((c.tc : Thread nD τ).loc main_arg8) := by
  unfold V5; after_results_simp; exact V4_arg8 m c

theorem V5_arg9 (m : (ℓ : Loc nD τ sig) → Buf (Elt Ideal) ℓ) (c : Dev nD) :
    V5 m c (Proc.devRef .tc main_arg9) = m ((c.tc : Thread nD τ).loc main_arg9) := by
  unfold V5; after_results_simp; exact V4_arg9 m c

theorem V5_arg6 (m : (ℓ : Loc nD τ sig) → Buf (Elt Ideal) ℓ) (c : Dev nD) :
    V5 m c (Proc.devRef .tc main_arg6) = m ((c.tc : Thread nD τ).loc main_arg6) := by
  unfold V5; after_results_simp; exact V4_arg6 m c

theorem V5_arg7 (m : (ℓ : Loc nD τ sig) → Buf (Elt Ideal) ℓ) (c : Dev nD) :
    V5 m c (Proc.devRef .tc main_arg7) = m ((c.tc : Thread nD τ).loc main_arg7) := by
  unfold V5; after_results_simp; exact V4_arg7 m c

theorem V5_arg4 (m : (ℓ : Loc nD τ sig) → Buf (Elt Ideal) ℓ) (c : Dev nD) :
    V5 m c (Proc.devRef .tc main_arg4) = m ((c.tc : Thread nD τ).loc main_arg4) := by
  unfold V5; after_results_simp; exact V4_arg4 m c

theorem V5_arg5 (m : (ℓ : Loc nD τ sig) → Buf (Elt Ideal) ℓ) (c : Dev nD) :
    V5 m c (Proc.devRef .tc main_arg5) = m ((c.tc : Thread nD τ).loc main_arg5) := by
  unfold V5; after_results_simp; exact V4_arg5 m c

theorem V5_arg2 (m : (ℓ : Loc nD τ sig) → Buf (Elt Ideal) ℓ) (c : Dev nD) :
    V5 m c (Proc.devRef .tc main_arg2) = m ((c.tc : Thread nD τ).loc main_arg2) := by
  unfold V5; after_results_simp; exact V4_arg2 m c

theorem V5_arg3 (m : (ℓ : Loc nD τ sig) → Buf (Elt Ideal) ℓ) (c : Dev nD) :
    V5 m c (Proc.devRef .tc main_arg3) = m ((c.tc : Thread nD τ).loc main_arg3) := by
  unfold V5; after_results_simp; exact V4_arg3 m c

/-- The buffers after the first 21 operations. -/
def V6 (m : (ℓ : Loc nD τ sig) → Buf (Elt Ideal) ℓ) (c : Dev nD) : Valuation τ sig (Elt Ideal) :=
  after (opsP3 (F := Ideal)) (V5 m c)

set_option maxRecDepth 65536 in
theorem V6_v14 (m : (ℓ : Loc nD τ sig) → Buf (Elt Ideal) ℓ) (c : Dev nD) :
    V6 m c (Proc.devRef .tc main_v14) = dinv (m ((c.tc : Thread nD τ).loc main_arg1)) := by
  unfold V6; after_results_simp
  rw [V5_v10 m c]
  rfl

theorem V6_arg0 (m : (ℓ : Loc nD τ sig) → Buf (Elt Ideal) ℓ) (c : Dev nD) :
    V6 m c (Proc.devRef .tc main_arg0) = m ((c.tc : Thread nD τ).loc main_arg0) := by
  unfold V6; after_results_simp; exact V5_arg0 m c

theorem V6_v3 (m : (ℓ : Loc nD τ sig) → Buf (Elt Ideal) ℓ) (c : Dev nD) :
    V6 m c (Proc.devRef .tc main_v3) = src (m ((c.tc : Thread nD τ).loc main_arg1)) := by
  unfold V6; after_results_simp; exact V5_v3 m c

theorem V6_v6 (m : (ℓ : Loc nD τ sig) → Buf (Elt Ideal) ℓ) (c : Dev nD) :
    V6 m c (Proc.devRef .tc main_v6) = dst (m ((c.tc : Thread nD τ).loc main_arg1)) := by
  unfold V6; after_results_simp; exact V5_v6 m c

theorem V6_arg12 (m : (ℓ : Loc nD τ sig) → Buf (Elt Ideal) ℓ) (c : Dev nD) :
    V6 m c (Proc.devRef .tc main_arg12) = m ((c.tc : Thread nD τ).loc main_arg12) := by
  unfold V6; after_results_simp; exact V5_arg12 m c

theorem V6_arg13 (m : (ℓ : Loc nD τ sig) → Buf (Elt Ideal) ℓ) (c : Dev nD) :
    V6 m c (Proc.devRef .tc main_arg13) = m ((c.tc : Thread nD τ).loc main_arg13) := by
  unfold V6; after_results_simp; exact V5_arg13 m c

theorem V6_arg10 (m : (ℓ : Loc nD τ sig) → Buf (Elt Ideal) ℓ) (c : Dev nD) :
    V6 m c (Proc.devRef .tc main_arg10) = m ((c.tc : Thread nD τ).loc main_arg10) := by
  unfold V6; after_results_simp; exact V5_arg10 m c

theorem V6_arg11 (m : (ℓ : Loc nD τ sig) → Buf (Elt Ideal) ℓ) (c : Dev nD) :
    V6 m c (Proc.devRef .tc main_arg11) = m ((c.tc : Thread nD τ).loc main_arg11) := by
  unfold V6; after_results_simp; exact V5_arg11 m c

theorem V6_arg8 (m : (ℓ : Loc nD τ sig) → Buf (Elt Ideal) ℓ) (c : Dev nD) :
    V6 m c (Proc.devRef .tc main_arg8) = m ((c.tc : Thread nD τ).loc main_arg8) := by
  unfold V6; after_results_simp; exact V5_arg8 m c

theorem V6_arg9 (m : (ℓ : Loc nD τ sig) → Buf (Elt Ideal) ℓ) (c : Dev nD) :
    V6 m c (Proc.devRef .tc main_arg9) = m ((c.tc : Thread nD τ).loc main_arg9) := by
  unfold V6; after_results_simp; exact V5_arg9 m c

theorem V6_arg6 (m : (ℓ : Loc nD τ sig) → Buf (Elt Ideal) ℓ) (c : Dev nD) :
    V6 m c (Proc.devRef .tc main_arg6) = m ((c.tc : Thread nD τ).loc main_arg6) := by
  unfold V6; after_results_simp; exact V5_arg6 m c

theorem V6_arg7 (m : (ℓ : Loc nD τ sig) → Buf (Elt Ideal) ℓ) (c : Dev nD) :
    V6 m c (Proc.devRef .tc main_arg7) = m ((c.tc : Thread nD τ).loc main_arg7) := by
  unfold V6; after_results_simp; exact V5_arg7 m c

theorem V6_arg4 (m : (ℓ : Loc nD τ sig) → Buf (Elt Ideal) ℓ) (c : Dev nD) :
    V6 m c (Proc.devRef .tc main_arg4) = m ((c.tc : Thread nD τ).loc main_arg4) := by
  unfold V6; after_results_simp; exact V5_arg4 m c

theorem V6_arg5 (m : (ℓ : Loc nD τ sig) → Buf (Elt Ideal) ℓ) (c : Dev nD) :
    V6 m c (Proc.devRef .tc main_arg5) = m ((c.tc : Thread nD τ).loc main_arg5) := by
  unfold V6; after_results_simp; exact V5_arg5 m c

theorem V6_arg2 (m : (ℓ : Loc nD τ sig) → Buf (Elt Ideal) ℓ) (c : Dev nD) :
    V6 m c (Proc.devRef .tc main_arg2) = m ((c.tc : Thread nD τ).loc main_arg2) := by
  unfold V6; after_results_simp; exact V5_arg2 m c

theorem V6_arg3 (m : (ℓ : Loc nD τ sig) → Buf (Elt Ideal) ℓ) (c : Dev nD) :
    V6 m c (Proc.devRef .tc main_arg3) = m ((c.tc : Thread nD τ).loc main_arg3) := by
  unfold V6; after_results_simp; exact V5_arg3 m c

/-- The buffers after the first 40 operations. -/
def V7 (m : (ℓ : Loc nD τ sig) → Buf (Elt Ideal) ℓ) (c : Dev nD) : Valuation τ sig (Elt Ideal) :=
  after (opsP4 (F := Ideal)) (V6 m c)

set_option maxRecDepth 65536 in
theorem V7_v29 (m : (ℓ : Loc nD τ sig) → Buf (Elt Ideal) ℓ) (c : Dev nD) :
    V7 m c (Proc.devRef .tc main_v29) = nrm (m ((c.tc : Thread nD τ).loc main_arg1)) := by
  unfold V7; after_results_simp
  rw [V6_v3 m c, V6_v6 m c, V6_v14 m c]
  rfl

theorem V7_arg0 (m : (ℓ : Loc nD τ sig) → Buf (Elt Ideal) ℓ) (c : Dev nD) :
    V7 m c (Proc.devRef .tc main_arg0) = m ((c.tc : Thread nD τ).loc main_arg0) := by
  unfold V7; after_results_simp; exact V6_arg0 m c

theorem V7_v3 (m : (ℓ : Loc nD τ sig) → Buf (Elt Ideal) ℓ) (c : Dev nD) :
    V7 m c (Proc.devRef .tc main_v3) = src (m ((c.tc : Thread nD τ).loc main_arg1)) := by
  unfold V7; after_results_simp; exact V6_v3 m c

theorem V7_v6 (m : (ℓ : Loc nD τ sig) → Buf (Elt Ideal) ℓ) (c : Dev nD) :
    V7 m c (Proc.devRef .tc main_v6) = dst (m ((c.tc : Thread nD τ).loc main_arg1)) := by
  unfold V7; after_results_simp; exact V6_v6 m c

theorem V7_arg12 (m : (ℓ : Loc nD τ sig) → Buf (Elt Ideal) ℓ) (c : Dev nD) :
    V7 m c (Proc.devRef .tc main_arg12) = m ((c.tc : Thread nD τ).loc main_arg12) := by
  unfold V7; after_results_simp; exact V6_arg12 m c

theorem V7_arg13 (m : (ℓ : Loc nD τ sig) → Buf (Elt Ideal) ℓ) (c : Dev nD) :
    V7 m c (Proc.devRef .tc main_arg13) = m ((c.tc : Thread nD τ).loc main_arg13) := by
  unfold V7; after_results_simp; exact V6_arg13 m c

theorem V7_arg10 (m : (ℓ : Loc nD τ sig) → Buf (Elt Ideal) ℓ) (c : Dev nD) :
    V7 m c (Proc.devRef .tc main_arg10) = m ((c.tc : Thread nD τ).loc main_arg10) := by
  unfold V7; after_results_simp; exact V6_arg10 m c

theorem V7_arg11 (m : (ℓ : Loc nD τ sig) → Buf (Elt Ideal) ℓ) (c : Dev nD) :
    V7 m c (Proc.devRef .tc main_arg11) = m ((c.tc : Thread nD τ).loc main_arg11) := by
  unfold V7; after_results_simp; exact V6_arg11 m c

theorem V7_arg8 (m : (ℓ : Loc nD τ sig) → Buf (Elt Ideal) ℓ) (c : Dev nD) :
    V7 m c (Proc.devRef .tc main_arg8) = m ((c.tc : Thread nD τ).loc main_arg8) := by
  unfold V7; after_results_simp; exact V6_arg8 m c

theorem V7_arg9 (m : (ℓ : Loc nD τ sig) → Buf (Elt Ideal) ℓ) (c : Dev nD) :
    V7 m c (Proc.devRef .tc main_arg9) = m ((c.tc : Thread nD τ).loc main_arg9) := by
  unfold V7; after_results_simp; exact V6_arg9 m c

theorem V7_arg6 (m : (ℓ : Loc nD τ sig) → Buf (Elt Ideal) ℓ) (c : Dev nD) :
    V7 m c (Proc.devRef .tc main_arg6) = m ((c.tc : Thread nD τ).loc main_arg6) := by
  unfold V7; after_results_simp; exact V6_arg6 m c

theorem V7_arg7 (m : (ℓ : Loc nD τ sig) → Buf (Elt Ideal) ℓ) (c : Dev nD) :
    V7 m c (Proc.devRef .tc main_arg7) = m ((c.tc : Thread nD τ).loc main_arg7) := by
  unfold V7; after_results_simp; exact V6_arg7 m c

theorem V7_arg4 (m : (ℓ : Loc nD τ sig) → Buf (Elt Ideal) ℓ) (c : Dev nD) :
    V7 m c (Proc.devRef .tc main_arg4) = m ((c.tc : Thread nD τ).loc main_arg4) := by
  unfold V7; after_results_simp; exact V6_arg4 m c

theorem V7_arg5 (m : (ℓ : Loc nD τ sig) → Buf (Elt Ideal) ℓ) (c : Dev nD) :
    V7 m c (Proc.devRef .tc main_arg5) = m ((c.tc : Thread nD τ).loc main_arg5) := by
  unfold V7; after_results_simp; exact V6_arg5 m c

theorem V7_arg2 (m : (ℓ : Loc nD τ sig) → Buf (Elt Ideal) ℓ) (c : Dev nD) :
    V7 m c (Proc.devRef .tc main_arg2) = m ((c.tc : Thread nD τ).loc main_arg2) := by
  unfold V7; after_results_simp; exact V6_arg2 m c

theorem V7_arg3 (m : (ℓ : Loc nD τ sig) → Buf (Elt Ideal) ℓ) (c : Dev nD) :
    V7 m c (Proc.devRef .tc main_arg3) = m ((c.tc : Thread nD τ).loc main_arg3) := by
  unfold V7; after_results_simp; exact V6_arg3 m c

/-- The buffers after the first 63 operations. -/
def V8 (m : (ℓ : Loc nD τ sig) → Buf (Elt Ideal) ℓ) (c : Dev nD) : Valuation τ sig (Elt Ideal) :=
  after (opsL1 (F := Ideal)) (V7 m c)

set_option maxRecDepth 65536 in
theorem V8_v47 (m : (ℓ : Loc nD τ sig) → Buf (Elt Ideal) ℓ) (c : Dev nD) :
    V8 m c (Proc.devRef .tc main_v47) = h1 (m ((c.tc : Thread nD τ).loc main_arg0)) (m ((c.tc : Thread nD τ).loc main_arg1)) (m ((c.tc : Thread nD τ).loc main_arg2)) (m ((c.tc : Thread nD τ).loc main_arg3)) := by
  unfold V8; after_results_simp
  rw [V7_v3 m c, V7_v6 m c, V7_v29 m c, V7_arg0 m c, V7_arg2 m c, V7_arg3 m c]
  rfl

theorem V8_arg0 (m : (ℓ : Loc nD τ sig) → Buf (Elt Ideal) ℓ) (c : Dev nD) :
    V8 m c (Proc.devRef .tc main_arg0) = m ((c.tc : Thread nD τ).loc main_arg0) := by
  unfold V8; after_results_simp; exact V7_arg0 m c

theorem V8_v3 (m : (ℓ : Loc nD τ sig) → Buf (Elt Ideal) ℓ) (c : Dev nD) :
    V8 m c (Proc.devRef .tc main_v3) = src (m ((c.tc : Thread nD τ).loc main_arg1)) := by
  unfold V8; after_results_simp; exact V7_v3 m c

theorem V8_v6 (m : (ℓ : Loc nD τ sig) → Buf (Elt Ideal) ℓ) (c : Dev nD) :
    V8 m c (Proc.devRef .tc main_v6) = dst (m ((c.tc : Thread nD τ).loc main_arg1)) := by
  unfold V8; after_results_simp; exact V7_v6 m c

theorem V8_v29 (m : (ℓ : Loc nD τ sig) → Buf (Elt Ideal) ℓ) (c : Dev nD) :
    V8 m c (Proc.devRef .tc main_v29) = nrm (m ((c.tc : Thread nD τ).loc main_arg1)) := by
  unfold V8; after_results_simp; exact V7_v29 m c

theorem V8_arg12 (m : (ℓ : Loc nD τ sig) → Buf (Elt Ideal) ℓ) (c : Dev nD) :
    V8 m c (Proc.devRef .tc main_arg12) = m ((c.tc : Thread nD τ).loc main_arg12) := by
  unfold V8; after_results_simp; exact V7_arg12 m c

theorem V8_arg13 (m : (ℓ : Loc nD τ sig) → Buf (Elt Ideal) ℓ) (c : Dev nD) :
    V8 m c (Proc.devRef .tc main_arg13) = m ((c.tc : Thread nD τ).loc main_arg13) := by
  unfold V8; after_results_simp; exact V7_arg13 m c

theorem V8_arg10 (m : (ℓ : Loc nD τ sig) → Buf (Elt Ideal) ℓ) (c : Dev nD) :
    V8 m c (Proc.devRef .tc main_arg10) = m ((c.tc : Thread nD τ).loc main_arg10) := by
  unfold V8; after_results_simp; exact V7_arg10 m c

theorem V8_arg11 (m : (ℓ : Loc nD τ sig) → Buf (Elt Ideal) ℓ) (c : Dev nD) :
    V8 m c (Proc.devRef .tc main_arg11) = m ((c.tc : Thread nD τ).loc main_arg11) := by
  unfold V8; after_results_simp; exact V7_arg11 m c

theorem V8_arg8 (m : (ℓ : Loc nD τ sig) → Buf (Elt Ideal) ℓ) (c : Dev nD) :
    V8 m c (Proc.devRef .tc main_arg8) = m ((c.tc : Thread nD τ).loc main_arg8) := by
  unfold V8; after_results_simp; exact V7_arg8 m c

theorem V8_arg9 (m : (ℓ : Loc nD τ sig) → Buf (Elt Ideal) ℓ) (c : Dev nD) :
    V8 m c (Proc.devRef .tc main_arg9) = m ((c.tc : Thread nD τ).loc main_arg9) := by
  unfold V8; after_results_simp; exact V7_arg9 m c

theorem V8_arg6 (m : (ℓ : Loc nD τ sig) → Buf (Elt Ideal) ℓ) (c : Dev nD) :
    V8 m c (Proc.devRef .tc main_arg6) = m ((c.tc : Thread nD τ).loc main_arg6) := by
  unfold V8; after_results_simp; exact V7_arg6 m c

theorem V8_arg7 (m : (ℓ : Loc nD τ sig) → Buf (Elt Ideal) ℓ) (c : Dev nD) :
    V8 m c (Proc.devRef .tc main_arg7) = m ((c.tc : Thread nD τ).loc main_arg7) := by
  unfold V8; after_results_simp; exact V7_arg7 m c

theorem V8_arg4 (m : (ℓ : Loc nD τ sig) → Buf (Elt Ideal) ℓ) (c : Dev nD) :
    V8 m c (Proc.devRef .tc main_arg4) = m ((c.tc : Thread nD τ).loc main_arg4) := by
  unfold V8; after_results_simp; exact V7_arg4 m c

theorem V8_arg5 (m : (ℓ : Loc nD τ sig) → Buf (Elt Ideal) ℓ) (c : Dev nD) :
    V8 m c (Proc.devRef .tc main_arg5) = m ((c.tc : Thread nD τ).loc main_arg5) := by
  unfold V8; after_results_simp; exact V7_arg5 m c

/-- The buffers after the first 86 operations. -/
def V9 (m : (ℓ : Loc nD τ sig) → Buf (Elt Ideal) ℓ) (c : Dev nD) : Valuation τ sig (Elt Ideal) :=
  after (opsL2 (F := Ideal)) (V8 m c)

set_option maxRecDepth 65536 in
theorem V9_v65 (m : (ℓ : Loc nD τ sig) → Buf (Elt Ideal) ℓ) (c : Dev nD) :
    V9 m c (Proc.devRef .tc main_v65) = h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold V9; after_results_simp
  rw [V8_v3 m c, V8_v6 m c, V8_v29 m c, V8_v47 m c, V8_arg4 m c, V8_arg5 m c]
  rfl

theorem V9_arg0 (m : (ℓ : Loc nD τ sig) → Buf (Elt Ideal) ℓ) (c : Dev nD) :
    V9 m c (Proc.devRef .tc main_arg0) = m ((c.tc : Thread nD τ).loc main_arg0) := by
  unfold V9; after_results_simp; exact V8_arg0 m c

theorem V9_v3 (m : (ℓ : Loc nD τ sig) → Buf (Elt Ideal) ℓ) (c : Dev nD) :
    V9 m c (Proc.devRef .tc main_v3) = src (m ((c.tc : Thread nD τ).loc main_arg1)) := by
  unfold V9; after_results_simp; exact V8_v3 m c

theorem V9_v6 (m : (ℓ : Loc nD τ sig) → Buf (Elt Ideal) ℓ) (c : Dev nD) :
    V9 m c (Proc.devRef .tc main_v6) = dst (m ((c.tc : Thread nD τ).loc main_arg1)) := by
  unfold V9; after_results_simp; exact V8_v6 m c

theorem V9_v29 (m : (ℓ : Loc nD τ sig) → Buf (Elt Ideal) ℓ) (c : Dev nD) :
    V9 m c (Proc.devRef .tc main_v29) = nrm (m ((c.tc : Thread nD τ).loc main_arg1)) := by
  unfold V9; after_results_simp; exact V8_v29 m c

theorem V9_arg12 (m : (ℓ : Loc nD τ sig) → Buf (Elt Ideal) ℓ) (c : Dev nD) :
    V9 m c (Proc.devRef .tc main_arg12) = m ((c.tc : Thread nD τ).loc main_arg12) := by
  unfold V9; after_results_simp; exact V8_arg12 m c

theorem V9_arg13 (m : (ℓ : Loc nD τ sig) → Buf (Elt Ideal) ℓ) (c : Dev nD) :
    V9 m c (Proc.devRef .tc main_arg13) = m ((c.tc : Thread nD τ).loc main_arg13) := by
  unfold V9; after_results_simp; exact V8_arg13 m c

theorem V9_arg10 (m : (ℓ : Loc nD τ sig) → Buf (Elt Ideal) ℓ) (c : Dev nD) :
    V9 m c (Proc.devRef .tc main_arg10) = m ((c.tc : Thread nD τ).loc main_arg10) := by
  unfold V9; after_results_simp; exact V8_arg10 m c

theorem V9_arg11 (m : (ℓ : Loc nD τ sig) → Buf (Elt Ideal) ℓ) (c : Dev nD) :
    V9 m c (Proc.devRef .tc main_arg11) = m ((c.tc : Thread nD τ).loc main_arg11) := by
  unfold V9; after_results_simp; exact V8_arg11 m c

theorem V9_arg8 (m : (ℓ : Loc nD τ sig) → Buf (Elt Ideal) ℓ) (c : Dev nD) :
    V9 m c (Proc.devRef .tc main_arg8) = m ((c.tc : Thread nD τ).loc main_arg8) := by
  unfold V9; after_results_simp; exact V8_arg8 m c

theorem V9_arg9 (m : (ℓ : Loc nD τ sig) → Buf (Elt Ideal) ℓ) (c : Dev nD) :
    V9 m c (Proc.devRef .tc main_arg9) = m ((c.tc : Thread nD τ).loc main_arg9) := by
  unfold V9; after_results_simp; exact V8_arg9 m c

theorem V9_arg6 (m : (ℓ : Loc nD τ sig) → Buf (Elt Ideal) ℓ) (c : Dev nD) :
    V9 m c (Proc.devRef .tc main_arg6) = m ((c.tc : Thread nD τ).loc main_arg6) := by
  unfold V9; after_results_simp; exact V8_arg6 m c

theorem V9_arg7 (m : (ℓ : Loc nD τ sig) → Buf (Elt Ideal) ℓ) (c : Dev nD) :
    V9 m c (Proc.devRef .tc main_arg7) = m ((c.tc : Thread nD τ).loc main_arg7) := by
  unfold V9; after_results_simp; exact V8_arg7 m c

/-- The buffers after the first 106 operations. -/
def V10 (m : (ℓ : Loc nD τ sig) → Buf (Elt Ideal) ℓ) (c : Dev nD) : Valuation τ sig (Elt Ideal) :=
  after (opsL3 (F := Ideal)) (V9 m c)

set_option maxRecDepth 65536 in
theorem V10_v82 (m : (ℓ : Loc nD τ sig) → Buf (Elt Ideal) ℓ) (c : Dev nD) :
    V10 m c (Proc.devRef .tc main_v82) = h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold V10; after_results_simp
  rw [V9_v3 m c, V9_v6 m c, V9_v29 m c, V9_v65 m c, V9_arg6 m c, V9_arg7 m c]
  rfl

theorem V10_arg0 (m : (ℓ : Loc nD τ sig) → Buf (Elt Ideal) ℓ) (c : Dev nD) :
    V10 m c (Proc.devRef .tc main_arg0) = m ((c.tc : Thread nD τ).loc main_arg0) := by
  unfold V10; after_results_simp; exact V9_arg0 m c

theorem V10_v3 (m : (ℓ : Loc nD τ sig) → Buf (Elt Ideal) ℓ) (c : Dev nD) :
    V10 m c (Proc.devRef .tc main_v3) = src (m ((c.tc : Thread nD τ).loc main_arg1)) := by
  unfold V10; after_results_simp; exact V9_v3 m c

theorem V10_v6 (m : (ℓ : Loc nD τ sig) → Buf (Elt Ideal) ℓ) (c : Dev nD) :
    V10 m c (Proc.devRef .tc main_v6) = dst (m ((c.tc : Thread nD τ).loc main_arg1)) := by
  unfold V10; after_results_simp; exact V9_v6 m c

theorem V10_v29 (m : (ℓ : Loc nD τ sig) → Buf (Elt Ideal) ℓ) (c : Dev nD) :
    V10 m c (Proc.devRef .tc main_v29) = nrm (m ((c.tc : Thread nD τ).loc main_arg1)) := by
  unfold V10; after_results_simp; exact V9_v29 m c

theorem V10_arg12 (m : (ℓ : Loc nD τ sig) → Buf (Elt Ideal) ℓ) (c : Dev nD) :
    V10 m c (Proc.devRef .tc main_arg12) = m ((c.tc : Thread nD τ).loc main_arg12) := by
  unfold V10; after_results_simp; exact V9_arg12 m c

theorem V10_arg13 (m : (ℓ : Loc nD τ sig) → Buf (Elt Ideal) ℓ) (c : Dev nD) :
    V10 m c (Proc.devRef .tc main_arg13) = m ((c.tc : Thread nD τ).loc main_arg13) := by
  unfold V10; after_results_simp; exact V9_arg13 m c

theorem V10_arg10 (m : (ℓ : Loc nD τ sig) → Buf (Elt Ideal) ℓ) (c : Dev nD) :
    V10 m c (Proc.devRef .tc main_arg10) = m ((c.tc : Thread nD τ).loc main_arg10) := by
  unfold V10; after_results_simp; exact V9_arg10 m c

theorem V10_arg11 (m : (ℓ : Loc nD τ sig) → Buf (Elt Ideal) ℓ) (c : Dev nD) :
    V10 m c (Proc.devRef .tc main_arg11) = m ((c.tc : Thread nD τ).loc main_arg11) := by
  unfold V10; after_results_simp; exact V9_arg11 m c

theorem V10_arg8 (m : (ℓ : Loc nD τ sig) → Buf (Elt Ideal) ℓ) (c : Dev nD) :
    V10 m c (Proc.devRef .tc main_arg8) = m ((c.tc : Thread nD τ).loc main_arg8) := by
  unfold V10; after_results_simp; exact V9_arg8 m c

theorem V10_arg9 (m : (ℓ : Loc nD τ sig) → Buf (Elt Ideal) ℓ) (c : Dev nD) :
    V10 m c (Proc.devRef .tc main_arg9) = m ((c.tc : Thread nD τ).loc main_arg9) := by
  unfold V10; after_results_simp; exact V9_arg9 m c

/-- The buffers after the first 129 operations. -/
def V11 (m : (ℓ : Loc nD τ sig) → Buf (Elt Ideal) ℓ) (c : Dev nD) : Valuation τ sig (Elt Ideal) :=
  after (opsL4 (F := Ideal)) (V10 m c)

set_option maxRecDepth 65536 in
theorem V11_v100 (m : (ℓ : Loc nD τ sig) → Buf (Elt Ideal) ℓ) (c : Dev nD) :
    V11 m c (Proc.devRef .tc main_v100) = h4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold V11; after_results_simp
  rw [V10_v3 m c, V10_v6 m c, V10_v29 m c, V10_v82 m c, V10_arg8 m c, V10_arg9 m c]
  rfl

theorem V11_arg0 (m : (ℓ : Loc nD τ sig) → Buf (Elt Ideal) ℓ) (c : Dev nD) :
    V11 m c (Proc.devRef .tc main_arg0) = m ((c.tc : Thread nD τ).loc main_arg0) := by
  unfold V11; after_results_simp; exact V10_arg0 m c

theorem V11_v3 (m : (ℓ : Loc nD τ sig) → Buf (Elt Ideal) ℓ) (c : Dev nD) :
    V11 m c (Proc.devRef .tc main_v3) = src (m ((c.tc : Thread nD τ).loc main_arg1)) := by
  unfold V11; after_results_simp; exact V10_v3 m c

theorem V11_v6 (m : (ℓ : Loc nD τ sig) → Buf (Elt Ideal) ℓ) (c : Dev nD) :
    V11 m c (Proc.devRef .tc main_v6) = dst (m ((c.tc : Thread nD τ).loc main_arg1)) := by
  unfold V11; after_results_simp; exact V10_v6 m c

theorem V11_v29 (m : (ℓ : Loc nD τ sig) → Buf (Elt Ideal) ℓ) (c : Dev nD) :
    V11 m c (Proc.devRef .tc main_v29) = nrm (m ((c.tc : Thread nD τ).loc main_arg1)) := by
  unfold V11; after_results_simp; exact V10_v29 m c

theorem V11_arg12 (m : (ℓ : Loc nD τ sig) → Buf (Elt Ideal) ℓ) (c : Dev nD) :
    V11 m c (Proc.devRef .tc main_arg12) = m ((c.tc : Thread nD τ).loc main_arg12) := by
  unfold V11; after_results_simp; exact V10_arg12 m c

theorem V11_arg13 (m : (ℓ : Loc nD τ sig) → Buf (Elt Ideal) ℓ) (c : Dev nD) :
    V11 m c (Proc.devRef .tc main_arg13) = m ((c.tc : Thread nD τ).loc main_arg13) := by
  unfold V11; after_results_simp; exact V10_arg13 m c

theorem V11_arg10 (m : (ℓ : Loc nD τ sig) → Buf (Elt Ideal) ℓ) (c : Dev nD) :
    V11 m c (Proc.devRef .tc main_arg10) = m ((c.tc : Thread nD τ).loc main_arg10) := by
  unfold V11; after_results_simp; exact V10_arg10 m c

theorem V11_arg11 (m : (ℓ : Loc nD τ sig) → Buf (Elt Ideal) ℓ) (c : Dev nD) :
    V11 m c (Proc.devRef .tc main_arg11) = m ((c.tc : Thread nD τ).loc main_arg11) := by
  unfold V11; after_results_simp; exact V10_arg11 m c

/-- The buffers after the first 152 operations. -/
def V12 (m : (ℓ : Loc nD τ sig) → Buf (Elt Ideal) ℓ) (c : Dev nD) : Valuation τ sig (Elt Ideal) :=
  after (opsL5 (F := Ideal)) (V11 m c)

set_option maxRecDepth 65536 in
theorem V12_v118 (m : (ℓ : Loc nD τ sig) → Buf (Elt Ideal) ℓ) (c : Dev nD) :
    V12 m c (Proc.devRef .tc main_v118) = h5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold V12; after_results_simp
  rw [V11_v3 m c, V11_v6 m c, V11_v29 m c, V11_v100 m c, V11_arg10 m c, V11_arg11 m c]
  rfl

theorem V12_arg0 (m : (ℓ : Loc nD τ sig) → Buf (Elt Ideal) ℓ) (c : Dev nD) :
    V12 m c (Proc.devRef .tc main_arg0) = m ((c.tc : Thread nD τ).loc main_arg0) := by
  unfold V12; after_results_simp; exact V11_arg0 m c

theorem V12_v3 (m : (ℓ : Loc nD τ sig) → Buf (Elt Ideal) ℓ) (c : Dev nD) :
    V12 m c (Proc.devRef .tc main_v3) = src (m ((c.tc : Thread nD τ).loc main_arg1)) := by
  unfold V12; after_results_simp; exact V11_v3 m c

theorem V12_v6 (m : (ℓ : Loc nD τ sig) → Buf (Elt Ideal) ℓ) (c : Dev nD) :
    V12 m c (Proc.devRef .tc main_v6) = dst (m ((c.tc : Thread nD τ).loc main_arg1)) := by
  unfold V12; after_results_simp; exact V11_v6 m c

theorem V12_v29 (m : (ℓ : Loc nD τ sig) → Buf (Elt Ideal) ℓ) (c : Dev nD) :
    V12 m c (Proc.devRef .tc main_v29) = nrm (m ((c.tc : Thread nD τ).loc main_arg1)) := by
  unfold V12; after_results_simp; exact V11_v29 m c

theorem V12_arg12 (m : (ℓ : Loc nD τ sig) → Buf (Elt Ideal) ℓ) (c : Dev nD) :
    V12 m c (Proc.devRef .tc main_arg12) = m ((c.tc : Thread nD τ).loc main_arg12) := by
  unfold V12; after_results_simp; exact V11_arg12 m c

theorem V12_arg13 (m : (ℓ : Loc nD τ sig) → Buf (Elt Ideal) ℓ) (c : Dev nD) :
    V12 m c (Proc.devRef .tc main_arg13) = m ((c.tc : Thread nD τ).loc main_arg13) := by
  unfold V12; after_results_simp; exact V11_arg13 m c

/-- The buffers after the first 172 operations. -/
def V13 (m : (ℓ : Loc nD τ sig) → Buf (Elt Ideal) ℓ) (c : Dev nD) : Valuation τ sig (Elt Ideal) :=
  after (opsL6 (F := Ideal)) (V12 m c)

set_option maxRecDepth 65536 in
theorem V13_v135 (m : (ℓ : Loc nD τ sig) → Buf (Elt Ideal) ℓ) (c : Dev nD) :
    V13 m c (Proc.devRef .tc main_v135) = recon (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold V13; after_results_simp
  rw [V12_v3 m c, V12_v6 m c, V12_v29 m c, V12_v118 m c, V12_arg12 m c, V12_arg13 m c]
  rfl

theorem V13_arg0 (m : (ℓ : Loc nD τ sig) → Buf (Elt Ideal) ℓ) (c : Dev nD) :
    V13 m c (Proc.devRef .tc main_arg0) = m ((c.tc : Thread nD τ).loc main_arg0) := by
  unfold V13; after_results_simp; exact V12_arg0 m c

/-- Running two lists one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The whole list is the last piece run from the buffers after the first 172 operations. -/
theorem after_ops_V13 (m : (ℓ : Loc nD τ sig) → Buf (Elt Ideal) ℓ) (c : Dev nD) :
    after (ops (F := Ideal)) (launchContents m c) = after (opsT (F := Ideal)) (V13 m c) := by
  rw [ops_split]; simp only [after_append]; rfl

set_option maxRecDepth 65536 in
/-- The fold of the operations over the launch contents, at the result buffer, is the layered value of the arguments. -/
theorem after_ops_eq (m : (ℓ : Loc nD τ sig) → Buf (Elt Ideal) ℓ) (c : Dev nD) :
    after (ops (F := Ideal)) (launchContents m c) (Proc.devRef .tc main_v140) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_ops_V13]; after_results_simp
  rw [V13_arg0 m c, V13_v135 m c]
  rfl

end Cert.ReferenceIdeal.RefValue

end
-- ==== Proof.RefFinal.lean ====
/-
  The reference program's run with its result composed: the generated run's statement, whose result buffer is left
  as the fold of the operation list, joined to the evaluation of that fold.
-/
import proofs.«147065_j51737176047725_2_alg».proof.Proof.RefFold

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.RefRun

/-! ## The run -/

/-- At the ideal values, on every device, from any memory with zero counters: every weakly fair execution of @main
    terminates with the result buffer at the layered value `refVal` of the fourteen arguments' launch contents, and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (after_ops_eq m c), (h c).2⟩) (run_raw m ρ)

end Cert.ReferenceIdeal.RefValue

end
-- ==== Proof.MeanSq.lean ====
/-
  The mean of squares of each row of an `[N, C]` array, as a host program writes it with array operations, read at
  one row over the extended reals: the exact sum of the row's squares divided by the constant.  No program is in
  sight; the extents are variables and the shape facts hypotheses.
-/
import Idealize.ShloMosaic.PureOps.Ideal
import Idealize.ShloMosaic.Lib.ValueIdx
import Idealize.ShloMosaic.PureOps.Ideal.Laws

noncomputable section

open scoped BigOperators

namespace Cert.MeanSq

open Idealize.ShloMosaic Idealize.ShloMosaic.ValueIdx

/-- The source index over the reduced index `r` with `k` inserted on the dropped column axis is `(r, k)`. -/
theorem lift_col {N C : Nat} (h : (⟨2, ![N, C]⟩ : Shape).Reduces [1] ⟨1, ![N]⟩) (r : Fin N) (k : Fin C) :
    h.lift (ix1 r) k = ix2 r k := by
  funext a
  refine Fin.ext ?_
  match a with
  | ⟨0, _⟩ => rfl
  | ⟨1, _⟩ => rfl

/-- A host sum along the rows of an `[N, C]` array, from the initial value `init`, read at row `r`: `init` plus the
    sum of the row's `C` entries. -/
theorem hostReduceAdd_rows {N C : Nat} (hred' : (⟨2, ![N, C]⟩ : Shape).ReducesTo [1] ⟨1, ![N]⟩)
    (x : (⟨2, ![N, C]⟩ : Shape).Idx → EReal) (init : EReal) (r : Fin N) :
    Ideal.hostReduceAdd hred' x init (ix1 r) = init + ∑ k : Fin C, x (ix2 r k) := by
  have h : (⟨2, ![N, C]⟩ : Shape).Reduces [1] ⟨1, ![N]⟩ := ⟨hred'.1, Nat.one_pos, hred'.2⟩
  rw [Ideal.hostReduceAdd_single hred' h]
  refine congrArg (init + ·) ?_
  exact Finset.sum_congr rfl fun k _ => congrArg x (lift_col h r k)

/-- THE MEAN OF SQUARES OF A ROW as the reference writes it — square entry by entry, sum along the rows from the
    zero word, divide by the splat of a constant word `cw` — read at row `r`: the sum of the row's squares divided
    by the constant's value. -/
theorem meanSq_apply {N C : Nat} {u : Shape} (d : (⟨2, ![N, C]⟩ : Shape).Idx → EReal)
    (hred' : (⟨2, ![N, C]⟩ : Shape).ReducesTo [1] ⟨1, ![N]⟩) (hu : 0 < u.numel)
    (hbs : (⟨0, ![]⟩ : Shape).BroadcastsInDim ⟨1, ![N]⟩ ![]) (cw : BitVec 32) (r : Fin N) :
    Host.divf (F := Ideal) (φ := .f32)
        (Host.reduceAdd (F := Ideal) (φ := .f32) (mulf (F := Ideal) (φ := .f32) d d)
          (constant (F := Ideal) u .f32 0x00000000#32) hred' hu)
        (broadcastInDim (⟨1, ![N]⟩ : Shape) ![] hbs (constant (F := Ideal) ⟨0, ![]⟩ .f32 cw)) (ix1 r)
      = Ideal.div (∑ k : Fin C, d (ix2 r k) * d (ix2 r k)) (Ideal.ofBits .f32 cw) := by
  show Ideal.div (Ideal.hostReduceAdd hred' (mulf (F := Ideal) (φ := .f32) d d) (Ideal.ofBits .f32 0x00000000#32) (ix1 r))
      (Ideal.ofBits .f32 cw) = _
  rw [hostReduceAdd_rows, Ideal.ofBits_zero_f32, zero_add]
  rfl

end Cert.MeanSq

end
-- ==== Proof.MseTail.lean ====
/-
  The end of the computation on both sides, as whole arrays over the 100000 rows.  The kernel side takes the column
  of per-row means of squared differences and flattens it from 100000 × 1 to 100000; the reference side subtracts
  the two 100000 × 15 matrices, squares entry by entry, sums each row from the zero word, and divides by the splat
  of the float word of 15.  Entry r of either is the sum over the 15 columns of the squared difference of the two
  matrices' rows r, divided by the value of that word: the flattening keeps the row-major position (row r of a
  one-column array is position r), and a host row sum from zero is the exact sum of the row.  No finiteness is
  needed: nothing is distributed or cancelled.
-/
import proofs.«147065_j51737176047725_2_alg».proof.Proof.SpecMse
import proofs.«147065_j51737176047725_2_alg».proof.Proof.MeanSq
import Idealize.ShloMosaic.Lib.Pipeline.Value
import Idealize.ShloMosaic.Lib.ValueIdx

noncomputable section

namespace Cert.MseTail

open Idealize.ShloMosaic Idealize.ShloMosaic.ValueIdx

/-- The flattened column of row means is the reference's array expression of the same two matrices. -/
theorem mseTail_eq (x y : (⟨2, ![100000, 15]⟩ : Shape).Idx → EReal)
    (hsc : (⟨2, ![100000, 1]⟩ : Shape).ShapeCasts ⟨1, ![100000]⟩)
    (hred' : (⟨2, ![100000, 15]⟩ : Shape).ReducesTo [1] ⟨1, ![100000]⟩) (hu : 0 < (⟨0, ![]⟩ : Shape).numel)
    (hbs : (⟨0, ![]⟩ : Shape).BroadcastsInDim ⟨1, ![100000]⟩ ![]) :
    shapeCast (⟨1, ![100000]⟩ : Shape) (Cert.Spec.mseCol x y) hsc
      = Host.divf (F := Ideal) (φ := .f32)
          (Host.reduceAdd (F := Ideal) (φ := .f32)
            (mulf (F := Ideal) (φ := .f32) (subf (F := Ideal) (φ := .f32) x y) (subf (F := Ideal) (φ := .f32) x y))
            (constant (F := Ideal) ⟨0, ![]⟩ .f32 0x00000000#32) hred' hu)
          (broadcastInDim (⟨1, ![100000]⟩ : Shape) ![] hbs (constant (F := Ideal) ⟨0, ![]⟩ .f32 0x41700000#32)) := by
  funext i
  obtain ⟨r, rfl⟩ : ∃ r : Fin 100000, i = ix1 r := ⟨i 0, eq_ix1 i⟩
  -- row r of the one-column array and entry r of the flat array have the same row-major position
  refine (shapeCast_apply (Cert.Spec.mseCol x y) hsc (ix1 r) (ix2 r (0 : Fin 1)) ?_).trans ?_
  · rw [Shape.rowMajor_val_one, Shape.rowMajor_val_two]
    show r.val * 1 + 0 = r.val
    omega
  rw [Cert.Spec.mseCol_apply]
  exact (Cert.MeanSq.meanSq_apply (subf (F := Ideal) (φ := .f32) x y) hred' hu hbs 0x41700000#32 r).symm

end Cert.MseTail

end
-- ==== Proof.Bridge.lean ====
/-
  The last link: the value the idealized kernel computes, as a layered function of its fourteen arguments, is the
  value the reference computes, as the same layered function.  The two are written over two programs' separate
  vocabularies — shapes, dimension records and shape facts with the same contents under different names — so most
  layers agree by unfolding the names: the edge list with its self loops, the degrees, the symmetric coefficients,
  the weight products, the biases, the positive parts.  Two layers differ in substance.  Each aggregation runs on
  the kernel side over an edge list padded at its end with 1376 edges of coefficient 0, and a padded edge adds a
  gathered row times 0, which is 0 whatever the row holds, to an exact sum.  And the kernel side ends by flattening
  a column of per-row means where the reference divides a row sum of squares by a splat: entry by entry both are
  the sum over the 15 columns of the squared difference, divided by the value of the same word.  No finiteness of
  the inputs is used: nothing is distributed over a sum or cancelled.
-/
import proofs.«147065_j51737176047725_2_alg».proof.Proof.KModel
import proofs.«147065_j51737176047725_2_alg».proof.Proof.RefValue
import proofs.«147065_j51737176047725_2_alg».proof.Proof.ConvPad
import proofs.«147065_j51737176047725_2_alg».proof.Proof.MseTail

noncomputable section

namespace Cert.Bridge

open Idealize.ShloMosaic Cert.RowOps Cert.Spec

/-! ## The shared prefix: the same text in two vocabularies -/

theorem src_eq (ei : IVec Cert.KernelIdeal.S2x3200000 32) : Cert.KernelIdeal.Model.src ei = Cert.ReferenceIdeal.RefValue.src ei := rfl
theorem dst_eq (ei : IVec Cert.KernelIdeal.S2x3200000 32) : Cert.KernelIdeal.Model.dst ei = Cert.ReferenceIdeal.RefValue.dst ei := rfl
theorem deg_eq (ei : IVec Cert.KernelIdeal.S2x3200000 32) : Cert.KernelIdeal.Model.deg ei = Cert.ReferenceIdeal.RefValue.deg ei := rfl
theorem dinv_eq (ei : IVec Cert.KernelIdeal.S2x3200000 32) : Cert.KernelIdeal.Model.dinv ei = Cert.ReferenceIdeal.RefValue.dinv ei := by
  unfold Cert.KernelIdeal.Model.dinv Cert.ReferenceIdeal.RefValue.dinv
  rw [deg_eq] <;> rfl
theorem nrm_eq (ei : IVec Cert.KernelIdeal.S2x3200000 32) : Cert.KernelIdeal.Model.nrm ei = Cert.ReferenceIdeal.RefValue.nrm ei := by
  unfold Cert.KernelIdeal.Model.nrm Cert.ReferenceIdeal.RefValue.nrm
  rw [dinv_eq, src_eq, dst_eq] <;> rfl

/-! ## The aggregations and the pointwise layers -/

/-- One aggregation at width 8: the kernel's, over the edge list padded with 1376 zero-weight edges, is the
    reference's over the edge list itself — a padded edge adds a gathered row times 0 to an exact sum. -/
theorem agg8_eq (ei : IVec Cert.KernelIdeal.S2x3200000 32) (hw : FVec Ideal Cert.KernelIdeal.S100000x8 .f32) :
    Cert.KernelIdeal.Model.agg8 ei hw = Cert.ReferenceIdeal.RefValue.agg8 ei hw := by
  unfold Cert.KernelIdeal.Model.agg8 Cert.KernelIdeal.Model.srcP Cert.KernelIdeal.Model.dstP Cert.KernelIdeal.Model.nrmP Cert.ReferenceIdeal.RefValue.agg8
  rw [← src_eq ei, ← dst_eq ei, ← nrm_eq ei]
  exact Cert.ConvPad.conv_pad_host (φ := .f32) (by decide) _ _ _ _ _ _ _ _ _ _ _ _ _ _ 100000#32 _ hw
    (Cert.KernelIdeal.Model.dst ei) (Cert.KernelIdeal.Model.src ei) (Cert.KernelIdeal.Model.nrm ei) _ _ _ Ideal.ofBits_zero_f32

/-- The bias row repeated down the rows: the same text on both sides. -/
theorem bias8_eq (b : FVec Ideal Cert.KernelIdeal.S8 .f32) : Cert.KernelIdeal.Model.bias8 b = Cert.ReferenceIdeal.RefValue.bias8 b := rfl

/-- One aggregation at width 2: the kernel's, over the edge list padded with 1376 zero-weight edges, is the
    reference's over the edge list itself — a padded edge adds a gathered row times 0 to an exact sum. -/
theorem agg2_eq (ei : IVec Cert.KernelIdeal.S2x3200000 32) (hw : FVec Ideal Cert.KernelIdeal.S100000x2 .f32) :
    Cert.KernelIdeal.Model.agg2 ei hw = Cert.ReferenceIdeal.RefValue.agg2 ei hw := by
  unfold Cert.KernelIdeal.Model.agg2 Cert.KernelIdeal.Model.srcP Cert.KernelIdeal.Model.dstP Cert.KernelIdeal.Model.nrmP Cert.ReferenceIdeal.RefValue.agg2
  rw [← src_eq ei, ← dst_eq ei, ← nrm_eq ei]
  exact Cert.ConvPad.conv_pad_host (φ := .f32) (by decide) _ _ _ _ _ _ _ _ _ _ _ _ _ _ 100000#32 _ hw
    (Cert.KernelIdeal.Model.dst ei) (Cert.KernelIdeal.Model.src ei) (Cert.KernelIdeal.Model.nrm ei) _ _ _ Ideal.ofBits_zero_f32

/-- The bias row repeated down the rows: the same text on both sides. -/
theorem bias2_eq (b : FVec Ideal Cert.KernelIdeal.S2 .f32) : Cert.KernelIdeal.Model.bias2 b = Cert.ReferenceIdeal.RefValue.bias2 b := rfl

/-- One aggregation at width 15: the kernel's, over the edge list padded with 1376 zero-weight edges, is the
    reference's over the edge list itself — a padded edge adds a gathered row times 0 to an exact sum. -/
theorem agg15_eq (ei : IVec Cert.KernelIdeal.S2x3200000 32) (hw : FVec Ideal Cert.KernelIdeal.S100000x15 .f32) :
    Cert.KernelIdeal.Model.agg15 ei hw = Cert.ReferenceIdeal.RefValue.agg15 ei hw := by
  unfold Cert.KernelIdeal.Model.agg15 Cert.KernelIdeal.Model.srcP Cert.KernelIdeal.Model.dstP Cert.KernelIdeal.Model.nrmP Cert.ReferenceIdeal.RefValue.agg15
  rw [← src_eq ei, ← dst_eq ei, ← nrm_eq ei]
  exact Cert.ConvPad.conv_pad_host (φ := .f32) (by decide) _ _ _ _ _ _ _ _ _ _ _ _ _ _ 100000#32 _ hw
    (Cert.KernelIdeal.Model.dst ei) (Cert.KernelIdeal.Model.src ei) (Cert.KernelIdeal.Model.nrm ei) _ _ _ Ideal.ofBits_zero_f32

/-- The bias row repeated down the rows: the same text on both sides. -/
theorem bias15_eq (b : FVec Ideal Cert.KernelIdeal.S15 .f32) : Cert.KernelIdeal.Model.bias15 b = Cert.ReferenceIdeal.RefValue.bias15 b := rfl

/-- The positive part: the same text on both sides. -/
theorem relu8_eq (h : FVec Ideal Cert.KernelIdeal.S100000x8 .f32) : Cert.KernelIdeal.Model.relu8 h = Cert.ReferenceIdeal.RefValue.relu8 h := rfl

/-! ## The reconstruction, layer by layer from the inside -/

theorem recon_eq (x : FVec Ideal Cert.KernelIdeal.S100000x15 .f32) (ei : IVec Cert.KernelIdeal.S2x3200000 32)
    (W1 : FVec Ideal Cert.KernelIdeal.S15x8 .f32) (b1 : FVec Ideal Cert.KernelIdeal.S8 .f32) (W2 : FVec Ideal Cert.KernelIdeal.S8x8 .f32) (b2 : FVec Ideal Cert.KernelIdeal.S8 .f32)
    (W3 : FVec Ideal Cert.KernelIdeal.S8x2 .f32) (b3 : FVec Ideal Cert.KernelIdeal.S2 .f32) (W4 : FVec Ideal Cert.KernelIdeal.S2x8 .f32) (b4 : FVec Ideal Cert.KernelIdeal.S8 .f32)
    (W5 : FVec Ideal Cert.KernelIdeal.S8x8 .f32) (b5 : FVec Ideal Cert.KernelIdeal.S8 .f32) (W6 : FVec Ideal Cert.KernelIdeal.S8x15 .f32) (b6 : FVec Ideal Cert.KernelIdeal.S15 .f32) :
    Cert.KernelIdeal.Model.recon x ei W1 b1 W2 b2 W3 b3 W4 b4 W5 b5 W6 b6 = Cert.ReferenceIdeal.RefValue.recon x ei W1 b1 W2 b2 W3 b3 W4 b4 W5 b5 W6 b6 := by
  unfold Cert.KernelIdeal.Model.recon Cert.ReferenceIdeal.RefValue.recon Cert.ReferenceIdeal.RefValue.layer15 Cert.ReferenceIdeal.RefValue.h5 Cert.ReferenceIdeal.RefValue.h4 Cert.ReferenceIdeal.RefValue.h3 Cert.ReferenceIdeal.RefValue.h2 Cert.ReferenceIdeal.RefValue.h1 Cert.ReferenceIdeal.RefValue.layer8 Cert.ReferenceIdeal.RefValue.layer2
  simp only [agg8_eq, agg2_eq, agg15_eq, bias8_eq, bias2_eq, bias15_eq, relu8_eq]
  rfl

/-! ## The whole -/

/-- The kernel's value of its fourteen arguments is the reference's. -/
theorem kval_eq_refVal (x : FVec Ideal Cert.KernelIdeal.S100000x15 .f32) (ei : IVec Cert.KernelIdeal.S2x3200000 32)
    (W1 : FVec Ideal Cert.KernelIdeal.S15x8 .f32) (b1 : FVec Ideal Cert.KernelIdeal.S8 .f32) (W2 : FVec Ideal Cert.KernelIdeal.S8x8 .f32) (b2 : FVec Ideal Cert.KernelIdeal.S8 .f32)
    (W3 : FVec Ideal Cert.KernelIdeal.S8x2 .f32) (b3 : FVec Ideal Cert.KernelIdeal.S2 .f32) (W4 : FVec Ideal Cert.KernelIdeal.S2x8 .f32) (b4 : FVec Ideal Cert.KernelIdeal.S8 .f32)
    (W5 : FVec Ideal Cert.KernelIdeal.S8x8 .f32) (b5 : FVec Ideal Cert.KernelIdeal.S8 .f32) (W6 : FVec Ideal Cert.KernelIdeal.S8x15 .f32) (b6 : FVec Ideal Cert.KernelIdeal.S15 .f32) :
    Cert.KernelIdeal.Model.kval x ei W1 b1 W2 b2 W3 b3 W4 b4 W5 b5 W6 b6 = Cert.ReferenceIdeal.RefValue.refVal x ei W1 b1 W2 b2 W3 b3 W4 b4 W5 b5 W6 b6 := by
  unfold Cert.KernelIdeal.Model.kval Cert.ReferenceIdeal.RefValue.refVal
  rw [← recon_eq x ei W1 b1 W2 b2 W3 b3 W4 b4 W5 b5 W6 b6]
  exact Cert.MseTail.mseTail_eq x _ _ _ _ _

end Cert.Bridge

end
-- ==== Proof.lean ====
/-
  A six-layer graph autoencoder scored per node.  The kernel zero-pads the edge list to a multiple of 4096
  edges and does each layer's message scaling, and the final mean of squared errors, in pipelined calls; the
  reference works on the unpadded edge list with plain array operations.  Over the extended reals a padded
  edge contributes  hw[0, :] · 0 = 0  to node 0 (the product with 0 is 0 for every extended real), so each
  padded scatter-add is the unpadded one; the blocks the calls write back tile their arrays; and the mean of
  squares is the same sum divided by the same 15.  Hence both programs end with the same array.
  The three frames: the two kernels' are generated; the reference's is its run with the result dropped.
  The idealization rewrote nothing, so there is nothing to preserve.
-/
import proofs.«147065_j51737176047725_2_alg».proof.Defs
import proofs.«147065_j51737176047725_2_alg».proof.Proof.Gen.Kernel
import proofs.«147065_j51737176047725_2_alg».proof.Proof.Gen.Kernel.Skeleton
import proofs.«147065_j51737176047725_2_alg».proof.Proof.Gen.Kernel.Launch
import proofs.«147065_j51737176047725_2_alg».proof.Proof.Gen.Kernel.Points
import proofs.«147065_j51737176047725_2_alg».proof.Proof.Gen.Kernel.Frame
import proofs.«147065_j51737176047725_2_alg».proof.Proof.Gen.KernelIdeal
import proofs.«147065_j51737176047725_2_alg».proof.Proof.Gen.KernelIdeal.Skeleton
import proofs.«147065_j51737176047725_2_alg».proof.Proof.Gen.KernelIdeal.Launch
import proofs.«147065_j51737176047725_2_alg».proof.Proof.Gen.KernelIdeal.Points
import proofs.«147065_j51737176047725_2_alg».proof.Proof.Gen.KernelIdeal.Frame
import proofs.«147065_j51737176047725_2_alg».proof.Proof.Gen.ReferenceIdeal
import proofs.«147065_j51737176047725_2_alg».proof.Proof.Gen.Pre_finite_inputs
import proofs.«147065_j51737176047725_2_alg».proof.Proof.KernelRun
import proofs.«147065_j51737176047725_2_alg».proof.Proof.Fold2
import proofs.«147065_j51737176047725_2_alg».proof.Proof.RefFinal
import proofs.«147065_j51737176047725_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both idealized programs end with the layered value of the (shared) arguments: the kernel by its run read
    back through its segments, the reference by its run, and the two layered values are one function. -/
theorem algebraic : Cert.algebraic_KernelIdeal_ReferenceIdeal := by
  intro m ρ m' ρ' _ hagree
  refine ⟨fun c => Cert.KernelIdeal.Model.kval (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun _ h c => ⟨(h c).1.trans (Cert.KernelIdeal.Fold.result_eq m ρ c), (h c).2⟩)
      (Cert.KernelIdeal.ValueRun.run_named m ρ)
  · refine (θ_run Cert.ReferenceIdeal.defs _ _).mono (fun _ h c => ⟨(h c).1.trans ?_, (h c).2⟩) (Cert.ReferenceIdeal.RefValue.run m' ρ')
    obtain ⟨h0, h1, h2, h3, h4, h5, h6, h7, h8, h9, h10, h11, h12, h13⟩ := hagree c
    rw [h0, h1, h2, h3, h4, h5, h6, h7, h8, h9, h10, h11, h12, h13]
    exact (Cert.Bridge.kval_eq_refVal _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
